-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x16 : Shape := ⟨2, ![50000, 16]⟩
abbrev S50000x16x100 : Shape := ⟨3, ![50000, 16, 100]⟩
abbrev S456x256 : Shape := ⟨2, ![456, 256]⟩
abbrev S256 : Shape := ⟨1, ![256]⟩
abbrev S512x256 : Shape := ⟨2, ![512, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x16x100 : S_.BroadcastsInDim S50000x16x100 (![] : Fin 0 → Fin S50000x16x100.rank)
  reducesTo_S50000x16x100_S_d0_1_2 : S50000x16x100.ReducesTo [0, 1, 2] S_
  bcast_S_S456x256 : S_.BroadcastsInDim S456x256 (![] : Fin 0 → Fin S456x256.rank)
  reducesTo_S456x256_S_d0_1 : S456x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg5 : FVec F S256 .f32) (main_arg6 : FVec F S512x256 .f32) (main_arg7 : FVec F S256 .f32) (main_v13 : IVec S_ 1) (main_v16 : IVec S456x256 1) : IVec S_ 1 :=
  let main_c_5 : IVec S_ 1 := constantI S_ 1 1#1
  let main_v17 : IVec S_ 1 := (fun x v => Host.reduce IntOp.andi x v reducesTo_S456x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S50000x16 32) (main_arg2 : FVec F S50000x16x100 .f32) (main_arg3 : FVec F S50000x16x100 .f32) (main_arg4 : FVec F S456x256 .f32) (main_arg5 : FVec F S256 .f32) (main_arg6 : FVec F S512x256 .f32) (main_arg7 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x16x100 .f32 := Host.absf main_arg2
  let main_cst_0 : FVec F S_ .f32 := constant S_ .f32 0x7F800000#32
  let main_v5 : FVec F S50000x16x100 .f32 := broadcastInDim S50000x16x100 ![] bcast_S_S50000x16x100 main_cst_0
  let main_v6 : IVec S50000x16x100 1 := cmpf .olt main_v4 main_v5
  let main_c_1 : IVec S_ 1 := constantI S_ 1 1#1
  let main_v7 : IVec S_ 1 := (fun x v => Host.reduce IntOp.andi x v reducesTo_S50000x16x100_S_d0_1_2 h_S_) main_v6 main_c_1
  let main_v8 : IVec S_ 1 := andi main_v3 main_v7
  let main_v9 : FVec F S50000x16x100 .f32 := Host.absf main_arg3
  let main_cst_2 : FVec F S_ .f32 := constant S_ .f32 0x7F800000#32
  let main_v10 : FVec F S50000x16x100 .f32 := broadcastInDim S50000x16x100 ![] bcast_S_S50000x16x100 main_cst_2
  let main_v11 : IVec S50000x16x100 1 := cmpf .olt main_v9 main_v10
  let main_c_3 : IVec S_ 1 := constantI S_ 1 1#1
  let main_v12 : IVec S_ 1 := (fun x v => Host.reduce IntOp.andi x v reducesTo_S50000x16x100_S_d0_1_2 h_S_) main_v11 main_c_3
  let main_v13 : IVec S_ 1 := andi main_v8 main_v12
  let main_v14 : FVec F S456x256 .f32 := Host.absf main_arg4
  let main_cst_4 : FVec F S_ .f32 := constant S_ .f32 0x7F800000#32
  let main_v15 : FVec F S456x256 .f32 := broadcastInDim S456x256 ![] bcast_S_S456x256 main_cst_4
  let main_v16 : IVec S456x256 1 := cmpf .olt main_v14 main_v15
  fn_part1 (F := F) main_arg5 main_arg6 main_arg7 main_v13 main_v16
-- ==== Kernel.lean ====
abbrev S50000x256 : Shape := ⟨2, ![50000, 256]⟩
abbrev S50000x16 : Shape := ⟨2, ![50000, 16]⟩
abbrev S50000x16x100 : Shape := ⟨3, ![50000, 16, 100]⟩
abbrev S456x256 : Shape := ⟨2, ![456, 256]⟩
abbrev S256 : Shape := ⟨1, ![256]⟩
abbrev S512x256 : Shape := ⟨2, ![512, 256]⟩
abbrev S50000x100 : Shape := ⟨2, ![50000, 100]⟩
abbrev S400x16x100 : Shape := ⟨3, ![400, 16, 100]⟩
abbrev S400x100 : Shape := ⟨2, ![400, 100]⟩
abbrev S_ : Shape := ⟨0, ![]⟩
abbrev S50000x16x1 : Shape := ⟨3, ![50000, 16, 1]⟩
abbrev S1 : Shape := ⟨1, ![1]⟩
abbrev S1x1x1 : Shape := ⟨3, ![1, 1, 1]⟩
abbrev S50000x16x256 : Shape := ⟨3, ![50000, 16, 256]⟩
abbrev S2000x256 : Shape := ⟨2, ![2000, 256]⟩
abbrev S2000x100 : Shape := ⟨2, ![2000, 100]⟩
abbrev S256x256 : Shape := ⟨2, ![256, 256]⟩
abbrev S100x256 : Shape := ⟨2, ![100, 256]⟩
abbrev S1x256 : Shape := ⟨2, ![1, 256]⟩

abbrev nBuf : Space → Nat
  | .hbm => 64
  | .vmem => 36
  | .smem => 0
  | _ => 0

abbrev bufTy : (tb : Table) → Fin (tcTables nBuf tb) → BufTy
  | .hbm, ⟨0, _⟩ => ⟨S50000x256, .f32⟩
  | .hbm, ⟨1, _⟩ => ⟨S50000x16, .i32⟩
  | .hbm, ⟨2, _⟩ => ⟨S50000x16x100, .f32⟩
  | .hbm, ⟨3, _⟩ => ⟨S50000x16x100, .f32⟩
  | .hbm, ⟨4, _⟩ => ⟨S456x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S50000x100, .f32⟩
  | .hbm, ⟨9, _⟩ => ⟨S50000x100, .f32⟩
  | .hbm, ⟨10, _⟩ => ⟨S456x256, .bf16⟩
  | .hbm, ⟨11, _⟩ => ⟨S512x256, .bf16⟩
  | .hbm, ⟨12, _⟩ => ⟨S_, .i32⟩
  | .hbm, ⟨13, _⟩ => ⟨S50000x16, .i32⟩
  | .hbm, ⟨14, _⟩ => ⟨S50000x16, .i1⟩
  | .hbm, ⟨15, _⟩ => ⟨S_, .i32⟩
  | .hbm, ⟨16, _⟩ => ⟨S50000x16, .i32⟩
  | .hbm, ⟨17, _⟩ => ⟨S50000x16, .i32⟩
  | .hbm, ⟨18, _⟩ => ⟨S50000x16, .i32⟩
  | .hbm, ⟨19, _⟩ => ⟨S50000x16x1, .i32⟩
  | .hbm, ⟨20, _⟩ => ⟨S1, .i32⟩
  | .hbm, ⟨21, _⟩ => ⟨S_, .i32⟩
  | .hbm, ⟨22, _⟩ => ⟨S50000x16x1, .i32⟩
  | .hbm, ⟨23, _⟩ => ⟨S50000x16x1, .i1⟩
  | .hbm, ⟨24, _⟩ => ⟨S1x1x1, .i32⟩
  | .hbm, ⟨25, _⟩ => ⟨S50000x16x1, .i32⟩
  | .hbm, ⟨26, _⟩ => ⟨S50000x16x1, .i1⟩
  | .hbm, ⟨27, _⟩ => ⟨S50000x16x1, .i1⟩
  | .hbm, ⟨28, _⟩ => ⟨S_, .i1⟩
  | .hbm, ⟨29, _⟩ => ⟨S50000x16, .i1⟩
  | .hbm, ⟨30, _⟩ => ⟨S50000x16x256, .f32⟩
  | .hbm, ⟨31, _⟩ => ⟨S50000x16x256, .i1⟩
  | .hbm, ⟨32, _⟩ => ⟨S_, .f32⟩
  | .hbm, ⟨33, _⟩ => ⟨S50000x16x256, .f32⟩
  | .hbm, ⟨34, _⟩ => ⟨S50000x16x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S_, .i32⟩
  | .hbm, ⟨39, _⟩ => ⟨S50000x16, .i32⟩
  | .hbm, ⟨40, _⟩ => ⟨S50000x16, .i1⟩
  | .hbm, ⟨41, _⟩ => ⟨S_, .i32⟩
  | .hbm, ⟨42, _⟩ => ⟨S50000x16, .i32⟩
  | .hbm, ⟨43, _⟩ => ⟨S50000x16, .i32⟩
  | .hbm, ⟨44, _⟩ => ⟨S50000x16, .i32⟩
  | .hbm, ⟨45, _⟩ => ⟨S50000x16x1, .i32⟩
  | .hbm, ⟨46, _⟩ => ⟨S1, .i32⟩
  | .hbm, ⟨47, _⟩ => ⟨S_, .i32⟩
  | .hbm, ⟨48, _⟩ => ⟨S50000x16x1, .i32⟩
  | .hbm, ⟨49, _⟩ => ⟨S50000x16x1, .i1⟩
  | .hbm, ⟨50, _⟩ => ⟨S1x1x1, .i32⟩
  | .hbm, ⟨51, _⟩ => ⟨S50000x16x1, .i32⟩
  | .hbm, ⟨52, _⟩ => ⟨S50000x16x1, .i1⟩
  | .hbm, ⟨53, _⟩ => ⟨S50000x16x1, .i1⟩
  | .hbm, ⟨54, _⟩ => ⟨S_, .i1⟩
  | .hbm, ⟨55, _⟩ => ⟨S50000x16, .i1⟩
  | .hbm, ⟨56, _⟩ => ⟨S50000x16x256, .f32⟩
  | .hbm, ⟨57, _⟩ => ⟨S50000x16x256, .i1⟩
  | .hbm, ⟨58, _⟩ => ⟨S_, .f32⟩
  | .hbm, ⟨59, _⟩ => ⟨S50000x16x256, .f32⟩
  | .hbm, ⟨60, _⟩ => ⟨S50000x16x256, .f32⟩
  | .hbm, ⟨61, _⟩ => ⟨S_, .f32⟩
  | .hbm, ⟨62, _⟩ => ⟨S50000x256, .f32⟩
  | .hbm, ⟨63, _⟩ => ⟨S50000x256, .f32⟩
  | .local _ .vmem, ⟨0, _⟩ => ⟨S400x16x100, .f32⟩
  | .local _ .vmem, ⟨1, _⟩ => ⟨S400x16x100, .f32⟩
  | .local _ .vmem, ⟨2, _⟩ => ⟨S400x16x100, .f32⟩
  | .local _ .vmem, ⟨3, _⟩ => ⟨S400x16x100, .f32⟩
  | .local _ .vmem, ⟨4, _⟩ => ⟨S400x100, .f32⟩
  | .local _ .vmem, ⟨5, _⟩ => ⟨S400x100, .f32⟩
  | .local _ .vmem, ⟨6, _⟩ => ⟨S400x100, .f32⟩
  | .local _ .vmem, ⟨7, _⟩ => ⟨S400x100, .f32⟩
  | .local _ .vmem, ⟨8, _⟩ => ⟨S2000x256, .f32⟩
  | .local _ .vmem, ⟨9, _⟩ => ⟨S2000x256, .f32⟩
  | .local _ .vmem, ⟨10, _⟩ => ⟨S2000x100, .f32⟩
  | .local _ .vmem, ⟨11, _⟩ => ⟨S2000x100, .f32⟩
  | .local _ .vmem, ⟨12, _⟩ => ⟨S2000x100, .f32⟩
  | .local _ .vmem, ⟨13, _⟩ => ⟨S2000x100, .f32⟩
  | .local _ .vmem, ⟨14, _⟩ => ⟨S2000x256, .f32⟩
  | .local _ .vmem, ⟨15, _⟩ => ⟨S2000x256, .f32⟩
  | .local _ .vmem, ⟨16, _⟩ => ⟨S456x256, .bf16⟩
  | .local _ .vmem, ⟨17, _⟩ => ⟨S256, .f32⟩
  | .local _ .vmem, ⟨18, _⟩ => ⟨S512x256, .bf16⟩
  | .local _ .vmem, ⟨19, _⟩ => ⟨S256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x100, .f32⟩
  | .local _ .vmem, ⟨25, _⟩ => ⟨S2000x100, .f32⟩
  | .local _ .vmem, ⟨26, _⟩ => ⟨S2000x100, .f32⟩
  | .local _ .vmem, ⟨27, _⟩ => ⟨S2000x100, .f32⟩
  | .local _ .vmem, ⟨28, _⟩ => ⟨S2000x256, .f32⟩
  | .local _ .vmem, ⟨29, _⟩ => ⟨S2000x256, .f32⟩
  | .local _ .vmem, ⟨30, _⟩ => ⟨S456x256, .bf16⟩
  | .local _ .vmem, ⟨31, _⟩ => ⟨S256, .f32⟩
  | .local _ .vmem, ⟨32, _⟩ => ⟨S512x256, .bf16⟩
  | .local _ .vmem, ⟨33, _⟩ => ⟨S256, .f32⟩
  | .local _ .vmem, ⟨34, _⟩ => ⟨S2000x256, .f32⟩
  | .local _ .vmem, ⟨35, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_v5 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v6 : Ref sig .tc := ⟨.hbm, 60, rfl⟩
abbrev main_cst_0 : Ref sig .tc := ⟨.hbm, 61, rfl⟩
abbrev main_v7 : Ref sig .tc := ⟨.hbm, 62, rfl⟩
abbrev main_v8 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x16x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x16x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S456x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S456x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S400x16x100_S400x16x100_0_0_0 : ∀ a, (![0, 0, 0] : Fin 3 → Nat) a + S400x16x100.size a ≤ S400x16x100.size a
  h_S400x16x100 : 0 < S400x16x100.numel
  reduces_S400x16x100_S400x100 : S400x16x100.Reduces [1] S400x100
  inb_S400x100_S400x100_0_0 : ∀ a, (![0, 0] : Fin 2 → Nat) a + S400x100.size a ≤ S400x100.size a
  h_S400x100 : 0 < S400x100.numel
  bitsLt_bf16_f32 : FTy.bits .bf16 < FTy.bits .f32
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  bcast_S_S50000x16x1 : S_.BroadcastsInDim S50000x16x1 (![] : Fin 0 → Fin S50000x16x1.rank)
  bcast_S1_S1x1x1_2 : S1.BroadcastsInDim S1x1x1 (![2] : Fin 1 → Fin S1x1x1.rank)
  bcast_S1x1x1_S50000x16x1_0_1_2 : S1x1x1.BroadcastsInDim S50000x16x1 (![0, 1, 2] : Fin 3 → Fin S50000x16x1.rank)
  reducesTo_S50000x16x1_S50000x16_d2 : S50000x16x1.ReducesTo [2] S50000x16
  h_S_ : 0 < S_.numel
  bcast_S50000x16_S50000x16x256_0_1 : S50000x16.BroadcastsInDim S50000x16x256 (![0, 1] : Fin 2 → Fin S50000x16x256.rank)
  bcast_S_S50000x16x256 : S_.BroadcastsInDim S50000x16x256 (![] : Fin 0 → Fin S50000x16x256.rank)
  reducesTo_S50000x16x256_S50000x256_d1 : S50000x16x256.ReducesTo [1] S50000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x100_S2000x100_0_0 : ∀ a, (![0, 0] : Fin 2 → Nat) a + S2000x100.size a ≤ S2000x100.size a
  h_S2000x100 : 0 < S2000x100.numel
  shapeCasts_S2000x100_S2000x100 : S2000x100.ShapeCasts S2000x100
  inb_S456x256_S456x256_0_0 : ∀ a, (![0, 0] : Fin 2 → Nat) a + S456x256.size a ≤ S456x256.size a
  h_S456x256 : 0 < S456x256.numel
  shapeCasts_S456x256_S456x256 : S456x256.ShapeCasts S456x256
  slices_S456x256_o0_0_S256x256 : S456x256.Slices ![0, 0] S256x256
  slices_S456x256_o256_0_S100x256 : S456x256.Slices ![256, 0] S100x256
  slices_S456x256_o356_0_S100x256 : S456x256.Slices ![356, 0] S100x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S512x256_o0_0_S256x256 : S512x256.Slices ![0, 0] S256x256
  slices_S512x256_o256_0_S256x256 : S512x256.Slices ![256, 0] S256x256
  gather_S50000x256_S50000x16x1_S50000x16x256_2_0_n_n_0_2_1256_wf : GatherDims.WF S50000x256 S50000x16x1 S50000x16x256 [2] [0] [] [0] [] 2 ![1, 256]
  dot_S2000x256_S256x256_S2000x256_1_0_0_1_n_n_wf : DotDims.WF S2000x256 S256x256 S2000x256 [1] [0] [0] [1] [] []
  dot_S2000x100_S100x256_S2000x256_1_0_0_1_n_n_wf : DotDims.WF S2000x100 S100x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x16x100.size a ≤ S50000x16x100.size a
  hwx0_0 : ∀ i : grid0.Coords, EltTy.bits .f32 = 32 ∨ (Rect.block (s := S50000x16x100) S400x16x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x16x100.size a ≤ S50000x16x100.size a
  hwx0_1 : ∀ i : grid0.Coords, EltTy.bits .f32 = 32 ∨ (Rect.block (s := S50000x16x100) S400x16x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x100.size a ≤ S50000x100.size a
  hwx0_2 : ∀ i : grid0.Coords, EltTy.bits .f32 = 32 ∨ (Rect.block (s := S50000x100) S400x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x100.size a ≤ S50000x100.size a
  hwx0_3 : ∀ i : grid0.Coords, EltTy.bits .f32 = 32 ∨ (Rect.block (s := S50000x100) S400x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x100.size a ≤ S50000x100.size a
  hwx1_1 : ∀ i : grid1.Coords, EltTy.bits .f32 = 32 ∨ (Rect.block (s := S50000x100) S2000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x100.size a ≤ S50000x100.size a
  hwx1_2 : ∀ i : grid1.Coords, EltTy.bits .f32 = 32 ∨ (Rect.block (s := S50000x100) S2000x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S456x256.size a ≤ S456x256.size a
  hwx1_4 : ∀ i : grid1.Coords, EltTy.bits .bf16 = 32 ∨ (Rect.block (s := S456x256) S456x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x256.size a
  hwx1_6 : ∀ i : grid1.Coords, EltTy.bits .bf16 = 32 ∨ (Rect.block (s := S512x256) S512x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x100.size a ≤ S50000x100.size a
  hwx2_1 : ∀ i : grid2.Coords, EltTy.bits .f32 = 32 ∨ (Rect.block (s := S50000x100) S2000x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x100.size a ≤ S50000x100.size a
  hwx2_2 : ∀ i : grid2.Coords, EltTy.bits .f32 = 32 ∨ (Rect.block (s := S50000x100) S2000x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S456x256.size a ≤ S456x256.size a
  hwx2_4 : ∀ i : grid2.Coords, EltTy.bits .bf16 = 32 ∨ (Rect.block (s := S456x256) S456x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x256.size a ≤ S512x256.size a
  hwx2_6 : ∀ i : grid2.Coords, EltTy.bits .bf16 = 32 ∨ (Rect.block (s := S512x256) S512x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)

variable [Facts₀]

def gather_S50000x256_S50000x16x1_S50000x16x256_2_0_n_n_0_2_1256 : GatherDims S50000x256 S50000x16x1 S50000x16x256 where
  offsetDims := [2]
  collapsedSliceDims := [0]
  operandBatchingDims := []
  startIndicesBatchingDims := []
  startIndexMap := [0]
  indexVectorDim := 2
  sliceSizes := ![1, 256]
  wf := gather_S50000x256_S50000x16x1_S50000x16x256_2_0_n_n_0_2_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x100_S100x256_S2000x256_1_0_0_1_n_n : DotDims S2000x100 S100x256 S2000x256 where
  lhsContracting := [1]
  rhsContracting := [0]
  lhsNonContracting := [0]
  rhsNonContracting := [1]
  lhsBatch := []
  rhsBatch := []
  wf := dot_S2000x100_S100x256_S2000x256_1_0_0_1_n_n_wf

abbrev win0_0 : Pipeline.Window sig grid0 :=
  Pipeline.Window.ofSpec (Memref.whole main_arg2) S400x16x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S400x16x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S400x100.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S400x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2000x100.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S456x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S512x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v7) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S2000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S2000x100.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S456x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S512x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x256 : Shape := ⟨2, ![50000, 256]⟩
abbrev S50000x16 : Shape := ⟨2, ![50000, 16]⟩
abbrev S50000x16x100 : Shape := ⟨3, ![50000, 16, 100]⟩
abbrev S456x256 : Shape := ⟨2, ![456, 256]⟩
abbrev S256 : Shape := ⟨1, ![256]⟩
abbrev S512x256 : Shape := ⟨2, ![512, 256]⟩
abbrev S_ : Shape := ⟨0, ![]⟩
abbrev S50000x100 : Shape := ⟨2, ![50000, 100]⟩
abbrev S50000x16x1 : Shape := ⟨3, ![50000, 16, 1]⟩
abbrev S1 : Shape := ⟨1, ![1]⟩
abbrev S1x1x1 : Shape := ⟨3, ![1, 1, 1]⟩
abbrev S50000x16x256 : Shape := ⟨3, ![50000, 16, 256]⟩
abbrev S50000x456 : Shape := ⟨2, ![50000, 456]⟩
abbrev S1x256 : Shape := ⟨2, ![1, 256]⟩
abbrev S50000x512 : Shape := ⟨2, ![50000, 512]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x16, .i32⟩
  | .hbm, ⟨2, _⟩ => ⟨S50000x16x100, .f32⟩
  | .hbm, ⟨3, _⟩ => ⟨S50000x16x100, .f32⟩
  | .hbm, ⟨4, _⟩ => ⟨S456x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S_, .f32⟩
  | .hbm, ⟨9, _⟩ => ⟨S50000x100, .f32⟩
  | .hbm, ⟨10, _⟩ => ⟨S_, .f32⟩
  | .hbm, ⟨11, _⟩ => ⟨S50000x100, .f32⟩
  | .hbm, ⟨12, _⟩ => ⟨S_, .i32⟩
  | .hbm, ⟨13, _⟩ => ⟨S50000x16, .i32⟩
  | .hbm, ⟨14, _⟩ => ⟨S50000x16, .i1⟩
  | .hbm, ⟨15, _⟩ => ⟨S_, .i32⟩
  | .hbm, ⟨16, _⟩ => ⟨S50000x16, .i32⟩
  | .hbm, ⟨17, _⟩ => ⟨S50000x16, .i32⟩
  | .hbm, ⟨18, _⟩ => ⟨S50000x16, .i32⟩
  | .hbm, ⟨19, _⟩ => ⟨S50000x16x1, .i32⟩
  | .hbm, ⟨20, _⟩ => ⟨S1, .i32⟩
  | .hbm, ⟨21, _⟩ => ⟨S_, .i32⟩
  | .hbm, ⟨22, _⟩ => ⟨S50000x16x1, .i32⟩
  | .hbm, ⟨23, _⟩ => ⟨S50000x16x1, .i1⟩
  | .hbm, ⟨24, _⟩ => ⟨S1x1x1, .i32⟩
  | .hbm, ⟨25, _⟩ => ⟨S50000x16x1, .i32⟩
  | .hbm, ⟨26, _⟩ => ⟨S50000x16x1, .i1⟩
  | .hbm, ⟨27, _⟩ => ⟨S50000x16x1, .i1⟩
  | .hbm, ⟨28, _⟩ => ⟨S_, .i1⟩
  | .hbm, ⟨29, _⟩ => ⟨S50000x16, .i1⟩
  | .hbm, ⟨30, _⟩ => ⟨S50000x16x256, .f32⟩
  | .hbm, ⟨31, _⟩ => ⟨S50000x16x256, .i1⟩
  | .hbm, ⟨32, _⟩ => ⟨S_, .f32⟩
  | .hbm, ⟨33, _⟩ => ⟨S50000x16x256, .f32⟩
  | .hbm, ⟨34, _⟩ => ⟨S50000x16x256, .f32⟩
  | .hbm, ⟨35, _⟩ => ⟨S_, .f32⟩
  | .hbm, ⟨36, _⟩ => ⟨S50000x256, .f32⟩
  | .hbm, ⟨37, _⟩ => ⟨S50000x456, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x512, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S50000x16, .i32⟩
  | .hbm, ⟨52, _⟩ => ⟨S50000x16, .i1⟩
  | .hbm, ⟨53, _⟩ => ⟨S_, .i32⟩
  | .hbm, ⟨54, _⟩ => ⟨S50000x16, .i32⟩
  | .hbm, ⟨55, _⟩ => ⟨S50000x16, .i32⟩
  | .hbm, ⟨56, _⟩ => ⟨S50000x16, .i32⟩
  | .hbm, ⟨57, _⟩ => ⟨S50000x16x1, .i32⟩
  | .hbm, ⟨58, _⟩ => ⟨S1, .i32⟩
  | .hbm, ⟨59, _⟩ => ⟨S_, .i32⟩
  | .hbm, ⟨60, _⟩ => ⟨S50000x16x1, .i32⟩
  | .hbm, ⟨61, _⟩ => ⟨S50000x16x1, .i1⟩
  | .hbm, ⟨62, _⟩ => ⟨S1x1x1, .i32⟩
  | .hbm, ⟨63, _⟩ => ⟨S50000x16x1, .i32⟩
  | .hbm, ⟨64, _⟩ => ⟨S50000x16x1, .i1⟩
  | .hbm, ⟨65, _⟩ => ⟨S50000x16x1, .i1⟩
  | .hbm, ⟨66, _⟩ => ⟨S_, .i1⟩
  | .hbm, ⟨67, _⟩ => ⟨S50000x16, .i1⟩
  | .hbm, ⟨68, _⟩ => ⟨S50000x16x256, .f32⟩
  | .hbm, ⟨69, _⟩ => ⟨S50000x16x256, .i1⟩
  | .hbm, ⟨70, _⟩ => ⟨S_, .f32⟩
  | .hbm, ⟨71, _⟩ => ⟨S50000x16x256, .f32⟩
  | .hbm, ⟨72, _⟩ => ⟨S50000x16x256, .f32⟩
  | .hbm, ⟨73, _⟩ => ⟨S_, .f32⟩
  | .hbm, ⟨74, _⟩ => ⟨S50000x256, .f32⟩
  | .hbm, ⟨75, _⟩ => ⟨S50000x456, .f32⟩
  | .hbm, ⟨76, _⟩ => ⟨S50000x256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S50000x512, .f32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_cst_1 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_call1_cst : Ref sig .tc := ⟨.hbm, 42, rfl⟩
abbrev main_call1_v0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v15 : Ref sig .tc := ⟨.hbm, 72, rfl⟩
abbrev main_cst_2 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_call3_cst : Ref sig .tc := ⟨.hbm, 80, rfl⟩
abbrev main_call3_v0 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩

abbrev nD : Nat := 1
abbrev τ : Topo := Topo.v7x

variable {F : FTy → Type} [FloatOps F]

class Facts₀ : Prop where
  reducesTo_S50000x16x100_S50000x100_d1 : S50000x16x100.ReducesTo [1] S50000x100
  h_S_ : 0 < S_.numel
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  bcast_S_S50000x16x1 : S_.BroadcastsInDim S50000x16x1 (![] : Fin 0 → Fin S50000x16x1.rank)
  bcast_S1_S1x1x1_2 : S1.BroadcastsInDim S1x1x1 (![2] : Fin 1 → Fin S1x1x1.rank)
  bcast_S1x1x1_S50000x16x1_0_1_2 : S1x1x1.BroadcastsInDim S50000x16x1 (![0, 1, 2] : Fin 3 → Fin S50000x16x1.rank)
  reducesTo_S50000x16x1_S50000x16_d2 : S50000x16x1.ReducesTo [2] S50000x16
  bcast_S50000x16_S50000x16x256_0_1 : S50000x16.BroadcastsInDim S50000x16x256 (![0, 1] : Fin 2 → Fin S50000x16x256.rank)
  bcast_S_S50000x16x256 : S_.BroadcastsInDim S50000x16x256 (![] : Fin 0 → Fin S50000x16x256.rank)
  reducesTo_S50000x16x256_S50000x256_d1 : S50000x16x256.ReducesTo [1] S50000x256
  concatenates_S50000x256_S50000x100_S50000x100_S50000x456_d1 : Shape.Concatenates [S50000x256, S50000x100, S50000x100] S50000x456 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S50000x256_S50000x256_S50000x512_d1 : Shape.Concatenates [S50000x256, S50000x256] S50000x512 1
  gather_S50000x256_S50000x16x1_S50000x16x256_2_0_n_n_0_2_1256_wf : GatherDims.WF S50000x256 S50000x16x1 S50000x16x256 [2] [0] [] [0] [] 2 ![1, 256]
  dot_S50000x456_S456x256_S50000x256_1_0_0_1_n_n_wf : DotDims.WF S50000x456 S456x256 S50000x256 [1] [0] [0] [1] [] []
  dot_S50000x512_S512x256_S50000x256_1_0_0_1_n_n_wf : DotDims.WF S50000x512 S512x256 S50000x256 [1] [0] [0] [1] [] []

variable [Facts₀]

def gather_S50000x256_S50000x16x1_S50000x16x256_2_0_n_n_0_2_1256 : GatherDims S50000x256 S50000x16x1 S50000x16x256 where
  offsetDims := [2]
  collapsedSliceDims := [0]
  operandBatchingDims := []
  startIndicesBatchingDims := []
  startIndexMap := [0]
  indexVectorDim := 2
  sliceSizes := ![1, 256]
  wf := gather_S50000x256_S50000x16x1_S50000x16x256_2_0_n_n_0_2_1256_wf
def dot_S50000x456_S456x256_S50000x256_1_0_0_1_n_n : DotDims S50000x456 S456x256 S50000x256 where
  lhsContracting := [1]
  rhsContracting := [0]
  lhsNonContracting := [0]
  rhsNonContracting := [1]
  lhsBatch := []
  rhsBatch := []
  wf := dot_S50000x456_S456x256_S50000x256_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.KerRun.lean ====
/-
  The idealized kernel program's run with its result named.

  The program is three kernel calls among stretches of host operations.  Its buffer contents at every boundary are a
  fold from the launch memory: a host stretch applies its operations, a kernel call replaces its output arrays by what
  its write-backs leave and keeps every other buffer.  Every weakly fair execution terminates with every unscoped
  buffer at the last boundary's contents; read at the result buffer this names the result, and read at an argument
  it walks back to the launch contents.
-/
import proofs.«178062_j48747878810094_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents `W8` and the eight arguments as launched. -/
theorem run : θ_run defs (onTc (τ := τ) (main (F := F))) ⟨m, fun _ => 0, ρ⟩ (fun r => ∀ c : Dev nD,
      r.2.mem ((c.tc : Thread nD τ).loc main_v8) = W8 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v8 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KerRun

end
-- ==== Proof.Spec.lean ====
/-
  The mathematics both programs compute, stated once over the extended reals with no program in sight.

  A node's update is row-local.  For node `n` with neighbour-sum row `sN` (256 entries), edge-feature and
  time-feature row sums `sE`, `sT` (100 entries each) and current embedding row `o` (256 entries):

      agg j  = max (Σ_{k<256} sN k · W1[k, j] + Σ_{k<100} sE k · W1[256 + k, j] + Σ_{k<100} sT k · W1[356 + k, j] + b1 j) 0
      new j  = Σ_{k<256} o k · W2[k, j] + Σ_{k<256} agg k · W2[256 + k, j] + b2 j

  One program forms the three partial products separately; the other multiplies the concatenated row
  (456 = 256 + 100 + 100 entries, resp. 512 = 256 + 256) by the whole weight matrix.  The two agree because a sum
  over `Fin (a + b)` splits into the sum over the first `a` and the last `b` indices: only associativity of `+`
  on the extended reals is used, so no finiteness is needed.
-/
import Idealize.ShloMosaic.PureOps.Ideal
import Idealize.ShloMosaic.Lib.ValueIdx

noncomputable section

namespace Cert.Spec

open Idealize.ShloMosaic Idealize.ShloMosaic.ValueIdx

/-- The relu's threshold as both programs spell it: the f32 word of `0.0`. -/
abbrev zeroWord : EReal := Ideal.ofBits .f32 0x00000000#32

/-- The aggregated message of one node, entry `j`: relu of the three partial products plus the bias. -/
def aggRow (sN : Fin 256 → EReal) (sE sT : Fin 100 → EReal) (w1 : Fin 456 → Fin 256 → EReal) (b1 : Fin 256 → EReal)
    (j : Fin 256) : EReal :=
  max ((((∑ k : Fin 256, sN k * w1 ⟨k.val, by have := k.isLt; omega⟩ j)
          + ∑ k : Fin 100, sE k * w1 ⟨256 + k.val, by have := k.isLt; omega⟩ j)
          + ∑ k : Fin 100, sT k * w1 ⟨356 + k.val, by have := k.isLt; omega⟩ j) + b1 j) zeroWord

/-- The updated embedding of one node, entry `j`: the old row through the top half of `W2`, the aggregated message
    through the bottom half, plus the bias. -/
def layerRow (sN : Fin 256 → EReal) (sE sT : Fin 100 → EReal) (o : Fin 256 → EReal) (w1 : Fin 456 → Fin 256 → EReal)
    (b1 : Fin 256 → EReal) (w2 : Fin 512 → Fin 256 → EReal) (b2 : Fin 256 → EReal) (j : Fin 256) : EReal :=
  ((∑ k : Fin 256, o k * w2 ⟨k.val, by have := k.isLt; omega⟩ j)
    + ∑ k : Fin 256, aggRow sN sE sT w1 b1 k * w2 ⟨256 + k.val, by have := k.isLt; omega⟩ j) + b2 j

/-- The sum over the 16 neighbours of a [50000, 16, 100] array: entry (n, e) is Σ_k x[n, k, e]. -/
def rowSum (x : (⟨3, ![50000, 16, 100]⟩ : Shape).Idx → EReal) : (⟨2, ![50000, 100]⟩ : Shape).Idx → EReal :=
  fun i => ∑ k : Fin 16, x (ix3 (i 0) k (i 1))

/-- One layer on whole arrays: row `n` of the result is `layerRow` of row `n` of the four per-node arrays. -/
def layer (sN : (⟨2, ![50000, 256]⟩ : Shape).Idx → EReal) (sE sT : (⟨2, ![50000, 100]⟩ : Shape).Idx → EReal)
    (o : (⟨2, ![50000, 256]⟩ : Shape).Idx → EReal) (w1 : (⟨2, ![456, 256]⟩ : Shape).Idx → EReal)
    (b1 : (⟨1, ![256]⟩ : Shape).Idx → EReal) (w2 : (⟨2, ![512, 256]⟩ : Shape).Idx → EReal)
    (b2 : (⟨1, ![256]⟩ : Shape).Idx → EReal) : (⟨2, ![50000, 256]⟩ : Shape).Idx → EReal :=
  fun i => layerRow (fun k => sN (ix2 (i 0) k)) (fun k => sE (ix2 (i 0) k)) (fun k => sT (ix2 (i 0) k))
    (fun k => o (ix2 (i 0) k)) (fun k j => w1 (ix2 k j)) (fun j => b1 (ix1 j)) (fun k j => w2 (ix2 k j))
    (fun j => b2 (ix1 j)) (i 1)

/-- A sum over 456 = 256 + 100 + 100 indices, split where the concatenated row's three parts meet. -/
theorem sum456 (f : Fin 456 → EReal) :
    ∑ k : Fin 456, f k
      = ((∑ k : Fin 256, f ⟨k.val, by have := k.isLt; omega⟩) + ∑ k : Fin 100, f ⟨256 + k.val, by have := k.isLt; omega⟩)
        + ∑ k : Fin 100, f ⟨356 + k.val, by have := k.isLt; omega⟩ := by
  have h1 := Fin.sum_univ_add (M := EReal) (a := 356) (b := 100) f
  have h2 := Fin.sum_univ_add (M := EReal) (a := 256) (b := 100) (fun k => f (Fin.castAdd 100 k))
  exact h1.trans (congrArg (· + _) h2)

/-- A sum over 512 = 256 + 256 indices, split in the middle. -/
theorem sum512 (f : Fin 512 → EReal) :
    ∑ k : Fin 512, f k
      = (∑ k : Fin 256, f ⟨k.val, by have := k.isLt; omega⟩) + ∑ k : Fin 256, f ⟨256 + k.val, by have := k.isLt; omega⟩ :=
  Fin.sum_univ_add (M := EReal) (a := 256) (b := 256) f

end Cert.Spec

end
-- ==== Proof.KerTerms.lean ====
/-
  The host-side operations of this program as pure functions of arrays, generic in the float instance.

  `takeSum x nb` is jnp.take(x, nb, axis=0).sum(axis=1) exactly as it is lowered: negative indices are shifted by the
  table's length, the shifted index is looked up (a gather of whole rows), rows whose index lies outside
  0 … 49999 are replaced by the quiet-NaN word, and the 16 gathered rows of each node are added up.  Both programs of
  this certificate apply these very operations, so nothing about them is ever opened: they are carried as one function.
-/
import proofs.«178062_j48747878810094_2_alg».proof.KernelIdeal
import proofs.«178062_j48747878810094_2_alg».proof.Proof.Gen.KernelIdeal

noncomputable section

namespace Cert.KernelIdeal.Terms

open Idealize.ShloMosaic Cert.KernelIdeal Cert.KernelIdeal.Facts₀ Cert.KernelIdeal.Facts

variable {F : FTy → Type} [FloatOps F]

/-- The 16 neighbour rows of every node gathered out of `x`: a [50000, 16, 256] array. -/
def take (x : (⟨S50000x256, .f32⟩ : BufTy).Contents (Elt F)) (nb : (⟨S50000x16, .i32⟩ : BufTy).Contents (Elt F)) :
    (⟨S50000x16x256, .f32⟩ : BufTy).Contents (Elt F) :=
  let c : (⟨S_, .i32⟩ : BufTy).Contents (Elt F) := constantI S_ 32 0#32
  let v0 : (⟨S50000x16, .i32⟩ : BufTy).Contents (Elt F) := broadcastInDim S50000x16 ![] bcast_S_S50000x16 c
  let v1 : (⟨S50000x16, .i1⟩ : BufTy).Contents (Elt F) := cmpi .slt nb v0
  let c_0 : (⟨S_, .i32⟩ : BufTy).Contents (Elt F) := constantI S_ 32 50000#32
  let v2 : (⟨S50000x16, .i32⟩ : BufTy).Contents (Elt F) := broadcastInDim S50000x16 ![] bcast_S_S50000x16 c_0
  let v3 : (⟨S50000x16, .i32⟩ : BufTy).Contents (Elt F) := addi nb v2
  let v4 : (⟨S50000x16, .i32⟩ : BufTy).Contents (Elt F) := select v1 v3 nb
  let v5 : (⟨S50000x16x1, .i32⟩ : BufTy).Contents (Elt F) := broadcastInDim S50000x16x1 ![0, 1] bcast_S50000x16_S50000x16x1_0_1 v4
  let c_1 : (⟨S1, .i32⟩ : BufTy).Contents (Elt F) := constantI S1 32 49999#32
  let c_2 : (⟨S_, .i32⟩ : BufTy).Contents (Elt F) := constantI S_ 32 0#32
  let v6 : (⟨S50000x16x1, .i32⟩ : BufTy).Contents (Elt F) := broadcastInDim S50000x16x1 ![] bcast_S_S50000x16x1 c_2
  let v7 : (⟨S50000x16x1, .i1⟩ : BufTy).Contents (Elt F) := cmpi .sge v5 v6
  let v8 : (⟨S1x1x1, .i32⟩ : BufTy).Contents (Elt F) := broadcastInDim S1x1x1 ![2] bcast_S1_S1x1x1_2 c_1
  let v9 : (⟨S50000x16x1, .i32⟩ : BufTy).Contents (Elt F) := broadcastInDim S50000x16x1 ![0, 1, 2] bcast_S1x1x1_S50000x16x1_0_1_2 v8
  let v10 : (⟨S50000x16x1, .i1⟩ : BufTy).Contents (Elt F) := cmpi .sle v5 v9
  let v11 : (⟨S50000x16x1, .i1⟩ : BufTy).Contents (Elt F) := andi v7 v10
  let c_3 : (⟨S_, .i1⟩ : BufTy).Contents (Elt F) := constantI S_ 1 1#1
  let v12 : (⟨S50000x16, .i1⟩ : BufTy).Contents (Elt F) := Host.reduce IntOp.andi v11 c_3 reducesTo_S50000x16x1_S50000x16_d2 h_S_
  let v13 : (⟨S50000x16x256, .f32⟩ : BufTy).Contents (Elt F) := Host.gather gather_S50000x256_S50000x16x1_S50000x16x256_2_0_n_n_0_2_1256 x v5
  let v14 : (⟨S50000x16x256, .i1⟩ : BufTy).Contents (Elt F) := broadcastInDim S50000x16x256 ![0, 1] bcast_S50000x16_S50000x16x256_0_1 v12
  let cst : (⟨S_, .f32⟩ : BufTy).Contents (Elt F) := constant S_ .f32 0x7FC00000#32
  let v15 : (⟨S50000x16x256, .f32⟩ : BufTy).Contents (Elt F) := broadcastInDim S50000x16x256 ![] bcast_S_S50000x16x256 cst
  select v14 v13 v15

/-- The 16 neighbour rows of every node gathered out of `x` and summed. -/
def takeSum (x : (⟨S50000x256, .f32⟩ : BufTy).Contents (Elt F)) (nb : (⟨S50000x16, .i32⟩ : BufTy).Contents (Elt F)) :
    (⟨S50000x256, .f32⟩ : BufTy).Contents (Elt F) :=
  Host.reduceAdd (take x nb) (constant S_ .f32 0x00000000#32) reducesTo_S50000x16x256_S50000x256_d1 h_S_

end Cert.KernelIdeal.Terms

end
-- ==== Proof.KerHost.lean ====
/-
  The kernel program's host stretches read at the buffers the kernel calls take.

  Between the calls the program gathers the 16 neighbour rows of every node out of the current embedding and adds
  them up (the same operations the reference applies, carried here as the one function `Terms.takeSum`), and once,
  before the first layer call, rounds the two weight matrices to bf16.  Each lemma reads the fold of a stretch at one
  buffer it writes, over any contents the stretch is entered with.
-/
import proofs.«178062_j48747878810094_2_alg».proof.Proof.Gen.KernelIdeal.Launch
import proofs.«178062_j48747878810094_2_alg».proof.Proof.KerTerms
import Idealize.ShloMosaic.Lib.StableHlo.Run

noncomputable section

namespace Cert.KernelIdeal.KerHost

open Idealize.ShloMosaic Idealize.ShloMosaic.TcCoe Idealize.SL.Sem Cert.KernelIdeal Cert.KernelIdeal.Gen
open Idealize.ShloMosaic.StableHlo

variable {F : FTy → Type} [FloatOps F]

/-- Reading back at a typed reference what was written through it is the identity. -/
theorem ofBuf_toBuf {T : BufTy} (x : TRef sig T) (v : T.Contents (Elt F)) : x.ofBuf (x.toBuf v) = v := by
  rcases x with ⟨r, h, h2, h3⟩
  cases h
  rfl

attribute [local irreducible] Host.reduce Host.reduceAdd Host.gather in
set_option maxHeartbeats 1000000 in
/-- The gather of the first stretch: after its 23 operations the gathered-rows buffer holds `take` of the embedding
    and index buffers as the stretch found them (read and written through the typed references). -/
theorem gather1 (W : Valuation τ sig (Elt F)) :
    StableHlo.after hostOps1_1 W (Proc.devRef .tc main_v3)
      = (TRef.of main_v3 : TRef sig ⟨S50000x16x256, .f32⟩).toBuf
          (Terms.take ((TRef.of main_arg0 : TRef sig ⟨S50000x256, .f32⟩).ofBuf (W (Proc.devRef .tc main_arg0)))
            ((TRef.of main_arg1 : TRef sig ⟨S50000x16, .i32⟩).ofBuf (W (Proc.devRef .tc main_arg1)))) := by
  after_results
  simp only [ofBuf_toBuf]
  rfl

attribute [local irreducible] Host.reduce Host.reduceAdd Host.gather in
set_option maxHeartbeats 1000000 in
/-- The gather of the second stretch, out of the first layer call's output. -/
theorem gather2 (W : Valuation τ sig (Elt F)) :
    StableHlo.after hostOps2 W (Proc.devRef .tc main_v6)
      = (TRef.of main_v6 : TRef sig ⟨S50000x16x256, .f32⟩).toBuf
          (Terms.take ((TRef.of main_v5 : TRef sig ⟨S50000x256, .f32⟩).ofBuf (W (Proc.devRef .tc main_v5)))
            ((TRef.of main_arg1 : TRef sig ⟨S50000x16, .i32⟩).ofBuf (W (Proc.devRef .tc main_arg1)))) := by
  after_results
  simp only [ofBuf_toBuf]
  rfl

/-- The add-reduction after the first gather. -/
theorem sum1 (W : Valuation τ sig (Elt F)) :
    StableHlo.after hostOps1_2 W (Proc.devRef .tc main_v4)
      = Host.reduceAdd (W (Proc.devRef .tc main_v3)) (constant S_ .f32 0x00000000#32)
          Facts₀.reducesTo_S50000x16x256_S50000x256_d1 Facts₀.h_S_ := by
  after_results

/-- The add-reduction after the second gather. -/
theorem sum2 (W : Valuation τ sig (Elt F)) :
    StableHlo.after hostOps2_1 W (Proc.devRef .tc main_v7)
      = Host.reduceAdd (W (Proc.devRef .tc main_v6)) (constant S_ .f32 0x00000000#32)
          Facts₀.reducesTo_S50000x16x256_S50000x256_d1 Facts₀.h_S_ := by
  after_results

attribute [local irreducible] Host.reduce Host.reduceAdd Host.gather Terms.take in
/-- The first gather-and-sum: the neighbour-sum buffer holds `takeSum` of the embedding and index buffers. -/
theorem take1 (W : Valuation τ sig (Elt F)) :
    StableHlo.after hostOps1_2 (StableHlo.after hostOps1_1 W) (Proc.devRef .tc main_v4)
      = Terms.takeSum (W (Proc.devRef .tc main_arg0)) (W (Proc.devRef .tc main_arg1)) := by
  rw [sum1, gather1]
  rfl

attribute [local irreducible] Host.reduce Host.reduceAdd Host.gather Terms.take in
/-- The second gather-and-sum, out of the first layer call's output. -/
theorem take2 (W : Valuation τ sig (Elt F)) :
    StableHlo.after hostOps2_1 (StableHlo.after hostOps2 W) (Proc.devRef .tc main_v7)
      = Terms.takeSum (W (Proc.devRef .tc main_v5)) (W (Proc.devRef .tc main_arg1)) := by
  rw [sum2, gather2]
  rfl

/-- The first weight matrix rounded to bf16. -/
theorem conv1 (W : Valuation τ sig (Elt F)) :
    StableHlo.after hostOps1 W (Proc.devRef .tc main_v1)
      = (truncf .bf16 (W (Proc.devRef .tc main_arg4)) bitsLt_bf16_f32 : (⟨S456x256, .bf16⟩ : BufTy).Contents (Elt F)) := by
  simp only [StableHlo.after_cons, StableHlo.after_nil]
  rfl

/-- The second weight matrix rounded to bf16. -/
theorem conv2 (W : Valuation τ sig (Elt F)) :
    StableHlo.after hostOps1 W (Proc.devRef .tc main_v2)
      = (truncf .bf16 (W (Proc.devRef .tc main_arg6)) bitsLt_bf16_f32 : (⟨S512x256, .bf16⟩ : BufTy).Contents (Elt F)) := by
  simp only [StableHlo.after_cons, StableHlo.after_nil]
  rfl

end Cert.KernelIdeal.KerHost

end
-- ==== Proof.LayerBlock.lean ====
/-
  The layer kernel's block computation read at an index.

  At one grid point the layer kernel loads a block of 2000 rows of the four per-node arrays and the whole weight
  and bias arrays, and stores one [2000, 256] block.  Entry (r, j) of that block depends only on row r of the loaded
  per-node blocks: it is `Cert.Spec.layerRow` of those rows — the three partial matrix products into the first
  weight matrix's row ranges 0–255, 256–355, 356–455, the bias, the relu, then the two partial products into the
  second weight matrix's halves and the second bias.  Rounding to bf16 is the identity on the extended reals.
-/
import proofs.«178062_j48747878810094_2_alg».proof.Proof.Gen.KernelIdeal.Frame
import proofs.«178062_j48747878810094_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerBlock

open Idealize.ShloMosaic Idealize.ShloMosaic.ValueIdx Cert.KernelIdeal Cert.KernelIdeal.Gen

/-! ## The two matrix products at an entry -/

/-- On the product's left operand the row coordinate is the output's row … -/
theorem mm256_lhs0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- … and the column coordinate is the summation index. -/
theorem mm256_lhs1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- On the right operand the row coordinate is the summation index … -/
theorem mm256_rhs0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- … and the column coordinate is the output's column. -/
theorem mm256_rhs1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A [2000, 256] by [256, 256] matrix product added to the zero matrix is, at entry (r, j), the sum over k < 256 of
    a[r, k] · b[k, j]: the sum over the one-axis contraction index is carried to a sum over `Fin 256` along the
    bijection between them. -/
theorem mm256_apply (a : FVec Ideal S2000x256 .bf16) (b : FVec Ideal S256x256 .bf16) (r : Fin 2000) (j : Fin 256) :
    matmul dot_S2000x256_S256x256_S2000x256_1_0_0_1_n_n none a b (constant (F := Ideal) S2000x256 .f32 0x00000000#32) (ix2 r j)
      = ∑ k : Fin 256, a (ix2 r k) * b (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k :=
    funext fun a => Fin.ext (by
      match a with
      | ⟨0, _⟩ => exact mm256_lhs0 _ _
      | ⟨1, _⟩ => exact (mm256_lhs1 _ _).trans hk)
  have er : dot_S2000x256_S256x256_S2000x256_1_0_0_1_n_n.rhsIdx (ix2 r j) ((contrEquiv1 dot_S2000x256_S256x256_S2000x256_1_0_0_1_n_n 256 rfl rfl).symm k) = ix2 k j :=
    funext fun a => Fin.ext (by
      match a with
      | ⟨0, _⟩ => exact (mm256_rhs0 _ _).trans hk
      | ⟨1, _⟩ => exact mm256_rhs1 _ _)
  rw [el, er]

/-- On the product's left operand the row coordinate is the output's row … -/
theorem mm100_lhs0 (i : S2000x256.Idx) (q : dot_S2000x100_S100x256_S2000x256_1_0_0_1_n_n.contr.Idx) :
    (dot_S2000x100_S100x256_S2000x256_1_0_0_1_n_n.lhsIdx i q 0).val = (i 0).val := by
  unfold DotDims.lhsIdx
  rw [dif_neg (show ¬(0 : Fin S2000x100.rank) ∈ dot_S2000x100_S100x256_S2000x256_1_0_0_1_n_n.lhsBatch by decide),
    dif_pos (show (0 : Fin S2000x100.rank) ∈ dot_S2000x100_S100x256_S2000x256_1_0_0_1_n_n.lhsNonContracting by decide)]
  rfl

/-- … and the column coordinate is the summation index. -/
theorem mm100_lhs1 (i : S2000x256.Idx) (q : dot_S2000x100_S100x256_S2000x256_1_0_0_1_n_n.contr.Idx) :
    (dot_S2000x100_S100x256_S2000x256_1_0_0_1_n_n.lhsIdx i q 1).val = (q ⟨0, by decide⟩).val :=
  dot_S2000x100_S100x256_S2000x256_1_0_0_1_n_n.lhsIdx_val_of_single rfl i q

/-- On the right operand the row coordinate is the summation index … -/
theorem mm100_rhs0 (i : S2000x256.Idx) (q : dot_S2000x100_S100x256_S2000x256_1_0_0_1_n_n.contr.Idx) :
    (dot_S2000x100_S100x256_S2000x256_1_0_0_1_n_n.rhsIdx i q 0).val = (q ⟨0, by decide⟩).val :=
  dot_S2000x100_S100x256_S2000x256_1_0_0_1_n_n.rhsIdx_val_of_single rfl i q

/-- … and the column coordinate is the output's column. -/
theorem mm100_rhs1 (i : S2000x256.Idx) (q : dot_S2000x100_S100x256_S2000x256_1_0_0_1_n_n.contr.Idx) :
    (dot_S2000x100_S100x256_S2000x256_1_0_0_1_n_n.rhsIdx i q 1).val = (i 1).val := by
  unfold DotDims.rhsIdx
  rw [dif_neg (show ¬(1 : Fin S100x256.rank) ∈ dot_S2000x100_S100x256_S2000x256_1_0_0_1_n_n.rhsBatch by decide),
    dif_pos (show (1 : Fin S100x256.rank) ∈ dot_S2000x100_S100x256_S2000x256_1_0_0_1_n_n.rhsNonContracting by decide)]
  rfl

/-- A [2000, 100] by [100, 256] matrix product added to the zero matrix is, at entry (r, j), the sum over k < 100 of
    a[r, k] · b[k, j]: the sum over the one-axis contraction index is carried to a sum over `Fin 100` along the
    bijection between them. -/
theorem mm100_apply (a : FVec Ideal S2000x100 .bf16) (b : FVec Ideal S100x256 .bf16) (r : Fin 2000) (j : Fin 256) :
    matmul dot_S2000x100_S100x256_S2000x256_1_0_0_1_n_n none a b (constant (F := Ideal) S2000x256 .f32 0x00000000#32) (ix2 r j)
      = ∑ k : Fin 100, a (ix2 r k) * b (ix2 k j) := by
  simp only [matmul]
  rw [Ideal.matmul_constant_zero_apply, ← Equiv.sum_comp (contrEquiv1 dot_S2000x100_S100x256_S2000x256_1_0_0_1_n_n 100 rfl rfl).symm]
  refine Finset.sum_congr rfl fun k _ => ?_
  have hk := contrEquiv1_symm_val dot_S2000x100_S100x256_S2000x256_1_0_0_1_n_n 100 rfl rfl k
  have el : dot_S2000x100_S100x256_S2000x256_1_0_0_1_n_n.lhsIdx (ix2 r j) ((contrEquiv1 dot_S2000x100_S100x256_S2000x256_1_0_0_1_n_n 100 rfl rfl).symm k) = ix2 r k :=
    funext fun a => Fin.ext (by
      match a with
      | ⟨0, _⟩ => exact mm100_lhs0 _ _
      | ⟨1, _⟩ => exact (mm100_lhs1 _ _).trans hk)
  have er : dot_S2000x100_S100x256_S2000x256_1_0_0_1_n_n.rhsIdx (ix2 r j) ((contrEquiv1 dot_S2000x100_S100x256_S2000x256_1_0_0_1_n_n 100 rfl rfl).symm k) = ix2 k j :=
    funext fun a => Fin.ext (by
      match a with
      | ⟨0, _⟩ => exact (mm100_rhs0 _ _).trans hk
      | ⟨1, _⟩ => exact mm100_rhs1 _ _)
  rw [el, er]

/-! ## The two stages at an entry -/

/-- The offsets of a whole-block access, rank 2: both zero. -/
theorem zeroOffsets2 : (![0, 0] : Fin 2 → Nat) = fun _ => 0 := funext fun a => by fin_cases a <;> rfl
/-- The offsets of a whole-block access, rank 1. -/
theorem zeroOffsets1 : (![0] : Fin 1 → Nat) = fun _ => 0 := funext fun a => by fin_cases a <;> rfl

/-- A bias vector laid out as one row and repeated down the 2000 rows reads, at (r, j), its entry j. -/
theorem bias_apply (b : FVec Ideal S256 .f32) (r : Fin 2000) (j : Fin 256) :
    broadcastTo S2000x256 (shapeCast S1x256 b shapeCasts_S256_S1x256) broadcasts_S1x256_S2000x256 (ix2 r j) = b (ix1 j) :=
  (broadcastTo_1b_ab_apply _ _ r j).trans (shapeCast_a_1a_apply b _ 0 j)

/-- The first stage at entry (r, j): the three partial products into the first weight matrix's row ranges, the bias,
    and the maximum with the zero word. -/
theorem stage1_apply (nb : FVec Ideal S2000x256 .bf16) (eb tb : FVec Ideal S2000x100 .bf16) (w : FVec Ideal S456x256 .bf16)
    (b : FVec Ideal S256 .f32) (r : Fin 2000) (j : Fin 256) :
    maximumf
        (addf
          (addf
            (addf (matmul dot_S2000x256_S256x256_S2000x256_1_0_0_1_n_n none nb (extractStridedSlice S256x256 ![0, 0] w slices_S456x256_o0_0_S256x256) (constant (F := Ideal) S2000x256 .f32 0x00000000#32))
              (matmul dot_S2000x100_S100x256_S2000x256_1_0_0_1_n_n none eb (extractStridedSlice S100x256 ![256, 0] w slices_S456x256_o256_0_S100x256) (constant (F := Ideal) S2000x256 .f32 0x00000000#32)))
            (matmul dot_S2000x100_S100x256_S2000x256_1_0_0_1_n_n none tb (extractStridedSlice S100x256 ![356, 0] w slices_S456x256_o356_0_S100x256) (constant (F := Ideal) S2000x256 .f32 0x00000000#32)))
          (broadcastTo S2000x256 (shapeCast S1x256 b shapeCasts_S256_S1x256) broadcasts_S1x256_S2000x256))
        (broadcast S2000x256 (Scalar.ofBits (F := Ideal) .f32 0x00000000#32)) (ix2 r j)
      = Cert.Spec.aggRow (fun k => nb (ix2 r k)) (fun k => eb (ix2 r k)) (fun k => tb (ix2 r k)) (fun k j => w (ix2 k j))
          (fun j => b (ix1 j)) j := by
  rw [maximumf_apply, addf_apply, addf_apply, addf_apply, mm256_apply, mm100_apply, mm100_apply, bias_apply, broadcast_apply]
  unfold Cert.Spec.aggRow
  refine congrArg₂ max (congrArg (· + _) (congrArg₂ (· + ·) (congrArg₂ (· + ·) (Finset.sum_congr rfl fun k _ => ?_)
    (Finset.sum_congr rfl fun k _ => ?_)) (Finset.sum_congr rfl fun k _ => ?_))) rfl
  · exact congrArg (_ * ·) (slice2_axis0_apply 0 w _ k j ⟨k.val, by have := k.isLt; omega⟩ (Nat.zero_add _).symm)
  · exact congrArg (_ * ·) (slice2_axis0_apply 256 w _ k j ⟨256 + k.val, by have := k.isLt; omega⟩ rfl)
  · exact congrArg (_ * ·) (slice2_axis0_apply 356 w _ k j ⟨356 + k.val, by have := k.isLt; omega⟩ rfl)

/-- The second stage at entry (r, j): the two partial products into the second weight matrix's halves, and the bias. -/
theorem stage2_apply (ob vb : FVec Ideal S2000x256 .bf16) (w : FVec Ideal S512x256 .bf16) (b : FVec Ideal S256 .f32)
    (r : Fin 2000) (j : Fin 256) :
    addf
        (addf (matmul dot_S2000x256_S256x256_S2000x256_1_0_0_1_n_n none ob (extractStridedSlice S256x256 ![0, 0] w slices_S512x256_o0_0_S256x256) (constant (F := Ideal) S2000x256 .f32 0x00000000#32))
          (matmul dot_S2000x256_S256x256_S2000x256_1_0_0_1_n_n none vb (extractStridedSlice S256x256 ![256, 0] w slices_S512x256_o256_0_S256x256) (constant (F := Ideal) S2000x256 .f32 0x00000000#32)))
        (broadcastTo S2000x256 (shapeCast S1x256 b shapeCasts_S256_S1x256) broadcasts_S1x256_S2000x256) (ix2 r j)
      = ((∑ k : Fin 256, ob (ix2 r k) * w (ix2 ⟨k.val, by have := k.isLt; omega⟩ j))
          + ∑ k : Fin 256, vb (ix2 r k) * w (ix2 ⟨256 + k.val, by have := k.isLt; omega⟩ j)) + b (ix1 j) := by
  rw [addf_apply, addf_apply, mm256_apply, mm256_apply, bias_apply]
  refine congrArg (· + _) (congrArg₂ (· + ·) (Finset.sum_congr rfl fun k _ => ?_) (Finset.sum_congr rfl fun k _ => ?_))
  · exact congrArg (_ * ·) (slice2_axis0_apply 0 w _ k j ⟨k.val, by have := k.isLt; omega⟩ (Nat.zero_add _).symm)
  · exact congrArg (_ * ·) (slice2_axis0_apply 256 w _ k j ⟨256 + k.val, by have := k.isLt; omega⟩ rfl)

/-! ## The stored value at an entry -/

/-- The first layer call's stored value at entry (r, j): the second stage applied to the old embedding block and to the
    first stage's block; every shape cast in it is to the same shape, and rounding to bf16 changes nothing here. -/
theorem pay1_apply (v0 : Vec Ideal S2000x256 .f32) (v3 v6 : Vec Ideal S2000x100 .f32) (v9 : Vec Ideal S456x256 .bf16)
    (v19 : Vec Ideal S256 .f32) (v25 : Vec Ideal S2000x256 .f32) (v28 : Vec Ideal S512x256 .bf16) (v35 : Vec Ideal S256 .f32)
    (r : Fin 2000) (j : Fin 256) :
    k1_pay1 (F := Ideal) v0 v3 v6 v9 v19 v25 v28 v35 (ix2 r j)
      = Cert.Spec.layerRow (fun k => v0 (ix2 r k)) (fun k => v3 (ix2 r k)) (fun k => v6 (ix2 r k)) (fun k => v25 (ix2 r k))
          (fun k j => v9 (ix2 k j)) (fun j => v19 (ix1 j)) (fun k j => v28 (ix2 k j)) (fun j => v35 (ix1 j)) j := by
  unfold k1_pay1
  refine (stage2_apply _ _ _ _ r j).trans ?_
  unfold Cert.Spec.layerRow
  refine congrArg (· + _) (congrArg₂ (· + ·) (Finset.sum_congr rfl fun k _ => ?_) (Finset.sum_congr rfl fun k _ => ?_))
  · rw [shapeCast_self]; rfl
  · refine congrArg₂ (fun a b : EReal => a * b) ?_ (by rw [shapeCast_self])
    refine (stage1_apply _ _ _ _ _ r k).trans ?_
    simp only [shapeCast_self]
    rfl

/-- The second layer call's stored value at entry (r, j): the same operations, cut into three named parts. -/
theorem pay2_apply (v0 : Vec Ideal S2000x256 .f32) (v3 v6 : Vec Ideal S2000x100 .f32) (v9 : Vec Ideal S456x256 .bf16)
    (v19 : Vec Ideal S256 .f32) (v25 : Vec Ideal S2000x256 .f32) (v29 : Vec Ideal S512x256 .bf16) (v36 : Vec Ideal S256 .f32)
    (r : Fin 2000) (j : Fin 256) :
    k2_pay1 (F := Ideal) (k2_pay2 v0 v3 v6 v9 v19 v25 v29) (k2_pay3 v36) (ix2 r j)
      = Cert.Spec.layerRow (fun k => v0 (ix2 r k)) (fun k => v3 (ix2 r k)) (fun k => v6 (ix2 r k)) (fun k => v25 (ix2 r k))
          (fun k j => v9 (ix2 k j)) (fun j => v19 (ix1 j)) (fun k j => v29 (ix2 k j)) (fun j => v36 (ix1 j)) j := by
  unfold k2_pay1 k2_pay2 k2_pay3
  refine (stage2_apply _ _ _ _ r j).trans ?_
  unfold Cert.Spec.layerRow
  refine congrArg (· + _) (congrArg₂ (· + ·) (Finset.sum_congr rfl fun k _ => ?_) (Finset.sum_congr rfl fun k _ => ?_))
  · refine congrArg₂ (fun a b : EReal => a * b) (by rw [shapeCast_self]; rfl) (by rw [shapeCast_self])
  · refine congrArg₂ (fun a b : EReal => a * b) ?_ (by rw [shapeCast_self])
    refine (stage1_apply _ _ _ _ _ r k).trans ?_
    simp only [shapeCast_self]
    rfl

/-! ## The stored block at an entry -/

/-- Entry (r, j) of the block the first layer call stores at a grid point, from the blocks it loaded. -/
theorem out1_8_apply (x0 : Vec Ideal S2000x256 .f32) (x1 x2 : Vec Ideal S2000x100 .f32) (x3 : Vec Ideal S2000x256 .f32)
    (x4 : Vec Ideal S456x256 .bf16) (x5 : Vec Ideal S256 .f32) (x6 : Vec Ideal S512x256 .bf16) (x7 : Vec Ideal S256 .f32)
    (r : Fin 2000) (j : Fin 256) :
    out1_8 (F := Ideal) x0 x1 x2 x3 x4 x5 x6 x7 (ix2 r j)
      = Cert.Spec.layerRow (fun k => x0 (ix2 r k)) (fun k => x1 (ix2 r k)) (fun k => x2 (ix2 r k)) (fun k => x3 (ix2 r k))
          (fun k j => x4 (ix2 k j)) (fun j => x5 (ix1 j)) (fun k j => x6 (ix2 k j)) (fun j => x7 (ix1 j)) j := by
  unfold out1_8
  rw [View.canon_unit_zero zeroOffsets2]
  simp only [View.ld_unit_zero (S := S2000x256) zeroOffsets2, View.ld_unit_zero (S := S2000x100) zeroOffsets2,
    View.ld_unit_zero (S := S456x256) zeroOffsets2, View.ld_unit_zero (S := S512x256) zeroOffsets2,
    View.ld_unit_zero (S := S256) zeroOffsets1]
  exact pay1_apply x0 x1 x2 x4 x5 x3 x6 x7 r j

/-- The same for the second layer call. -/
theorem out2_8_apply (x0 : Vec Ideal S2000x256 .f32) (x1 x2 : Vec Ideal S2000x100 .f32) (x3 : Vec Ideal S2000x256 .f32)
    (x4 : Vec Ideal S456x256 .bf16) (x5 : Vec Ideal S256 .f32) (x6 : Vec Ideal S512x256 .bf16) (x7 : Vec Ideal S256 .f32)
    (r : Fin 2000) (j : Fin 256) :
    out2_8 (F := Ideal) x0 x1 x2 x3 x4 x5 x6 x7 (ix2 r j)
      = Cert.Spec.layerRow (fun k => x0 (ix2 r k)) (fun k => x1 (ix2 r k)) (fun k => x2 (ix2 r k)) (fun k => x3 (ix2 r k))
          (fun k j => x4 (ix2 k j)) (fun j => x5 (ix1 j)) (fun k j => x6 (ix2 k j)) (fun j => x7 (ix1 j)) j := by
  unfold out2_8
  rw [View.canon_unit_zero zeroOffsets2]
  simp only [View.ld_unit_zero (S := S2000x256) zeroOffsets2, View.ld_unit_zero (S := S2000x100) zeroOffsets2,
    View.ld_unit_zero (S := S456x256) zeroOffsets2, View.ld_unit_zero (S := S512x256) zeroOffsets2,
    View.ld_unit_zero (S := S256) zeroOffsets1]
  exact pay2_apply x0 x1 x2 x4 x5 x3 x6 x7 r j

end Cert.KernelIdeal.LayerBlock

end
-- ==== Proof.RegionValue.lean ====
/-
  What each kernel call leaves in its output arrays, as whole-array functions of the arrays it finds.

  Every call tiles its per-node operands into blocks of consecutive rows (400 rows for the neighbour-sum call,
  2000 rows for a layer call), block t holding rows t·B … t·B + B − 1, and takes the weight and bias arrays whole at
  every point.  The stored block's entry (r, j) is a function of row r of the loaded blocks only, so block t of the
  output is the restriction to rows t·B … of ONE whole-array function of the operands; the blocks cover every row
  (row n lies in block n / B), hence the output array ends holding that function.
-/
import proofs.«178062_j48747878810094_2_alg».proof.Proof.Gen.KernelIdeal.Frame
import proofs.«178062_j48747878810094_2_alg».proof.Proof.Spec
import proofs.«178062_j48747878810094_2_alg».proof.Proof.LayerBlock
import Idealize.ShloMosaic.Lib.ValueIdx
import Idealize.ShloMosaic.Lib.Pipeline.Value
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen

/-! ## The first call: sums over the 16 neighbours

The body loads a [400, 16, 100] block and stores its sum over the middle axis, so entry (r, e) of the stored block is
Σ_k of entry (r, k, e) of the loaded one. -/

theorem offsets2 : (![0, 0] : Fin 2 → Nat) = fun _ => 0 := funext fun a => by fin_cases a <;> rfl
theorem offsets3 : (![0, 0, 0] : Fin 3 → Nat) = fun _ => 0 := funext fun a => by fin_cases a <;> rfl

/-- The sum over the middle axis of a [400, 16, 100] block at (r, e): the sixteen entries (r, k, e). -/
theorem sum16_apply (x : Vec Ideal S400x16x100 .f32) (hacc : (0x00000000#32 : BitVec 32) = 0x00000000#32) (r : Fin 400) (e : Fin 100) :
    multiReduction (F := Ideal) .add [1] S400x100 x 0x00000000#32 reduces_S400x16x100_S400x100 (.inl rfl) hacc (ix2 r e)
      = ∑ k : Fin 16, x (ix3 r k e) := by
  refine (Ideal.multiReduction_add_single x 0x00000000#32 reduces_S400x16x100_S400x100 (.inl rfl) hacc (ix2 r e)).trans ?_
  refine Finset.sum_congr rfl fun k _ => congrArg x ?_
  funext a
  apply Fin.ext
  match a with
  | ⟨0, _⟩ => rfl
  | ⟨1, _⟩ => rfl
  | ⟨2, _⟩ => rfl

/-- Entry (r, e) of the block stored for the first output: the first loaded block summed over its middle axis. -/
theorem out0_2_apply (x0 x1 : Vec Ideal S400x16x100 .f32) (r : Fin 400) (e : Fin 100) :
    out0_2 (F := Ideal) x0 x1 (ix2 r e) = ∑ k : Fin 16, x0 (ix3 r k e) := by
  unfold out0_2
  rw [View.canon_unit_zero offsets2]
  simp only [View.ld_unit_zero (S := S400x16x100) offsets3]
  unfold k0_pay1
  exact sum16_apply x0 rfl r e

/-- Entry (r, e) of the block stored for the second output: the second loaded block summed over its middle axis. -/
theorem out0_3_apply (x0 x1 : Vec Ideal S400x16x100 .f32) (r : Fin 400) (e : Fin 100) :
    out0_3 (F := Ideal) x0 x1 (ix2 r e) = ∑ k : Fin 16, x1 (ix3 r k e) := by
  unfold out0_3
  rw [View.canon_unit_zero offsets2]
  simp only [View.ld_unit_zero (S := S400x16x100) offsets3]
  unfold k0_pay2
  exact sum16_apply x1 rfl r e

/-- If row r of the first loaded block is row n of an array A, entry (r, e) of the first stored block is A's neighbour sum
    at (n, e). -/
theorem rowSum_of_rows2 (A : S50000x16x100.Idx → EReal) (x0 x1 : Vec Ideal S400x16x100 .f32) (n : Fin 50000) (r : Fin 400) (e : Fin 100)
    (h : ∀ k : Fin 16, x0 (ix3 r k e) = A (ix3 n k e)) :
    out0_2 (F := Ideal) x0 x1 (ix2 r e) = Cert.Spec.rowSum A (ix2 n e) :=
  (out0_2_apply x0 x1 r e).trans (Finset.sum_congr rfl fun k _ => h k)

/-- The same for the second loaded block and the second stored block. -/
theorem rowSum_of_rows3 (A : S50000x16x100.Idx → EReal) (x0 x1 : Vec Ideal S400x16x100 .f32) (n : Fin 50000) (r : Fin 400) (e : Fin 100)
    (h : ∀ k : Fin 16, x1 (ix3 r k e) = A (ix3 n k e)) :
    out0_3 (F := Ideal) x0 x1 (ix2 r e) = Cert.Spec.rowSum A (ix2 n e) :=
  (out0_3_apply x0 x1 r e).trans (Finset.sum_congr rfl fun k _ => h k)

/-- The first call's index maps over its 125 points: point t takes row-block t of every operand, and block 0 along every
    other axis. -/
theorem rowBlock0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The layer calls

The stored [2000, 256] block's entry (r, j) is `Cert.Spec.layerRow` of row r of the loaded per-node blocks and of the
whole weight and bias arrays. -/

/-- The first layer call's index maps over its 25 points: the four per-node operands and the output take row-block t at
    point t; the weight and bias operands are taken whole (block 0) at every point. -/
theorem rowBlock1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- If row r of each loaded per-node block is row n of its array and the loaded weight and bias blocks are the whole arrays,
    entry (r, e) of the stored block is the layer of those arrays at (n, e): the stored entry depends on row r of the
    per-node blocks only, and the layer at (n, e) on row n of the arrays only. -/
theorem layer_of_rows1 (A0 : S50000x256.Idx → EReal) (A1 A2 : S50000x100.Idx → EReal) (A3 : S50000x256.Idx → EReal)
    (W1 : S456x256.Idx → EReal) (B1 : S256.Idx → EReal) (W2 : S512x256.Idx → EReal) (B2 : S256.Idx → EReal)
    (x0 : Vec Ideal S2000x256 .f32) (x1 x2 : Vec Ideal S2000x100 .f32) (x3 : Vec Ideal S2000x256 .f32)
    (x4 : Vec Ideal S456x256 .bf16) (x5 : Vec Ideal S256 .f32) (x6 : Vec Ideal S512x256 .bf16) (x7 : Vec Ideal S256 .f32)
    (n : Fin 50000) (r : Fin 2000) (e : Fin 256)
    (h0 : ∀ k : Fin 256, x0 (ix2 r k) = A0 (ix2 n k)) (h1 : ∀ k : Fin 100, x1 (ix2 r k) = A1 (ix2 n k))
    (h2 : ∀ k : Fin 100, x2 (ix2 r k) = A2 (ix2 n k)) (h3 : ∀ k : Fin 256, x3 (ix2 r k) = A3 (ix2 n k))
    (h4 : ∀ (k : Fin 456) (j : Fin 256), x4 (ix2 k j) = W1 (ix2 k j)) (h5 : ∀ j : Fin 256, x5 (ix1 j) = B1 (ix1 j))
    (h6 : ∀ (k : Fin 512) (j : Fin 256), x6 (ix2 k j) = W2 (ix2 k j)) (h7 : ∀ j : Fin 256, x7 (ix1 j) = B2 (ix1 j)) :
    out1_8 (F := Ideal) x0 x1 x2 x3 x4 x5 x6 x7 (ix2 r e) = Cert.Spec.layer A0 A1 A2 A3 W1 B1 W2 B2 (ix2 n e) := by
  have e0 : (fun k : Fin 256 => (x0 (ix2 r k) : EReal)) = fun k => A0 (ix2 n k) := funext h0
  have e1 : (fun k : Fin 100 => (x1 (ix2 r k) : EReal)) = fun k => A1 (ix2 n k) := funext h1
  have e2 : (fun k : Fin 100 => (x2 (ix2 r k) : EReal)) = fun k => A2 (ix2 n k) := funext h2
  have e3 : (fun k : Fin 256 => (x3 (ix2 r k) : EReal)) = fun k => A3 (ix2 n k) := funext h3
  have e4 : (fun (k : Fin 456) (j : Fin 256) => (x4 (ix2 k j) : EReal)) = fun k j => W1 (ix2 k j) := funext fun k => funext fun j => h4 k j
  have e5 : (fun j : Fin 256 => (x5 (ix1 j) : EReal)) = fun j => B1 (ix1 j) := funext h5
  have e6 : (fun (k : Fin 512) (j : Fin 256) => (x6 (ix2 k j) : EReal)) = fun k j => W2 (ix2 k j) := funext fun k => funext fun j => h6 k j
  have e7 : (fun j : Fin 256 => (x7 (ix1 j) : EReal)) = fun j => B2 (ix1 j) := funext h7
  rw [LayerBlock.out1_8_apply, e0, e1, e2, e3, e4, e5, e6, e7]
  rfl

/-- The second layer call's index maps over its 25 points: the four per-node operands and the output take row-block t at
    point t; the weight and bias operands are taken whole (block 0) at every point. -/
theorem rowBlock2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- If row r of each loaded per-node block is row n of its array and the loaded weight and bias blocks are the whole arrays,
    entry (r, e) of the stored block is the layer of those arrays at (n, e): the stored entry depends on row r of the
    per-node blocks only, and the layer at (n, e) on row n of the arrays only. -/
theorem layer_of_rows2 (A0 : S50000x256.Idx → EReal) (A1 A2 : S50000x100.Idx → EReal) (A3 : S50000x256.Idx → EReal)
    (W1 : S456x256.Idx → EReal) (B1 : S256.Idx → EReal) (W2 : S512x256.Idx → EReal) (B2 : S256.Idx → EReal)
    (x0 : Vec Ideal S2000x256 .f32) (x1 x2 : Vec Ideal S2000x100 .f32) (x3 : Vec Ideal S2000x256 .f32)
    (x4 : Vec Ideal S456x256 .bf16) (x5 : Vec Ideal S256 .f32) (x6 : Vec Ideal S512x256 .bf16) (x7 : Vec Ideal S256 .f32)
    (n : Fin 50000) (r : Fin 2000) (e : Fin 256)
    (h0 : ∀ k : Fin 256, x0 (ix2 r k) = A0 (ix2 n k)) (h1 : ∀ k : Fin 100, x1 (ix2 r k) = A1 (ix2 n k))
    (h2 : ∀ k : Fin 100, x2 (ix2 r k) = A2 (ix2 n k)) (h3 : ∀ k : Fin 256, x3 (ix2 r k) = A3 (ix2 n k))
    (h4 : ∀ (k : Fin 456) (j : Fin 256), x4 (ix2 k j) = W1 (ix2 k j)) (h5 : ∀ j : Fin 256, x5 (ix1 j) = B1 (ix1 j))
    (h6 : ∀ (k : Fin 512) (j : Fin 256), x6 (ix2 k j) = W2 (ix2 k j)) (h7 : ∀ j : Fin 256, x7 (ix1 j) = B2 (ix1 j)) :
    out2_8 (F := Ideal) x0 x1 x2 x3 x4 x5 x6 x7 (ix2 r e) = Cert.Spec.layer A0 A1 A2 A3 W1 B1 W2 B2 (ix2 n e) := by
  have e0 : (fun k : Fin 256 => (x0 (ix2 r k) : EReal)) = fun k => A0 (ix2 n k) := funext h0
  have e1 : (fun k : Fin 100 => (x1 (ix2 r k) : EReal)) = fun k => A1 (ix2 n k) := funext h1
  have e2 : (fun k : Fin 100 => (x2 (ix2 r k) : EReal)) = fun k => A2 (ix2 n k) := funext h2
  have e3 : (fun k : Fin 256 => (x3 (ix2 r k) : EReal)) = fun k => A3 (ix2 n k) := funext h3
  have e4 : (fun (k : Fin 456) (j : Fin 256) => (x4 (ix2 k j) : EReal)) = fun k j => W1 (ix2 k j) := funext fun k => funext fun j => h4 k j
  have e5 : (fun j : Fin 256 => (x5 (ix1 j) : EReal)) = fun j => B1 (ix1 j) := funext h5
  have e6 : (fun (k : Fin 512) (j : Fin 256) => (x6 (ix2 k j) : EReal)) = fun k j => W2 (ix2 k j) := funext fun k => funext fun j => h6 k j
  have e7 : (fun j : Fin 256 => (x7 (ix1 j) : EReal)) = fun j => B2 (ix1 j) := funext h7
  rw [LayerBlock.out2_8_apply, e0, e1, e2, e3, e4, e5, e6, e7]
  rfl

variable (V : (c : Dev nD) → (b : Ref sig .tc) → Buf (Elt Ideal) ((c : Thread nD τ).loc b))

/-- What point t writes back to output one: rows 400·t … 400·t + 399 of the neighbour sum of the array it reads, since row r
    of the loaded block is row 400·t + r of that array. -/
theorem writtenBack0_2 (c : Dev nD) (t : Fin cfg0.N) :
    (dat0 (F := Ideal) V c).flushed 2 t = ((cfg0.win 2).blk t).view.read (Elt Ideal) (Cert.Spec.rowSum (V c main_arg2)) := by
  show (cfg0.win 2).cut (grid0.coords t) ((dat0 V c).after 2 t) = _
  rw [after0_2]
  obtain ⟨a0, a1, a2, b0, b1, b2, c0, c1, d0, d1⟩ := rowBlock0 t
  have hN : cfg0.N = 125 := rfl
  have ht : t.val < 125 := by have := t.isLt; omega
  funext j
  obtain ⟨r, e, rfl⟩ : ∃ (r : Fin 400) (e : Fin 100), j = ix2 r e := ⟨j 0, j 1, eq_ix2 j⟩
  have hn : t.val * 400 + r.val < 50000 := by have := r.isLt; omega
  have hout : ((cfg0.win 2).blk t).view.emb (ix2 r e) = ix2 (⟨t.val * 400 + r.val, hn⟩ : Fin 50000) e := by
    funext a
    apply Fin.ext
    match a with
    | ⟨0, _⟩ => show win0_2.index t (0 : Fin 2) * 400 + 1 * r.val = t.val * 400 + r.val; omega
    | ⟨1, _⟩ => show win0_2.index t (1 : Fin 2) * 100 + 1 * e.val = e.val; omega
  rw [View.read_apply, hout]
  refine rowSum_of_rows2 (V c main_arg2) (iblk0 V c 0 t) (iblk0 V c 1 t) ⟨t.val * 400 + r.val, hn⟩ r e fun k => ?_
  have hin : ((cfg0.win 0).blk t).view.emb (ix3 r k e) = ix3 (⟨t.val * 400 + r.val, hn⟩ : Fin 50000) k e := by
    funext a
    apply Fin.ext
    match a with
    | ⟨0, _⟩ => show win0_0.index t (0 : Fin 3) * 400 + 1 * r.val = t.val * 400 + r.val; omega
    | ⟨1, _⟩ => show win0_0.index t (1 : Fin 3) * 16 + 1 * k.val = k.val; omega
    | ⟨2, _⟩ => show win0_0.index t (2 : Fin 3) * 100 + 1 * e.val = e.val; omega
  show V c main_arg2 (((cfg0.win 0).blk t).view.emb (ix3 r k e)) = _
  rw [hin]

/-- An index of the output array lies in point t's block iff each coordinate lies in the block's range on its axis. -/
theorem inBlock0_2 (t : Fin cfg0.N) (i : S50000x100.Idx) :
    i ∈ ((cfg0.win 2).blk t).view.set ↔ ∀ a : Fin 2, win0_2.index t a * S400x100.size a ≤ (i a).val ∧ (i a).val < win0_2.index t a * S400x100.size a + S400x100.size a := by
  show i ∈ ((View.whole main_v0_0).slice (win0_2.rect t)).set ↔ _
  rw [View.set_slice_whole, Rect.mem_set_unit]
  exact Iff.rfl

/-- Every row is written: row n lies in the block of point n / 400. -/
theorem allRows0_2 (i : S50000x100.Idx) : ∃ t : Fin cfg0.N, (cfg0.win 2).flush t = true ∧ i ∈ ((cfg0.win 2).blk t).view.set := by
  have hi0 : (i 0).val < 50000 := (i 0).isLt
  have hi1 : (i 1).val < 100 := (i 1).isLt
  have hN : cfg0.N = 125 := rfl
  have hlt : (i 0).val / 400 < cfg0.N := by rw [hN]; omega
  obtain ⟨a0, a1, a2, b0, b1, b2, c0, c1, d0, d1⟩ := rowBlock0 ⟨(i 0).val / 400, hlt⟩
  refine ⟨⟨(i 0).val / 400, hlt⟩, flush0_2 _, ?_⟩
  rw [inBlock0_2]
  intro a
  match a with
  | ⟨0, _⟩ => show win0_2.index ⟨(i 0).val / 400, hlt⟩ (0 : Fin 2) * 400 ≤ (i 0).val ∧ (i 0).val < win0_2.index ⟨(i 0).val / 400, hlt⟩ (0 : Fin 2) * 400 + 400; rw [c0]; show (i 0).val / 400 * 400 ≤ (i 0).val ∧ (i 0).val < (i 0).val / 400 * 400 + 400; omega
  | ⟨1, _⟩ => show win0_2.index ⟨(i 0).val / 400, hlt⟩ (1 : Fin 2) * 100 ≤ (i 1).val ∧ (i 1).val < win0_2.index ⟨(i 0).val / 400, hlt⟩ (1 : Fin 2) * 100 + 100; rw [c1]; omega

/-- The first call's first output: the edge features summed over the 16 neighbours. -/
theorem edgeSums (c : Dev nD) :
    (dat0 (F := Ideal) V c).arrAt 2 cfg0.N = Cert.Spec.rowSum (V c main_arg2) := by
  exact (dat0 V c).arrAt_eq_of_cover 2 (Cert.Spec.rowSum (V c main_arg2)) (fun t _ => writtenBack0_2 V c t) allRows0_2

/-- What point t writes back to output two: rows 400·t … 400·t + 399 of the neighbour sum of the array it reads, since row r
    of the loaded block is row 400·t + r of that array. -/
theorem writtenBack0_3 (c : Dev nD) (t : Fin cfg0.N) :
    (dat0 (F := Ideal) V c).flushed 3 t = ((cfg0.win 3).blk t).view.read (Elt Ideal) (Cert.Spec.rowSum (V c main_arg3)) := by
  show (cfg0.win 3).cut (grid0.coords t) ((dat0 V c).after 3 t) = _
  rw [after0_3]
  obtain ⟨a0, a1, a2, b0, b1, b2, c0, c1, d0, d1⟩ := rowBlock0 t
  have hN : cfg0.N = 125 := rfl
  have ht : t.val < 125 := by have := t.isLt; omega
  funext j
  obtain ⟨r, e, rfl⟩ : ∃ (r : Fin 400) (e : Fin 100), j = ix2 r e := ⟨j 0, j 1, eq_ix2 j⟩
  have hn : t.val * 400 + r.val < 50000 := by have := r.isLt; omega
  have hout : ((cfg0.win 3).blk t).view.emb (ix2 r e) = ix2 (⟨t.val * 400 + r.val, hn⟩ : Fin 50000) e := by
    funext a
    apply Fin.ext
    match a with
    | ⟨0, _⟩ => show win0_3.index t (0 : Fin 2) * 400 + 1 * r.val = t.val * 400 + r.val; omega
    | ⟨1, _⟩ => show win0_3.index t (1 : Fin 2) * 100 + 1 * e.val = e.val; omega
  rw [View.read_apply, hout]
  refine rowSum_of_rows3 (V c main_arg3) (iblk0 V c 0 t) (iblk0 V c 1 t) ⟨t.val * 400 + r.val, hn⟩ r e fun k => ?_
  have hin : ((cfg0.win 1).blk t).view.emb (ix3 r k e) = ix3 (⟨t.val * 400 + r.val, hn⟩ : Fin 50000) k e := by
    funext a
    apply Fin.ext
    match a with
    | ⟨0, _⟩ => show win0_1.index t (0 : Fin 3) * 400 + 1 * r.val = t.val * 400 + r.val; omega
    | ⟨1, _⟩ => show win0_1.index t (1 : Fin 3) * 16 + 1 * k.val = k.val; omega
    | ⟨2, _⟩ => show win0_1.index t (2 : Fin 3) * 100 + 1 * e.val = e.val; omega
  show V c main_arg3 (((cfg0.win 1).blk t).view.emb (ix3 r k e)) = _
  rw [hin]

/-- An index of the output array lies in point t's block iff each coordinate lies in the block's range on its axis. -/
theorem inBlock0_3 (t : Fin cfg0.N) (i : S50000x100.Idx) :
    i ∈ ((cfg0.win 3).blk t).view.set ↔ ∀ a : Fin 2, win0_3.index t a * S400x100.size a ≤ (i a).val ∧ (i a).val < win0_3.index t a * S400x100.size a + S400x100.size a := by
  show i ∈ ((View.whole main_v0_1).slice (win0_3.rect t)).set ↔ _
  rw [View.set_slice_whole, Rect.mem_set_unit]
  exact Iff.rfl

/-- Every row is written: row n lies in the block of point n / 400. -/
theorem allRows0_3 (i : S50000x100.Idx) : ∃ t : Fin cfg0.N, (cfg0.win 3).flush t = true ∧ i ∈ ((cfg0.win 3).blk t).view.set := by
  have hi0 : (i 0).val < 50000 := (i 0).isLt
  have hi1 : (i 1).val < 100 := (i 1).isLt
  have hN : cfg0.N = 125 := rfl
  have hlt : (i 0).val / 400 < cfg0.N := by rw [hN]; omega
  obtain ⟨a0, a1, a2, b0, b1, b2, c0, c1, d0, d1⟩ := rowBlock0 ⟨(i 0).val / 400, hlt⟩
  refine ⟨⟨(i 0).val / 400, hlt⟩, flush0_3 _, ?_⟩
  rw [inBlock0_3]
  intro a
  match a with
  | ⟨0, _⟩ => show win0_3.index ⟨(i 0).val / 400, hlt⟩ (0 : Fin 2) * 400 ≤ (i 0).val ∧ (i 0).val < win0_3.index ⟨(i 0).val / 400, hlt⟩ (0 : Fin 2) * 400 + 400; rw [d0]; show (i 0).val / 400 * 400 ≤ (i 0).val ∧ (i 0).val < (i 0).val / 400 * 400 + 400; omega
  | ⟨1, _⟩ => show win0_3.index ⟨(i 0).val / 400, hlt⟩ (1 : Fin 2) * 100 ≤ (i 1).val ∧ (i 1).val < win0_3.index ⟨(i 0).val / 400, hlt⟩ (1 : Fin 2) * 100 + 100; rw [d1]; omega

/-- The first call's second output: the time features summed over the 16 neighbours. -/
theorem timeSums (c : Dev nD) :
    (dat0 (F := Ideal) V c).arrAt 3 cfg0.N = Cert.Spec.rowSum (V c main_arg3) := by
  exact (dat0 V c).arrAt_eq_of_cover 3 (Cert.Spec.rowSum (V c main_arg3)) (fun t _ => writtenBack0_3 V c t) allRows0_3

/-- What point t of the first layer call writes back: rows 2000·t … 2000·t + 1999 of the layer of the arrays it finds, since
    row r of each loaded per-node block is row 2000·t + r of its array and the weights and biases are loaded whole. -/
theorem writtenBack1_8 (c : Dev nD) (t : Fin cfg1.N) :
    (dat1 (F := Ideal) V c).flushed 8 t = ((cfg1.win 8).blk t).view.read (Elt Ideal)
      (Cert.Spec.layer (V c main_v4) (V c main_v0_0) (V c main_v0_1) (V c main_arg0) (V c main_v1) (V c main_arg5)
        (V c main_v2) (V c main_arg7)) := by
  show (cfg1.win 8).cut (grid1.coords t) ((dat1 V c).after 8 t) = _
  rw [after1_8]
  obtain ⟨a0, a1, b0, b1, c0, c1, d0, d1, w0, w1, p0, u0, u1, q0, o0, o1⟩ := rowBlock1 t
  have hN : cfg1.N = 25 := rfl
  have ht : t.val < 25 := by have := t.isLt; omega
  funext j
  obtain ⟨r, e, rfl⟩ : ∃ (r : Fin 2000) (e : Fin 256), j = ix2 r e := ⟨j 0, j 1, eq_ix2 j⟩
  have hn : t.val * 2000 + r.val < 50000 := by have := r.isLt; omega
  have hout : ((cfg1.win 8).blk t).view.emb (ix2 r e) = ix2 (⟨t.val * 2000 + r.val, hn⟩ : Fin 50000) e := by
    funext a
    apply Fin.ext
    match a with
    | ⟨0, _⟩ => show win1_8.index t (0 : Fin 2) * 2000 + 1 * r.val = t.val * 2000 + r.val; omega
    | ⟨1, _⟩ => show win1_8.index t (1 : Fin 2) * 256 + 1 * e.val = e.val; omega
  rw [View.read_apply, hout]
  refine layer_of_rows1 (V c main_v4) (V c main_v0_0) (V c main_v0_1) (V c main_arg0) (V c main_v1) (V c main_arg5) (V c main_v2) (V c main_arg7)
    (iblk1 V c 0 t) (iblk1 V c 1 t) (iblk1 V c 2 t) (iblk1 V c 3 t) (iblk1 V c 4 t) (iblk1 V c 5 t) (iblk1 V c 6 t) (iblk1 V c 7 t)
    ⟨t.val * 2000 + r.val, hn⟩ r e (fun k => ?_) (fun k => ?_) (fun k => ?_) (fun k => ?_) (fun k j => ?_) (fun j => ?_) (fun k j => ?_) (fun j => ?_)
  · have h : ((cfg1.win 0).blk t).view.emb (ix2 r k) = ix2 (⟨t.val * 2000 + r.val, hn⟩ : Fin 50000) k := by
      funext a
      apply Fin.ext
      match a with
      | ⟨0, _⟩ => show win1_0.index t (0 : Fin 2) * 2000 + 1 * r.val = t.val * 2000 + r.val; omega
      | ⟨1, _⟩ => show win1_0.index t (1 : Fin 2) * 256 + 1 * k.val = k.val; omega
    show V c main_v4 (((cfg1.win 0).blk t).view.emb (ix2 r k)) = _
    rw [h]
  · have h : ((cfg1.win 1).blk t).view.emb (ix2 r k) = ix2 (⟨t.val * 2000 + r.val, hn⟩ : Fin 50000) k := by
      funext a
      apply Fin.ext
      match a with
      | ⟨0, _⟩ => show win1_1.index t (0 : Fin 2) * 2000 + 1 * r.val = t.val * 2000 + r.val; omega
      | ⟨1, _⟩ => show win1_1.index t (1 : Fin 2) * 100 + 1 * k.val = k.val; omega
    show V c main_v0_0 (((cfg1.win 1).blk t).view.emb (ix2 r k)) = _
    rw [h]
  · have h : ((cfg1.win 2).blk t).view.emb (ix2 r k) = ix2 (⟨t.val * 2000 + r.val, hn⟩ : Fin 50000) k := by
      funext a
      apply Fin.ext
      match a with
      | ⟨0, _⟩ => show win1_2.index t (0 : Fin 2) * 2000 + 1 * r.val = t.val * 2000 + r.val; omega
      | ⟨1, _⟩ => show win1_2.index t (1 : Fin 2) * 100 + 1 * k.val = k.val; omega
    show V c main_v0_1 (((cfg1.win 2).blk t).view.emb (ix2 r k)) = _
    rw [h]
  · have h : ((cfg1.win 3).blk t).view.emb (ix2 r k) = ix2 (⟨t.val * 2000 + r.val, hn⟩ : Fin 50000) k := by
      funext a
      apply Fin.ext
      match a with
      | ⟨0, _⟩ => show win1_3.index t (0 : Fin 2) * 2000 + 1 * r.val = t.val * 2000 + r.val; omega
      | ⟨1, _⟩ => show win1_3.index t (1 : Fin 2) * 256 + 1 * k.val = k.val; omega
    show V c main_arg0 (((cfg1.win 3).blk t).view.emb (ix2 r k)) = _
    rw [h]
  · have h : ((cfg1.win 4).blk t).view.emb (ix2 k j) = ix2 k j := by
      funext a
      apply Fin.ext
      match a with
      | ⟨0, _⟩ => show win1_4.index t (0 : Fin 2) * 456 + 1 * k.val = k.val; omega
      | ⟨1, _⟩ => show win1_4.index t (1 : Fin 2) * 256 + 1 * j.val = j.val; omega
    show V c main_v1 (((cfg1.win 4).blk t).view.emb (ix2 k j)) = _
    rw [h]
  · have h : ((cfg1.win 5).blk t).view.emb (ix1 j) = ix1 j := by
      funext a
      apply Fin.ext
      match a with
      | ⟨0, _⟩ => show win1_5.index t (0 : Fin 1) * 256 + 1 * j.val = j.val; omega
    show V c main_arg5 (((cfg1.win 5).blk t).view.emb (ix1 j)) = _
    rw [h]
  · have h : ((cfg1.win 6).blk t).view.emb (ix2 k j) = ix2 k j := by
      funext a
      apply Fin.ext
      match a with
      | ⟨0, _⟩ => show win1_6.index t (0 : Fin 2) * 512 + 1 * k.val = k.val; omega
      | ⟨1, _⟩ => show win1_6.index t (1 : Fin 2) * 256 + 1 * j.val = j.val; omega
    show V c main_v2 (((cfg1.win 6).blk t).view.emb (ix2 k j)) = _
    rw [h]
  · have h : ((cfg1.win 7).blk t).view.emb (ix1 j) = ix1 j := by
      funext a
      apply Fin.ext
      match a with
      | ⟨0, _⟩ => show win1_7.index t (0 : Fin 1) * 256 + 1 * j.val = j.val; omega
    show V c main_arg7 (((cfg1.win 7).blk t).view.emb (ix1 j)) = _
    rw [h]

/-- An index of the output array lies in point t's block iff each coordinate lies in the block's range on its axis. -/
theorem inBlock1_8 (t : Fin cfg1.N) (i : S50000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v5).slice (win1_8.rect t)).set ↔ _
  rw [View.set_slice_whole, Rect.mem_set_unit]
  exact Iff.rfl

/-- Every row is written: row n lies in the block of point n / 2000. -/
theorem allRows1_8 (i : S50000x256.Idx) : ∃ t : Fin cfg1.N, (cfg1.win 8).flush t = true ∧ i ∈ ((cfg1.win 8).blk t).view.set := by
  have hi0 : (i 0).val < 50000 := (i 0).isLt
  have hi1 : (i 1).val < 256 := (i 1).isLt
  have hN : cfg1.N = 25 := rfl
  have hlt : (i 0).val / 2000 < cfg1.N := by rw [hN]; omega
  obtain ⟨a0, a1, b0, b1, c0, c1, d0, d1, w0, w1, p0, u0, u1, q0, o0, o1⟩ := rowBlock1 ⟨(i 0).val / 2000, hlt⟩
  refine ⟨⟨(i 0).val / 2000, hlt⟩, flush1_8 _, ?_⟩
  rw [inBlock1_8]
  intro a
  match a with
  | ⟨0, _⟩ => show win1_8.index ⟨(i 0).val / 2000, hlt⟩ (0 : Fin 2) * 2000 ≤ (i 0).val ∧ (i 0).val < win1_8.index ⟨(i 0).val / 2000, hlt⟩ (0 : Fin 2) * 2000 + 2000; rw [o0]; show (i 0).val / 2000 * 2000 ≤ (i 0).val ∧ (i 0).val < (i 0).val / 2000 * 2000 + 2000; omega
  | ⟨1, _⟩ => show win1_8.index ⟨(i 0).val / 2000, hlt⟩ (1 : Fin 2) * 256 ≤ (i 1).val ∧ (i 1).val < win1_8.index ⟨(i 0).val / 2000, hlt⟩ (1 : Fin 2) * 256 + 256; rw [o1]; omega

/-- The first layer call's output: one layer of the arrays it finds. -/
theorem layer1 (c : Dev nD) :
    (dat1 (F := Ideal) V c).arrAt 8 cfg1.N
      = Cert.Spec.layer (V c main_v4) (V c main_v0_0) (V c main_v0_1) (V c main_arg0) (V c main_v1) (V c main_arg5)
          (V c main_v2) (V c main_arg7) := by
  exact (dat1 V c).arrAt_eq_of_cover 8 _ (fun t _ => writtenBack1_8 V c t) allRows1_8

/-- What point t of the second layer call writes back: rows 2000·t … 2000·t + 1999 of the layer of the arrays it finds, since
    row r of each loaded per-node block is row 2000·t + r of its array and the weights and biases are loaded whole. -/
theorem writtenBack2_8 (c : Dev nD) (t : Fin cfg2.N) :
    (dat2 (F := Ideal) V c).flushed 8 t = ((cfg2.win 8).blk t).view.read (Elt Ideal)
      (Cert.Spec.layer (V c main_v7) (V c main_v0_0) (V c main_v0_1) (V c main_v5) (V c main_v1) (V c main_arg5)
        (V c main_v2) (V c main_arg7)) := by
  show (cfg2.win 8).cut (grid2.coords t) ((dat2 V c).after 8 t) = _
  rw [after2_8]
  obtain ⟨a0, a1, b0, b1, c0, c1, d0, d1, w0, w1, p0, u0, u1, q0, o0, o1⟩ := rowBlock2 t
  have hN : cfg2.N = 25 := rfl
  have ht : t.val < 25 := by have := t.isLt; omega
  funext j
  obtain ⟨r, e, rfl⟩ : ∃ (r : Fin 2000) (e : Fin 256), j = ix2 r e := ⟨j 0, j 1, eq_ix2 j⟩
  have hn : t.val * 2000 + r.val < 50000 := by have := r.isLt; omega
  have hout : ((cfg2.win 8).blk t).view.emb (ix2 r e) = ix2 (⟨t.val * 2000 + r.val, hn⟩ : Fin 50000) e := by
    funext a
    apply Fin.ext
    match a with
    | ⟨0, _⟩ => show win2_8.index t (0 : Fin 2) * 2000 + 1 * r.val = t.val * 2000 + r.val; omega
    | ⟨1, _⟩ => show win2_8.index t (1 : Fin 2) * 256 + 1 * e.val = e.val; omega
  rw [View.read_apply, hout]
  refine layer_of_rows2 (V c main_v7) (V c main_v0_0) (V c main_v0_1) (V c main_v5) (V c main_v1) (V c main_arg5) (V c main_v2) (V c main_arg7)
    (iblk2 V c 0 t) (iblk2 V c 1 t) (iblk2 V c 2 t) (iblk2 V c 3 t) (iblk2 V c 4 t) (iblk2 V c 5 t) (iblk2 V c 6 t) (iblk2 V c 7 t)
    ⟨t.val * 2000 + r.val, hn⟩ r e (fun k => ?_) (fun k => ?_) (fun k => ?_) (fun k => ?_) (fun k j => ?_) (fun j => ?_) (fun k j => ?_) (fun j => ?_)
  · have h : ((cfg2.win 0).blk t).view.emb (ix2 r k) = ix2 (⟨t.val * 2000 + r.val, hn⟩ : Fin 50000) k := by
      funext a
      apply Fin.ext
      match a with
      | ⟨0, _⟩ => show win2_0.index t (0 : Fin 2) * 2000 + 1 * r.val = t.val * 2000 + r.val; omega
      | ⟨1, _⟩ => show win2_0.index t (1 : Fin 2) * 256 + 1 * k.val = k.val; omega
    show V c main_v7 (((cfg2.win 0).blk t).view.emb (ix2 r k)) = _
    rw [h]
  · have h : ((cfg2.win 1).blk t).view.emb (ix2 r k) = ix2 (⟨t.val * 2000 + r.val, hn⟩ : Fin 50000) k := by
      funext a
      apply Fin.ext
      match a with
      | ⟨0, _⟩ => show win2_1.index t (0 : Fin 2) * 2000 + 1 * r.val = t.val * 2000 + r.val; omega
      | ⟨1, _⟩ => show win2_1.index t (1 : Fin 2) * 100 + 1 * k.val = k.val; omega
    show V c main_v0_0 (((cfg2.win 1).blk t).view.emb (ix2 r k)) = _
    rw [h]
  · have h : ((cfg2.win 2).blk t).view.emb (ix2 r k) = ix2 (⟨t.val * 2000 + r.val, hn⟩ : Fin 50000) k := by
      funext a
      apply Fin.ext
      match a with
      | ⟨0, _⟩ => show win2_2.index t (0 : Fin 2) * 2000 + 1 * r.val = t.val * 2000 + r.val; omega
      | ⟨1, _⟩ => show win2_2.index t (1 : Fin 2) * 100 + 1 * k.val = k.val; omega
    show V c main_v0_1 (((cfg2.win 2).blk t).view.emb (ix2 r k)) = _
    rw [h]
  · have h : ((cfg2.win 3).blk t).view.emb (ix2 r k) = ix2 (⟨t.val * 2000 + r.val, hn⟩ : Fin 50000) k := by
      funext a
      apply Fin.ext
      match a with
      | ⟨0, _⟩ => show win2_3.index t (0 : Fin 2) * 2000 + 1 * r.val = t.val * 2000 + r.val; omega
      | ⟨1, _⟩ => show win2_3.index t (1 : Fin 2) * 256 + 1 * k.val = k.val; omega
    show V c main_v5 (((cfg2.win 3).blk t).view.emb (ix2 r k)) = _
    rw [h]
  · have h : ((cfg2.win 4).blk t).view.emb (ix2 k j) = ix2 k j := by
      funext a
      apply Fin.ext
      match a with
      | ⟨0, _⟩ => show win2_4.index t (0 : Fin 2) * 456 + 1 * k.val = k.val; omega
      | ⟨1, _⟩ => show win2_4.index t (1 : Fin 2) * 256 + 1 * j.val = j.val; omega
    show V c main_v1 (((cfg2.win 4).blk t).view.emb (ix2 k j)) = _
    rw [h]
  · have h : ((cfg2.win 5).blk t).view.emb (ix1 j) = ix1 j := by
      funext a
      apply Fin.ext
      match a with
      | ⟨0, _⟩ => show win2_5.index t (0 : Fin 1) * 256 + 1 * j.val = j.val; omega
    show V c main_arg5 (((cfg2.win 5).blk t).view.emb (ix1 j)) = _
    rw [h]
  · have h : ((cfg2.win 6).blk t).view.emb (ix2 k j) = ix2 k j := by
      funext a
      apply Fin.ext
      match a with
      | ⟨0, _⟩ => show win2_6.index t (0 : Fin 2) * 512 + 1 * k.val = k.val; omega
      | ⟨1, _⟩ => show win2_6.index t (1 : Fin 2) * 256 + 1 * j.val = j.val; omega
    show V c main_v2 (((cfg2.win 6).blk t).view.emb (ix2 k j)) = _
    rw [h]
  · have h : ((cfg2.win 7).blk t).view.emb (ix1 j) = ix1 j := by
      funext a
      apply Fin.ext
      match a with
      | ⟨0, _⟩ => show win2_7.index t (0 : Fin 1) * 256 + 1 * j.val = j.val; omega
    show V c main_arg7 (((cfg2.win 7).blk t).view.emb (ix1 j)) = _
    rw [h]

/-- An index of the output array lies in point t's block iff each coordinate lies in the block's range on its axis. -/
theorem inBlock2_8 (t : Fin cfg2.N) (i : S50000x256.Idx) :
    i ∈ ((cfg2.win 8).blk t).view.set ↔ ∀ a : Fin 2, win2_8.index t a * S2000x256.size a ≤ (i a).val ∧ (i a).val < win2_8.index t a * S2000x256.size a + S2000x256.size a := by
  show i ∈ ((View.whole main_v8).slice (win2_8.rect t)).set ↔ _
  rw [View.set_slice_whole, Rect.mem_set_unit]
  exact Iff.rfl

/-- Every row is written: row n lies in the block of point n / 2000. -/
theorem allRows2_8 (i : S50000x256.Idx) : ∃ t : Fin cfg2.N, (cfg2.win 8).flush t = true ∧ i ∈ ((cfg2.win 8).blk t).view.set := by
  have hi0 : (i 0).val < 50000 := (i 0).isLt
  have hi1 : (i 1).val < 256 := (i 1).isLt
  have hN : cfg2.N = 25 := rfl
  have hlt : (i 0).val / 2000 < cfg2.N := by rw [hN]; omega
  obtain ⟨a0, a1, b0, b1, c0, c1, d0, d1, w0, w1, p0, u0, u1, q0, o0, o1⟩ := rowBlock2 ⟨(i 0).val / 2000, hlt⟩
  refine ⟨⟨(i 0).val / 2000, hlt⟩, flush2_8 _, ?_⟩
  rw [inBlock2_8]
  intro a
  match a with
  | ⟨0, _⟩ => show win2_8.index ⟨(i 0).val / 2000, hlt⟩ (0 : Fin 2) * 2000 ≤ (i 0).val ∧ (i 0).val < win2_8.index ⟨(i 0).val / 2000, hlt⟩ (0 : Fin 2) * 2000 + 2000; rw [o0]; show (i 0).val / 2000 * 2000 ≤ (i 0).val ∧ (i 0).val < (i 0).val / 2000 * 2000 + 2000; omega
  | ⟨1, _⟩ => show win2_8.index ⟨(i 0).val / 2000, hlt⟩ (1 : Fin 2) * 256 ≤ (i 1).val ∧ (i 1).val < win2_8.index ⟨(i 0).val / 2000, hlt⟩ (1 : Fin 2) * 256 + 256; rw [o1]; omega

/-- The second layer call's output: one layer of the arrays it finds. -/
theorem layer2 (c : Dev nD) :
    (dat2 (F := Ideal) V c).arrAt 8 cfg2.N
      = Cert.Spec.layer (V c main_v7) (V c main_v0_0) (V c main_v0_1) (V c main_v5) (V c main_v1) (V c main_arg5)
          (V c main_v2) (V c main_arg7) := by
  exact (dat2 V c).arrAt_eq_of_cover 8 _ (fun t _ => writtenBack2_8 V c t) allRows2_8

end Cert.KernelIdeal.RegionValue

end
-- ==== Proof.KerValue.lean ====
/-
  The idealized kernel program's result as a function of its eight arguments.

  Walking the boundary contents back from the result buffer: the second layer call's output is one layer
  (`Spec.layer`) of the arrays that call finds; of those, the neighbour sums were just gathered out of the first
  layer call's output, the edge and time sums were left by the very first call and not written since, the rounded
  weight matrices were written once by the host before the first layer call (rounding to bf16 is the identity on the
  extended reals) and the biases are arguments; the first layer call's output is one layer of the arrays IT finds,
  the neighbour sums gathered out of the argument embedding.  No finiteness is used anywhere.
-/
import proofs.«178062_j48747878810094_2_alg».proof.Proof.Gen.KernelIdeal.Frame
import proofs.«178062_j48747878810094_2_alg».proof.Proof.Spec
import proofs.«178062_j48747878810094_2_alg».proof.Proof.KerTerms
import proofs.«178062_j48747878810094_2_alg».proof.Proof.KerHost
import proofs.«178062_j48747878810094_2_alg».proof.Proof.RegionValue

noncomputable section

namespace Cert.KernelIdeal.KerValue

open Idealize.ShloMosaic Idealize.ShloMosaic.TcCoe Idealize.SL.Sem
open Idealize.ShloMosaic.Pipeline (Dat Cfg Window)
open Cert.KernelIdeal Cert.KernelIdeal.Gen

/-- Two layers over the extended reals: the specification of the whole program.  The neighbour sums are retaken
    from the first layer's output; the edge and time sums are shared. -/
def twoLayers (a0 : (⟨S50000x256, .f32⟩ : BufTy).Contents (Elt Ideal)) (a1 : (⟨S50000x16, .i32⟩ : BufTy).Contents (Elt Ideal))
    (a2 a3 : (⟨S50000x16x100, .f32⟩ : BufTy).Contents (Elt Ideal)) (a4 : (⟨S456x256, .f32⟩ : BufTy).Contents (Elt Ideal))
    (a5 : (⟨S256, .f32⟩ : BufTy).Contents (Elt Ideal)) (a6 : (⟨S512x256, .f32⟩ : BufTy).Contents (Elt Ideal))
    (a7 : (⟨S256, .f32⟩ : BufTy).Contents (Elt Ideal)) : (⟨S50000x256, .f32⟩ : BufTy).Contents (Elt Ideal) :=
  Cert.Spec.layer
    (Terms.takeSum (F := Ideal)
      (Cert.Spec.layer (Terms.takeSum (F := Ideal) a0 a1) (Cert.Spec.rowSum a2) (Cert.Spec.rowSum a3) a0 a4 a5 a6 a7) a1)
    (Cert.Spec.rowSum a2) (Cert.Spec.rowSum a3)
    (Cert.Spec.layer (Terms.takeSum (F := Ideal) a0 a1) (Cert.Spec.rowSum a2) (Cert.Spec.rowSum a3) a0 a4 a5 a6 a7)
    a4 a5 a6 a7

variable (m : (ℓ : Loc nD τ sig) → Buf (Elt Ideal) ℓ) (ρ : Dev nD → PrngReg) (c : Dev nD)

/-! ## After the first call -/

theorem w1_arg0 : W1 m ρ c (Proc.devRef .tc main_arg0) = m ((c : Thread nD τ).loc main_arg0) := W1_of_ne m ρ c main_arg0 (by decide)
theorem w1_arg1 : W1 m ρ c (Proc.devRef .tc main_arg1) = m ((c : Thread nD τ).loc main_arg1) := W1_of_ne m ρ c main_arg1 (by decide)
theorem w1_arg4 : W1 m ρ c (Proc.devRef .tc main_arg4) = m ((c : Thread nD τ).loc main_arg4) := W1_of_ne m ρ c main_arg4 (by decide)
theorem w1_arg5 : W1 m ρ c (Proc.devRef .tc main_arg5) = m ((c : Thread nD τ).loc main_arg5) := W1_of_ne m ρ c main_arg5 (by decide)
theorem w1_arg6 : W1 m ρ c (Proc.devRef .tc main_arg6) = m ((c : Thread nD τ).loc main_arg6) := W1_of_ne m ρ c main_arg6 (by decide)
theorem w1_arg7 : W1 m ρ c (Proc.devRef .tc main_arg7) = m ((c : Thread nD τ).loc main_arg7) := W1_of_ne m ρ c main_arg7 (by decide)

/-- The edge sums, left by the first call. -/
theorem w1_edge : W1 m ρ c (Proc.devRef .tc main_v0_0) = Cert.Spec.rowSum (m ((c : Thread nD τ).loc main_arg2)) :=
  (W1_arr m ρ c 2).trans (RegionValue.edgeSums (V0 m ρ) c)
/-- The time sums, left by the first call. -/
theorem w1_time : W1 m ρ c (Proc.devRef .tc main_v0_1) = Cert.Spec.rowSum (m ((c : Thread nD τ).loc main_arg3)) :=
  (W1_arr m ρ c 3).trans (RegionValue.timeSums (V0 m ρ) c)

/-! ## At the first layer call's entry -/

theorem w2_arg0 : W2 m ρ c (Proc.devRef .tc main_arg0) = m ((c : Thread nD τ).loc main_arg0) :=
  (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))).trans (w1_arg0 m ρ c)
theorem w2_arg1 : W2 m ρ c (Proc.devRef .tc main_arg1) = m ((c : Thread nD τ).loc main_arg1) :=
  (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))).trans (w1_arg1 m ρ c)
theorem w2_arg5 : W2 m ρ c (Proc.devRef .tc main_arg5) = m ((c : Thread nD τ).loc main_arg5) :=
  (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))).trans (w1_arg5 m ρ c)
theorem w2_arg7 : W2 m ρ c (Proc.devRef .tc main_arg7) = m ((c : Thread nD τ).loc main_arg7) :=
  (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))).trans (w1_arg7 m ρ c)
theorem w2_edge : W2 m ρ c (Proc.devRef .tc main_v0_0) = Cert.Spec.rowSum (m ((c : Thread nD τ).loc main_arg2)) :=
  (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))).trans (w1_edge m ρ c)
theorem w2_time : W2 m ρ c (Proc.devRef .tc main_v0_1) = Cert.Spec.rowSum (m ((c : Thread nD τ).loc main_arg3)) :=
  (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))).trans (w1_time m ρ c)
/-- The first weight matrix rounded: the same function on the extended reals. -/
theorem w2_w1 : W2 m ρ c (Proc.devRef .tc main_v1)
    = (truncf (F := Ideal) (s := S456x256) (φ := .f32) .bf16 (m ((c : Thread nD τ).loc main_arg4)) bitsLt_bf16_f32 : (⟨S456x256, .bf16⟩ : BufTy).Contents (Elt Ideal)) :=
  (KerHost.conv1 (W1 m ρ c)).trans (by rw [w1_arg4])
theorem w2_w2 : W2 m ρ c (Proc.devRef .tc main_v2)
    = (truncf (F := Ideal) (s := S512x256) (φ := .f32) .bf16 (m ((c : Thread nD τ).loc main_arg6)) bitsLt_bf16_f32 : (⟨S512x256, .bf16⟩ : BufTy).Contents (Elt Ideal)) :=
  (KerHost.conv2 (W1 m ρ c)).trans (by rw [w1_arg6])

/-- A buffer neither the gather nor the add-reduction writes keeps its contents through both stretches. -/
theorem w4_of_w2 (b : Ref sig .tc)
    (h1 : W3 m ρ c (Proc.devRef .tc b) = W2 m ρ c (Proc.devRef .tc b))
    (h2 : W4 m ρ c (Proc.devRef .tc b) = W3 m ρ c (Proc.devRef .tc b)) :
    W4 m ρ c (Proc.devRef .tc b) = W2 m ρ c (Proc.devRef .tc b) := h2.trans h1

theorem w4_arg0 : W4 m ρ c (Proc.devRef .tc main_arg0) = m ((c : Thread nD τ).loc main_arg0) :=
  (w4_of_w2 m ρ c main_arg0 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_arg0 m ρ c)
theorem w4_arg1 : W4 m ρ c (Proc.devRef .tc main_arg1) = m ((c : Thread nD τ).loc main_arg1) :=
  (w4_of_w2 m ρ c main_arg1 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_arg1 m ρ c)
theorem w4_arg5 : W4 m ρ c (Proc.devRef .tc main_arg5) = m ((c : Thread nD τ).loc main_arg5) :=
  (w4_of_w2 m ρ c main_arg5 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_arg5 m ρ c)
theorem w4_arg7 : W4 m ρ c (Proc.devRef .tc main_arg7) = m ((c : Thread nD τ).loc main_arg7) :=
  (w4_of_w2 m ρ c main_arg7 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_arg7 m ρ c)
theorem w4_edge : W4 m ρ c (Proc.devRef .tc main_v0_0) = Cert.Spec.rowSum (m ((c : Thread nD τ).loc main_arg2)) :=
  (w4_of_w2 m ρ c main_v0_0 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_edge m ρ c)
theorem w4_time : W4 m ρ c (Proc.devRef .tc main_v0_1) = Cert.Spec.rowSum (m ((c : Thread nD τ).loc main_arg3)) :=
  (w4_of_w2 m ρ c main_v0_1 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_time m ρ c)
theorem w4_w1 : W4 m ρ c (Proc.devRef .tc main_v1)
    = (truncf (F := Ideal) (s := S456x256) (φ := .f32) .bf16 (m ((c : Thread nD τ).loc main_arg4)) bitsLt_bf16_f32 : (⟨S456x256, .bf16⟩ : BufTy).Contents (Elt Ideal)) :=
  (w4_of_w2 m ρ c main_v1 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_w1 m ρ c)
theorem w4_w2 : W4 m ρ c (Proc.devRef .tc main_v2)
    = (truncf (F := Ideal) (s := S512x256) (φ := .f32) .bf16 (m ((c : Thread nD τ).loc main_arg6)) bitsLt_bf16_f32 : (⟨S512x256, .bf16⟩ : BufTy).Contents (Elt Ideal)) :=
  (w4_of_w2 m ρ c main_v2 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w2_w2 m ρ c)
/-- The first neighbour sums: gathered out of the argument embedding. -/
theorem w4_nbr : W4 m ρ c (Proc.devRef .tc main_v4)
    = Terms.takeSum (F := Ideal) (m ((c : Thread nD τ).loc main_arg0)) (m ((c : Thread nD τ).loc main_arg1)) :=
  (KerHost.take1 (W2 m ρ c)).trans (by rw [w2_arg0, w2_arg1])

/-! ## After the first layer call -/

/-- The first layer's output as a function of the arguments. -/
abbrev layerOne : (⟨S50000x256, .f32⟩ : BufTy).Contents (Elt Ideal) :=
  Cert.Spec.layer
    (Terms.takeSum (F := Ideal) (m ((c : Thread nD τ).loc main_arg0)) (m ((c : Thread nD τ).loc main_arg1)))
    (Cert.Spec.rowSum (m ((c : Thread nD τ).loc main_arg2))) (Cert.Spec.rowSum (m ((c : Thread nD τ).loc main_arg3)))
    (m ((c : Thread nD τ).loc main_arg0)) (m ((c : Thread nD τ).loc main_arg4)) (m ((c : Thread nD τ).loc main_arg5))
    (m ((c : Thread nD τ).loc main_arg6)) (m ((c : Thread nD τ).loc main_arg7))

theorem w5_out : W5 m ρ c (Proc.devRef .tc main_v5) = layerOne m c := by
  refine (W5_arr m ρ c 8).trans ((RegionValue.layer1 (V4 m ρ) c).trans ?_)
  show Cert.Spec.layer (W4 m ρ c (Proc.devRef .tc main_v4)) (W4 m ρ c (Proc.devRef .tc main_v0_0)) (W4 m ρ c (Proc.devRef .tc main_v0_1))
      (W4 m ρ c (Proc.devRef .tc main_arg0)) (W4 m ρ c (Proc.devRef .tc main_v1)) (W4 m ρ c (Proc.devRef .tc main_arg5))
      (W4 m ρ c (Proc.devRef .tc main_v2)) (W4 m ρ c (Proc.devRef .tc main_arg7)) = _
  rw [w4_nbr, w4_edge, w4_time, w4_arg0, w4_w1, w4_arg5, w4_w2, w4_arg7]
  rfl

/-- An input window's array is as the call found it. -/
theorem w5_in (w : Fin cfg1.W) (hw : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hw _).trans (A_eq1 (V4 m ρ) c w))

theorem w5_arg1 : W5 m ρ c (Proc.devRef .tc main_arg1) = m ((c : Thread nD τ).loc main_arg1) :=
  (W5_of_ne m ρ c main_arg1 (by decide)).trans (w4_arg1 m ρ c)
theorem w5_edge : W5 m ρ c (Proc.devRef .tc main_v0_0) = Cert.Spec.rowSum (m ((c : Thread nD τ).loc main_arg2)) :=
  (w5_in m ρ c 1 rfl).trans (w4_edge m ρ c)
theorem w5_time : W5 m ρ c (Proc.devRef .tc main_v0_1) = Cert.Spec.rowSum (m ((c : Thread nD τ).loc main_arg3)) :=
  (w5_in m ρ c 2 rfl).trans (w4_time m ρ c)
theorem w5_w1 : W5 m ρ c (Proc.devRef .tc main_v1)
    = (truncf (F := Ideal) (s := S456x256) (φ := .f32) .bf16 (m ((c : Thread nD τ).loc main_arg4)) bitsLt_bf16_f32 : (⟨S456x256, .bf16⟩ : BufTy).Contents (Elt Ideal)) :=
  (w5_in m ρ c 4 rfl).trans (w4_w1 m ρ c)
theorem w5_arg5 : W5 m ρ c (Proc.devRef .tc main_arg5) = m ((c : Thread nD τ).loc main_arg5) :=
  (w5_in m ρ c 5 rfl).trans (w4_arg5 m ρ c)
theorem w5_w2 : W5 m ρ c (Proc.devRef .tc main_v2)
    = (truncf (F := Ideal) (s := S512x256) (φ := .f32) .bf16 (m ((c : Thread nD τ).loc main_arg6)) bitsLt_bf16_f32 : (⟨S512x256, .bf16⟩ : BufTy).Contents (Elt Ideal)) :=
  (w5_in m ρ c 6 rfl).trans (w4_w2 m ρ c)
theorem w5_arg7 : W5 m ρ c (Proc.devRef .tc main_arg7) = m ((c : Thread nD τ).loc main_arg7) :=
  (w5_in m ρ c 7 rfl).trans (w4_arg7 m ρ c)

/-! ## At the second layer call's entry -/

theorem w7_of_w5 (b : Ref sig .tc)
    (h1 : W6 m ρ c (Proc.devRef .tc b) = W5 m ρ c (Proc.devRef .tc b))
    (h2 : W7 m ρ c (Proc.devRef .tc b) = W6 m ρ c (Proc.devRef .tc b)) :
    W7 m ρ c (Proc.devRef .tc b) = W5 m ρ c (Proc.devRef .tc b) := h2.trans h1

theorem w7_out : W7 m ρ c (Proc.devRef .tc main_v5) = layerOne m c :=
  (w7_of_w5 m ρ c main_v5 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w5_out m ρ c)
theorem w7_edge : W7 m ρ c (Proc.devRef .tc main_v0_0) = Cert.Spec.rowSum (m ((c : Thread nD τ).loc main_arg2)) :=
  (w7_of_w5 m ρ c main_v0_0 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w5_edge m ρ c)
theorem w7_time : W7 m ρ c (Proc.devRef .tc main_v0_1) = Cert.Spec.rowSum (m ((c : Thread nD τ).loc main_arg3)) :=
  (w7_of_w5 m ρ c main_v0_1 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w5_time m ρ c)
theorem w7_w1 : W7 m ρ c (Proc.devRef .tc main_v1)
    = (truncf (F := Ideal) (s := S456x256) (φ := .f32) .bf16 (m ((c : Thread nD τ).loc main_arg4)) bitsLt_bf16_f32 : (⟨S456x256, .bf16⟩ : BufTy).Contents (Elt Ideal)) :=
  (w7_of_w5 m ρ c main_v1 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w5_w1 m ρ c)
theorem w7_arg5 : W7 m ρ c (Proc.devRef .tc main_arg5) = m ((c : Thread nD τ).loc main_arg5) :=
  (w7_of_w5 m ρ c main_arg5 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w5_arg5 m ρ c)
theorem w7_w2 : W7 m ρ c (Proc.devRef .tc main_v2)
    = (truncf (F := Ideal) (s := S512x256) (φ := .f32) .bf16 (m ((c : Thread nD τ).loc main_arg6)) bitsLt_bf16_f32 : (⟨S512x256, .bf16⟩ : BufTy).Contents (Elt Ideal)) :=
  (w7_of_w5 m ρ c main_v2 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w5_w2 m ρ c)
theorem w7_arg7 : W7 m ρ c (Proc.devRef .tc main_arg7) = m ((c : Thread nD τ).loc main_arg7) :=
  (w7_of_w5 m ρ c main_arg7 (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide)))) (StableHlo.after_of_forall_not_mem _ _ (List.forall_iff_forall_mem.mp (by
      simp only [hostOps1, hostOps1_1, hostOps1_2, hostOps2, hostOps2_1, List.Forall, StableHlo.nullary_writes, StableHlo.unary_writes,
        StableHlo.binary_writes, StableHlo.ternary_writes, Finset.mem_singleton]
      repeat' apply And.intro
      all_goals exact StableHlo.devRef_ne_of_ne (by decide))))).trans (w5_arg7 m ρ c)
/-- The second neighbour sums: gathered out of the first layer's output. -/
theorem w7_nbr : W7 m ρ c (Proc.devRef .tc main_v7)
    = Terms.takeSum (F := Ideal) (layerOne m c) (m ((c : Thread nD τ).loc main_arg1)) :=
  (KerHost.take2 (W5 m ρ c)).trans (by rw [w5_out, w5_arg1])

/-! ## The result -/

/-- The result buffer at the last boundary holds two layers of the arguments. -/
theorem result_eq : W8 m ρ c (Proc.devRef .tc main_v8)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W8_arr m ρ c 8).trans ((RegionValue.layer2 (V7 m ρ) c).trans ?_)
  show Cert.Spec.layer (W7 m ρ c (Proc.devRef .tc main_v7)) (W7 m ρ c (Proc.devRef .tc main_v0_0)) (W7 m ρ c (Proc.devRef .tc main_v0_1))
      (W7 m ρ c (Proc.devRef .tc main_v5)) (W7 m ρ c (Proc.devRef .tc main_v1)) (W7 m ρ c (Proc.devRef .tc main_arg5))
      (W7 m ρ c (Proc.devRef .tc main_v2)) (W7 m ρ c (Proc.devRef .tc main_arg7)) = _
  rw [w7_nbr, w7_edge, w7_time, w7_out, w7_w1, w7_arg5, w7_w2, w7_arg7]
  rfl

end Cert.KernelIdeal.KerValue

end
-- ==== Proof.RefTerms.lean ====
/-
  The host-side operations of this program as pure functions of arrays, generic in the float instance.

  `takeSum x nb` is jnp.take(x, nb, axis=0).sum(axis=1) exactly as it is lowered: negative indices are shifted by the
  table's length, the shifted index is looked up (a gather of whole rows), rows whose index lies outside
  0 … 49999 are replaced by the quiet-NaN word, and the 16 gathered rows of each node are added up.  Both programs of
  this certificate apply these very operations, so nothing about them is ever opened: they are carried as one function.
-/
import proofs.«178062_j48747878810094_2_alg».proof.ReferenceIdeal
import proofs.«178062_j48747878810094_2_alg».proof.Proof.Gen.ReferenceIdeal

noncomputable section

namespace Cert.ReferenceIdeal.Terms

open Idealize.ShloMosaic Cert.ReferenceIdeal Cert.ReferenceIdeal.Facts₀ Cert.ReferenceIdeal.Facts

variable {F : FTy → Type} [FloatOps F]

/-- The 16 neighbour rows of every node gathered out of `x` and summed. -/
def takeSum (x : (⟨S50000x256, .f32⟩ : BufTy).Contents (Elt F)) (nb : (⟨S50000x16, .i32⟩ : BufTy).Contents (Elt F)) :
    (⟨S50000x256, .f32⟩ : BufTy).Contents (Elt F) :=
  let c : (⟨S_, .i32⟩ : BufTy).Contents (Elt F) := constantI S_ 32 0#32
  let v0 : (⟨S50000x16, .i32⟩ : BufTy).Contents (Elt F) := broadcastInDim S50000x16 ![] bcast_S_S50000x16 c
  let v1 : (⟨S50000x16, .i1⟩ : BufTy).Contents (Elt F) := cmpi .slt nb v0
  let c_0 : (⟨S_, .i32⟩ : BufTy).Contents (Elt F) := constantI S_ 32 50000#32
  let v2 : (⟨S50000x16, .i32⟩ : BufTy).Contents (Elt F) := broadcastInDim S50000x16 ![] bcast_S_S50000x16 c_0
  let v3 : (⟨S50000x16, .i32⟩ : BufTy).Contents (Elt F) := addi nb v2
  let v4 : (⟨S50000x16, .i32⟩ : BufTy).Contents (Elt F) := select v1 v3 nb
  let v5 : (⟨S50000x16x1, .i32⟩ : BufTy).Contents (Elt F) := broadcastInDim S50000x16x1 ![0, 1] bcast_S50000x16_S50000x16x1_0_1 v4
  let c_1 : (⟨S1, .i32⟩ : BufTy).Contents (Elt F) := constantI S1 32 49999#32
  let c_2 : (⟨S_, .i32⟩ : BufTy).Contents (Elt F) := constantI S_ 32 0#32
  let v6 : (⟨S50000x16x1, .i32⟩ : BufTy).Contents (Elt F) := broadcastInDim S50000x16x1 ![] bcast_S_S50000x16x1 c_2
  let v7 : (⟨S50000x16x1, .i1⟩ : BufTy).Contents (Elt F) := cmpi .sge v5 v6
  let v8 : (⟨S1x1x1, .i32⟩ : BufTy).Contents (Elt F) := broadcastInDim S1x1x1 ![2] bcast_S1_S1x1x1_2 c_1
  let v9 : (⟨S50000x16x1, .i32⟩ : BufTy).Contents (Elt F) := broadcastInDim S50000x16x1 ![0, 1, 2] bcast_S1x1x1_S50000x16x1_0_1_2 v8
  let v10 : (⟨S50000x16x1, .i1⟩ : BufTy).Contents (Elt F) := cmpi .sle v5 v9
  let v11 : (⟨S50000x16x1, .i1⟩ : BufTy).Contents (Elt F) := andi v7 v10
  let c_3 : (⟨S_, .i1⟩ : BufTy).Contents (Elt F) := constantI S_ 1 1#1
  let v12 : (⟨S50000x16, .i1⟩ : BufTy).Contents (Elt F) := Host.reduce IntOp.andi v11 c_3 reducesTo_S50000x16x1_S50000x16_d2 h_S_
  let v13 : (⟨S50000x16x256, .f32⟩ : BufTy).Contents (Elt F) := Host.gather gather_S50000x256_S50000x16x1_S50000x16x256_2_0_n_n_0_2_1256 x v5
  let v14 : (⟨S50000x16x256, .i1⟩ : BufTy).Contents (Elt F) := broadcastInDim S50000x16x256 ![0, 1] bcast_S50000x16_S50000x16x256_0_1 v12
  let cst : (⟨S_, .f32⟩ : BufTy).Contents (Elt F) := constant S_ .f32 0x7FC00000#32
  let v15 : (⟨S50000x16x256, .f32⟩ : BufTy).Contents (Elt F) := broadcastInDim S50000x16x256 ![] bcast_S_S50000x16x256 cst
  let v16 : (⟨S50000x16x256, .f32⟩ : BufTy).Contents (Elt F) := select v14 v13 v15
  Host.reduceAdd v16 (constant S_ .f32 0x00000000#32) reducesTo_S50000x16x256_S50000x256_d1 h_S_

/-- jax.nn.relu as it is lowered: the maximum with a broadcast zero. -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- A bias vector added to every row: broadcast to one row, then to all 50000. -/
def biasRows (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- The sum over the 16 neighbours of a [50000, 16, 100] array, as the host reduces it from a zero initial value. -/
def rowSum (x : (⟨S50000x16x100, .f32⟩ : BufTy).Contents (Elt F)) : (⟨S50000x100, .f32⟩ : BufTy).Contents (Elt F) :=
  Host.reduceAdd x (constant S_ .f32 0x00000000#32) reducesTo_S50000x16x100_S50000x100_d1 h_S_

/-- One layer as the reference spells it: the three per-node arrays concatenated along the feature axis and
    multiplied by the whole first weight matrix, bias, relu; the old embedding and the message concatenated and
    multiplied by the whole second weight matrix, bias. -/
def layer (sN : (⟨S50000x256, .f32⟩ : BufTy).Contents (Elt F)) (sE sT : (⟨S50000x100, .f32⟩ : BufTy).Contents (Elt F))
    (o : (⟨S50000x256, .f32⟩ : BufTy).Contents (Elt F)) (w1 : (⟨S456x256, .f32⟩ : BufTy).Contents (Elt F))
    (b1 : (⟨S256, .f32⟩ : BufTy).Contents (Elt F)) (w2 : (⟨S512x256, .f32⟩ : BufTy).Contents (Elt F))
    (b2 : (⟨S256, .f32⟩ : BufTy).Contents (Elt F)) : (⟨S50000x256, .f32⟩ : BufTy).Contents (Elt F) :=
  let cat1 : (⟨S50000x456, .f32⟩ : BufTy).Contents (Elt F) :=
    concatenate S50000x456 1 [⟨S50000x256, sN⟩, ⟨S50000x100, sE⟩, ⟨S50000x100, sT⟩] concatenates_S50000x256_S50000x100_S50000x100_S50000x456_d1
  let agg : (⟨S50000x256, .f32⟩ : BufTy).Contents (Elt F) :=
    relu (addf (Host.dotGeneral dot_S50000x456_S456x256_S50000x256_1_0_0_1_n_n none cat1 w1) (biasRows b1))
  let cat2 : (⟨S50000x512, .f32⟩ : BufTy).Contents (Elt F) :=
    concatenate S50000x512 1 [⟨S50000x256, o⟩, ⟨S50000x256, agg⟩] concatenates_S50000x256_S50000x256_S50000x512_d1
  addf (Host.dotGeneral dot_S50000x512_S512x256_S50000x256_1_0_0_1_n_n none cat2 w2) (biasRows b2)

/-- The reference's result as a function of its eight arguments: two layers, the neighbour sums retaken from the
    first layer's output, the edge and time sums shared. -/
def result (a0 : (⟨S50000x256, .f32⟩ : BufTy).Contents (Elt F)) (a1 : (⟨S50000x16, .i32⟩ : BufTy).Contents (Elt F))
    (a2 a3 : (⟨S50000x16x100, .f32⟩ : BufTy).Contents (Elt F)) (a4 : (⟨S456x256, .f32⟩ : BufTy).Contents (Elt F))
    (a5 : (⟨S256, .f32⟩ : BufTy).Contents (Elt F)) (a6 : (⟨S512x256, .f32⟩ : BufTy).Contents (Elt F))
    (a7 : (⟨S256, .f32⟩ : BufTy).Contents (Elt F)) : (⟨S50000x256, .f32⟩ : BufTy).Contents (Elt F) :=
  let o1 := layer (takeSum a0 a1) (rowSum a2) (rowSum a3) a0 a4 a5 a6 a7
  layer (takeSum o1 a1) (rowSum a2) (rowSum a3) o1 a4 a5 a6 a7

end Cert.ReferenceIdeal.Terms

end
-- ==== Proof.RefTake.lean ====
/-
  The reference's two gather stretches (its calls of @_take and @_take_0) read at the buffer each returns: the 23
  operations of a call, folded over any contents, leave `take` of the embedding and index buffers in the result buffer.
-/
import proofs.«178062_j48747878810094_2_alg».proof.ReferenceIdeal
import proofs.«178062_j48747878810094_2_alg».proof.Proof.Gen.ReferenceIdeal
import proofs.«178062_j48747878810094_2_alg».proof.Proof.RefTerms
import Idealize.ShloMosaic.Lib.StableHlo.Run

noncomputable section

namespace Cert.ReferenceIdeal.RefTake

open Idealize.ShloMosaic Idealize.ShloMosaic.TcCoe Idealize.SL.Sem
open Cert.ReferenceIdeal Cert.ReferenceIdeal.Facts₀ Cert.ReferenceIdeal.Facts
open Idealize.ShloMosaic.StableHlo

variable {F : FTy → Type} [FloatOps F]

/-- The 16 neighbour rows of every node gathered out of `x`: a [50000, 16, 256] array. -/
def take (x : (⟨S50000x256, .f32⟩ : BufTy).Contents (Elt F)) (nb : (⟨S50000x16, .i32⟩ : BufTy).Contents (Elt F)) :
    (⟨S50000x16x256, .f32⟩ : BufTy).Contents (Elt F) :=
  let c : (⟨S_, .i32⟩ : BufTy).Contents (Elt F) := constantI S_ 32 0#32
  let v0 : (⟨S50000x16, .i32⟩ : BufTy).Contents (Elt F) := broadcastInDim S50000x16 ![] bcast_S_S50000x16 c
  let v1 : (⟨S50000x16, .i1⟩ : BufTy).Contents (Elt F) := cmpi .slt nb v0
  let c_0 : (⟨S_, .i32⟩ : BufTy).Contents (Elt F) := constantI S_ 32 50000#32
  let v2 : (⟨S50000x16, .i32⟩ : BufTy).Contents (Elt F) := broadcastInDim S50000x16 ![] bcast_S_S50000x16 c_0
  let v3 : (⟨S50000x16, .i32⟩ : BufTy).Contents (Elt F) := addi nb v2
  let v4 : (⟨S50000x16, .i32⟩ : BufTy).Contents (Elt F) := select v1 v3 nb
  let v5 : (⟨S50000x16x1, .i32⟩ : BufTy).Contents (Elt F) := broadcastInDim S50000x16x1 ![0, 1] bcast_S50000x16_S50000x16x1_0_1 v4
  let c_1 : (⟨S1, .i32⟩ : BufTy).Contents (Elt F) := constantI S1 32 49999#32
  let c_2 : (⟨S_, .i32⟩ : BufTy).Contents (Elt F) := constantI S_ 32 0#32
  let v6 : (⟨S50000x16x1, .i32⟩ : BufTy).Contents (Elt F) := broadcastInDim S50000x16x1 ![] bcast_S_S50000x16x1 c_2
  let v7 : (⟨S50000x16x1, .i1⟩ : BufTy).Contents (Elt F) := cmpi .sge v5 v6
  let v8 : (⟨S1x1x1, .i32⟩ : BufTy).Contents (Elt F) := broadcastInDim S1x1x1 ![2] bcast_S1_S1x1x1_2 c_1
  let v9 : (⟨S50000x16x1, .i32⟩ : BufTy).Contents (Elt F) := broadcastInDim S50000x16x1 ![0, 1, 2] bcast_S1x1x1_S50000x16x1_0_1_2 v8
  let v10 : (⟨S50000x16x1, .i1⟩ : BufTy).Contents (Elt F) := cmpi .sle v5 v9
  let v11 : (⟨S50000x16x1, .i1⟩ : BufTy).Contents (Elt F) := andi v7 v10
  let c_3 : (⟨S_, .i1⟩ : BufTy).Contents (Elt F) := constantI S_ 1 1#1
  let v12 : (⟨S50000x16, .i1⟩ : BufTy).Contents (Elt F) := Host.reduce IntOp.andi v11 c_3 reducesTo_S50000x16x1_S50000x16_d2 h_S_
  let v13 : (⟨S50000x16x256, .f32⟩ : BufTy).Contents (Elt F) := Host.gather gather_S50000x256_S50000x16x1_S50000x16x256_2_0_n_n_0_2_1256 x v5
  let v14 : (⟨S50000x16x256, .i1⟩ : BufTy).Contents (Elt F) := broadcastInDim S50000x16x256 ![0, 1] bcast_S50000x16_S50000x16x256_0_1 v12
  let cst : (⟨S_, .f32⟩ : BufTy).Contents (Elt F) := constant S_ .f32 0x7FC00000#32
  let v15 : (⟨S50000x16x256, .f32⟩ : BufTy).Contents (Elt F) := broadcastInDim S50000x16x256 ![] bcast_S_S50000x16x256 cst
  select v14 v13 v15

/-- The gather-and-sum is the add-reduction of the gathered rows. -/
theorem takeSum_eq_reduce (x : (⟨S50000x256, .f32⟩ : BufTy).Contents (Elt F)) (nb : (⟨S50000x16, .i32⟩ : BufTy).Contents (Elt F)) :
    Terms.takeSum x nb = Host.reduceAdd (take x nb) (constant S_ .f32 0x00000000#32) reducesTo_S50000x16x256_S50000x256_d1 h_S_ := rfl

/-- The 23 operations of the first call of @_take, in order. -/
abbrev takeOps0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S50000x16, .i32⟩) (broadcastInDim S50000x16 ![] bcast_S_S50000x16),
    StableHlo.TRef.binary (.of main_arg1 : StableHlo.TRef sig ⟨S50000x16, .i32⟩) (.of main_call0_v0 : StableHlo.TRef sig ⟨S50000x16, .i32⟩) (.of main_call0_v1 : StableHlo.TRef sig ⟨S50000x16, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S50000x16, .i32⟩) (broadcastInDim S50000x16 ![] bcast_S_S50000x16),
    StableHlo.TRef.binary (.of main_arg1 : StableHlo.TRef sig ⟨S50000x16, .i32⟩) (.of main_call0_v2 : StableHlo.TRef sig ⟨S50000x16, .i32⟩) (.of main_call0_v3 : StableHlo.TRef sig ⟨S50000x16, .i32⟩) addi,
    StableHlo.TRef.ternary (.of main_call0_v1 : StableHlo.TRef sig ⟨S50000x16, .i1⟩) (.of main_call0_v3 : StableHlo.TRef sig ⟨S50000x16, .i32⟩) (.of main_arg1 : StableHlo.TRef sig ⟨S50000x16, .i32⟩) (.of main_call0_v4 : StableHlo.TRef sig ⟨S50000x16, .i32⟩) select,
    StableHlo.TRef.unary main_call0_call0.v0 (.of main_call0_v5 : StableHlo.TRef sig ⟨S50000x16x1, .i32⟩) (broadcastInDim S50000x16x1 ![0, 1] bcast_S50000x16_S50000x16x1_0_1),
    StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S50000x16x1, .i32⟩) (broadcastInDim S50000x16x1 ![] bcast_S_S50000x16x1),
    StableHlo.TRef.binary (.of main_call0_v5 : StableHlo.TRef sig ⟨S50000x16x1, .i32⟩) (.of main_call0_v6 : StableHlo.TRef sig ⟨S50000x16x1, .i32⟩) (.of main_call0_v7 : StableHlo.TRef sig ⟨S50000x16x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S50000x16x1, .i32⟩) (broadcastInDim S50000x16x1 ![0, 1, 2] bcast_S1x1x1_S50000x16x1_0_1_2),
    StableHlo.TRef.binary (.of main_call0_v5 : StableHlo.TRef sig ⟨S50000x16x1, .i32⟩) (.of main_call0_v9 : StableHlo.TRef sig ⟨S50000x16x1, .i32⟩) (.of main_call0_v10 : StableHlo.TRef sig ⟨S50000x16x1, .i1⟩) (cmpi .sle),
    StableHlo.TRef.binary (.of main_call0_v7 : StableHlo.TRef sig ⟨S50000x16x1, .i1⟩) (.of main_call0_v10 : StableHlo.TRef sig ⟨S50000x16x1, .i1⟩) (.of main_call0_v11 : StableHlo.TRef sig ⟨S50000x16x1, .i1⟩) andi,
    StableHlo.TRef.nullary (.of main_call0_c_3 : StableHlo.TRef sig ⟨S_, .i1⟩) (constantI S_ 1 1#1),
    StableHlo.TRef.binary (.of main_call0_v11 : StableHlo.TRef sig ⟨S50000x16x1, .i1⟩) (.of main_call0_c_3 : StableHlo.TRef sig ⟨S_, .i1⟩) (.of main_call0_v12 : StableHlo.TRef sig ⟨S50000x16, .i1⟩) (fun x v => Host.reduce IntOp.andi x v reducesTo_S50000x16x1_S50000x16_d2 h_S_),
    StableHlo.TRef.binary (.of main_arg0 : StableHlo.TRef sig ⟨S50000x256, .f32⟩) (.of main_call0_v5 : StableHlo.TRef sig ⟨S50000x16x1, .i32⟩) (.of main_call0_v13 : StableHlo.TRef sig ⟨S50000x16x256, .f32⟩) (fun x i => Host.gather gather_S50000x256_S50000x16x1_S50000x16x256_2_0_n_n_0_2_1256 x i),
    StableHlo.TRef.unary (.of main_call0_v12 : StableHlo.TRef sig ⟨S50000x16, .i1⟩) (.of main_call0_v14 : StableHlo.TRef sig ⟨S50000x16x256, .i1⟩) (broadcastInDim S50000x16x256 ![0, 1] bcast_S50000x16_S50000x16x256_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S50000x16x256, .f32⟩) (broadcastInDim S50000x16x256 ![] bcast_S_S50000x16x256),
    StableHlo.TRef.ternary (.of main_call0_v14 : StableHlo.TRef sig ⟨S50000x16x256, .i1⟩) (.of main_call0_v13 : StableHlo.TRef sig ⟨S50000x16x256, .f32⟩) (.of main_call0_v15 : StableHlo.TRef sig ⟨S50000x16x256, .f32⟩) (.of main_v2 : StableHlo.TRef sig ⟨S50000x16x256, .f32⟩) select ]

/-- The 23 operations of the call of @_take_0, in order. -/
abbrev takeOps2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S50000x16, .i32⟩) (broadcastInDim S50000x16 ![] bcast_S_S50000x16),
    StableHlo.TRef.binary (.of main_arg1 : StableHlo.TRef sig ⟨S50000x16, .i32⟩) (.of main_call2_v0 : StableHlo.TRef sig ⟨S50000x16, .i32⟩) (.of main_call2_v1 : StableHlo.TRef sig ⟨S50000x16, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S50000x16, .i32⟩) (broadcastInDim S50000x16 ![] bcast_S_S50000x16),
    StableHlo.TRef.binary (.of main_arg1 : StableHlo.TRef sig ⟨S50000x16, .i32⟩) (.of main_call2_v2 : StableHlo.TRef sig ⟨S50000x16, .i32⟩) (.of main_call2_v3 : StableHlo.TRef sig ⟨S50000x16, .i32⟩) addi,
    StableHlo.TRef.ternary (.of main_call2_v1 : StableHlo.TRef sig ⟨S50000x16, .i1⟩) (.of main_call2_v3 : StableHlo.TRef sig ⟨S50000x16, .i32⟩) (.of main_arg1 : StableHlo.TRef sig ⟨S50000x16, .i32⟩) (.of main_call2_v4 : StableHlo.TRef sig ⟨S50000x16, .i32⟩) select,
    StableHlo.TRef.unary main_call2_call0.v0 (.of main_call2_v5 : StableHlo.TRef sig ⟨S50000x16x1, .i32⟩) (broadcastInDim S50000x16x1 ![0, 1] bcast_S50000x16_S50000x16x1_0_1),
    StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S50000x16x1, .i32⟩) (broadcastInDim S50000x16x1 ![] bcast_S_S50000x16x1),
    StableHlo.TRef.binary (.of main_call2_v5 : StableHlo.TRef sig ⟨S50000x16x1, .i32⟩) (.of main_call2_v6 : StableHlo.TRef sig ⟨S50000x16x1, .i32⟩) (.of main_call2_v7 : StableHlo.TRef sig ⟨S50000x16x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S50000x16x1, .i32⟩) (broadcastInDim S50000x16x1 ![0, 1, 2] bcast_S1x1x1_S50000x16x1_0_1_2),
    StableHlo.TRef.binary (.of main_call2_v5 : StableHlo.TRef sig ⟨S50000x16x1, .i32⟩) (.of main_call2_v9 : StableHlo.TRef sig ⟨S50000x16x1, .i32⟩) (.of main_call2_v10 : StableHlo.TRef sig ⟨S50000x16x1, .i1⟩) (cmpi .sle),
    StableHlo.TRef.binary (.of main_call2_v7 : StableHlo.TRef sig ⟨S50000x16x1, .i1⟩) (.of main_call2_v10 : StableHlo.TRef sig ⟨S50000x16x1, .i1⟩) (.of main_call2_v11 : StableHlo.TRef sig ⟨S50000x16x1, .i1⟩) andi,
    StableHlo.TRef.nullary (.of main_call2_c_3 : StableHlo.TRef sig ⟨S_, .i1⟩) (constantI S_ 1 1#1),
    StableHlo.TRef.binary (.of main_call2_v11 : StableHlo.TRef sig ⟨S50000x16x1, .i1⟩) (.of main_call2_c_3 : StableHlo.TRef sig ⟨S_, .i1⟩) (.of main_call2_v12 : StableHlo.TRef sig ⟨S50000x16, .i1⟩) (fun x v => Host.reduce IntOp.andi x v reducesTo_S50000x16x1_S50000x16_d2 h_S_),
    StableHlo.TRef.binary (.of main_v14 : StableHlo.TRef sig ⟨S50000x256, .f32⟩) (.of main_call2_v5 : StableHlo.TRef sig ⟨S50000x16x1, .i32⟩) (.of main_call2_v13 : StableHlo.TRef sig ⟨S50000x16x256, .f32⟩) (fun x i => Host.gather gather_S50000x256_S50000x16x1_S50000x16x256_2_0_n_n_0_2_1256 x i),
    StableHlo.TRef.unary (.of main_call2_v12 : StableHlo.TRef sig ⟨S50000x16, .i1⟩) (.of main_call2_v14 : StableHlo.TRef sig ⟨S50000x16x256, .i1⟩) (broadcastInDim S50000x16x256 ![0, 1] bcast_S50000x16_S50000x16x256_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S50000x16x256, .f32⟩) (broadcastInDim S50000x16x256 ![] bcast_S_S50000x16x256),
    StableHlo.TRef.ternary (.of main_call2_v14 : StableHlo.TRef sig ⟨S50000x16x256, .i1⟩) (.of main_call2_v13 : StableHlo.TRef sig ⟨S50000x16x256, .f32⟩) (.of main_call2_v15 : StableHlo.TRef sig ⟨S50000x16x256, .f32⟩) (.of main_v15 : StableHlo.TRef sig ⟨S50000x16x256, .f32⟩) select ]

/-- Reading back at a typed reference what was written through it is the identity. -/
theorem ofBuf_toBuf {T : BufTy} (x : TRef sig T) (v : T.Contents (Elt F)) : x.ofBuf (x.toBuf v) = v := by
  rcases x with ⟨r, h, h2, h3⟩
  cases h
  rfl

attribute [local irreducible] Host.reduce Host.reduceAdd Host.gather in
set_option maxHeartbeats 1000000 in
/-- After the first call's 23 operations the returned buffer holds `take` of the embedding and index buffers as the
    stretch found them. -/
theorem gather0 (W : Valuation τ sig (Elt F)) :
    StableHlo.after takeOps0 W (Proc.devRef .tc main_v2)
      = (TRef.of main_v2 : TRef sig ⟨S50000x16x256, .f32⟩).toBuf
          (take ((TRef.of main_arg0 : TRef sig ⟨S50000x256, .f32⟩).ofBuf (W (Proc.devRef .tc main_arg0)))
            ((TRef.of main_arg1 : TRef sig ⟨S50000x16, .i32⟩).ofBuf (W (Proc.devRef .tc main_arg1)))) := by
  after_results
  simp only [ofBuf_toBuf]
  rfl

attribute [local irreducible] Host.reduce Host.reduceAdd Host.gather in
set_option maxHeartbeats 1000000 in
/-- After the second call's 23 operations the returned buffer holds `take` of the first layer's output and the index
    buffer as the stretch found them. -/
theorem gather2 (W : Valuation τ sig (Elt F)) :
    StableHlo.after takeOps2 W (Proc.devRef .tc main_v15)
      = (TRef.of main_v15 : TRef sig ⟨S50000x16x256, .f32⟩).toBuf
          (take ((TRef.of main_v14 : TRef sig ⟨S50000x256, .f32⟩).ofBuf (W (Proc.devRef .tc main_v14)))
            ((TRef.of main_arg1 : TRef sig ⟨S50000x16, .i32⟩).ofBuf (W (Proc.devRef .tc main_arg1)))) := by
  after_results
  simp only [ofBuf_toBuf]
  rfl

/-- The two operations after the first call: a zero constant and the add-reduction over the neighbour axis. -/
abbrev sumOps0 : List (HloOp τ sig (Elt F)) :=
  [ StableHlo.nullary main_cst_1 (constant S_ .f32 0x00000000#32),
    StableHlo.binary main_v2 main_cst_1 main_v3 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F)) ]

/-- The two operations after the second call. -/
abbrev sumOps2 : List (HloOp τ sig (Elt F)) :=
  [ StableHlo.nullary main_cst_2 (constant S_ .f32 0x00000000#32),
    StableHlo.binary main_v15 main_cst_2 main_v16 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F)) ]

/-- The add-reduction after the first gather. -/
theorem sum0 (W : Valuation τ sig (Elt F)) :
    StableHlo.after sumOps0 W (Proc.devRef .tc main_v3)
      = Host.reduceAdd (W (Proc.devRef .tc main_v2)) (constant S_ .f32 0x00000000#32)
          Facts₀.reducesTo_S50000x16x256_S50000x256_d1 Facts₀.h_S_ := by
  after_results

/-- The add-reduction after the second gather. -/
theorem sum2 (W : Valuation τ sig (Elt F)) :
    StableHlo.after sumOps2 W (Proc.devRef .tc main_v16)
      = Host.reduceAdd (W (Proc.devRef .tc main_v15)) (constant S_ .f32 0x00000000#32)
          Facts₀.reducesTo_S50000x16x256_S50000x256_d1 Facts₀.h_S_ := by
  after_results

attribute [local irreducible] Host.reduce Host.reduceAdd Host.gather take in
/-- The first gather-and-sum: the neighbour-sum buffer holds `takeSum` of the embedding and index buffers. -/
theorem takeSum0 (W : Valuation τ sig (Elt F)) :
    StableHlo.after sumOps0 (StableHlo.after takeOps0 W) (Proc.devRef .tc main_v3)
      = Terms.takeSum (W (Proc.devRef .tc main_arg0)) (W (Proc.devRef .tc main_arg1)) := by
  rw [sum0, gather0, takeSum_eq_reduce]
  rfl

attribute [local irreducible] Host.reduce Host.reduceAdd Host.gather take in
/-- The second gather-and-sum, out of the first layer's output. -/
theorem takeSum2 (W : Valuation τ sig (Elt F)) :
    StableHlo.after sumOps2 (StableHlo.after takeOps2 W) (Proc.devRef .tc main_v16)
      = Terms.takeSum (W (Proc.devRef .tc main_v14)) (W (Proc.devRef .tc main_arg1)) := by
  rw [sum2, gather2, takeSum_eq_reduce]
  rfl

end Cert.ReferenceIdeal.RefTake

end
-- ==== Proof.RefRun.lean ====
/-
  The reference program's run, written out: its @main is a straight line of host operations once the three
  outlined functions (the row gather, its index normalisation, the relu) are unfolded at their call sites, so every
  weakly fair execution terminates with each buffer at the operations' fold over the launch contents; read at the
  result buffer that fold is `Terms.result` of the eight argument arrays, and no operation writes an argument.
-/
import proofs.«178062_j48747878810094_2_alg».proof.ReferenceIdeal
import proofs.«178062_j48747878810094_2_alg».proof.Proof.Gen.ReferenceIdeal
import proofs.«178062_j48747878810094_2_alg».proof.Proof.RefTerms
import proofs.«178062_j48747878810094_2_alg».proof.Proof.RefTake
import Idealize.ShloMosaic.Lib.StableHlo.Run

noncomputable section

namespace Cert.ReferenceIdeal.RefRun

open Idealize.ShloMosaic Idealize.ShloMosaic.TcCoe Idealize.SL.Sem Cert.ReferenceIdeal
open Idealize.ShloMosaic.StableHlo Cert.ReferenceIdeal.Facts₀ Cert.ReferenceIdeal.Facts

variable {F : FTy → Type} [FloatOps F]

/-- The eighty operations of @main in program order, each call replaced by its callee's operations over the
    buffers that call owns: the two edge/time row sums (a zero, a reduction, twice); the first gather — the index
    normalisation (six operations and the select of the nested call), the bounds mask (ten), the gather itself, the
    mask's broadcast, the NaN fill and the final select —; its sum over the sixteen neighbours; the first layer
    (concatenate, product, bias in two broadcasts, sum, the relu's three operations, concatenate, product, bias,
    sum); then the same again reading the first layer's output. -/
abbrev ops : List (HloOp τ sig (Elt F)) :=
  [ StableHlo.nullary main_cst (constant S_ .f32 0x00000000#32),
    StableHlo.binary main_arg2 main_cst main_v0 ((fun x v => Host.reduceAdd x v reducesTo_S50000x16x100_S50000x100_d1 h_S_) : (⟨S50000x16x100, .f32⟩ : BufTy).Contents (Elt F) → (⟨S_, .f32⟩ : BufTy).Contents (Elt F) → (⟨S50000x100, .f32⟩ : BufTy).Contents (Elt F)),
    StableHlo.nullary main_cst_0 (constant S_ .f32 0x00000000#32),
    StableHlo.binary main_arg3 main_cst_0 main_v1 ((fun x v => Host.reduceAdd x v reducesTo_S50000x16x100_S50000x100_d1 h_S_) : (⟨S50000x16x100, .f32⟩ : BufTy).Contents (Elt F) → (⟨S_, .f32⟩ : BufTy).Contents (Elt F) → (⟨S50000x100, .f32⟩ : BufTy).Contents (Elt F)),
    StableHlo.TRef.nullary main_call0.c (constantI S_ 32 0#32),
    StableHlo.TRef.unary main_call0.c main_call0.v0 (broadcastInDim S50000x16 ![] bcast_S_S50000x16),
    StableHlo.TRef.binary (.of main_arg1 : StableHlo.TRef sig ⟨S50000x16, .i32⟩) main_call0.v0 main_call0.v1 (cmpi .slt),
    StableHlo.TRef.nullary main_call0.c_0 (constantI S_ 32 50000#32),
    StableHlo.TRef.unary main_call0.c_0 main_call0.v2 (broadcastInDim S50000x16 ![] bcast_S_S50000x16),
    StableHlo.TRef.binary (.of main_arg1 : StableHlo.TRef sig ⟨S50000x16, .i32⟩) main_call0.v2 main_call0.v3 addi,
    StableHlo.TRef.ternary main_call0.v1 main_call0.v3 (.of main_arg1 : StableHlo.TRef sig ⟨S50000x16, .i32⟩) main_call0.call0.v0 select,
    StableHlo.TRef.unary main_call0.call0.v0 main_call0.v5 (broadcastInDim S50000x16x1 ![0, 1] bcast_S50000x16_S50000x16x1_0_1),
    StableHlo.TRef.nullary main_call0.c_1 (constantI S1 32 49999#32),
    StableHlo.TRef.nullary main_call0.c_2 (constantI S_ 32 0#32),
    StableHlo.TRef.unary main_call0.c_2 main_call0.v6 (broadcastInDim S50000x16x1 ![] bcast_S_S50000x16x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S50000x16x1 ![0, 1, 2] bcast_S1x1x1_S50000x16x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S50000x16x1_S50000x16_d2 h_S_),
    StableHlo.TRef.binary (.of main_arg0 : StableHlo.TRef sig ⟨S50000x256, .f32⟩) main_call0.v5 main_call0.v13 (fun x i => Host.gather gather_S50000x256_S50000x16x1_S50000x16x256_2_0_n_n_0_2_1256 x i),
    StableHlo.TRef.unary main_call0.v12 main_call0.v14 (broadcastInDim S50000x16x256 ![0, 1] bcast_S50000x16_S50000x16x256_0_1),
    StableHlo.TRef.nullary main_call0.cst (constant S_ .f32 0x7FC00000#32),
    StableHlo.TRef.unary main_call0.cst main_call0.v15 (broadcastInDim S50000x16x256 ![] bcast_S_S50000x16x256),
    StableHlo.TRef.ternary main_call0.v14 main_call0.v13 main_call0.v15 main_call0.v16 select,
    StableHlo.nullary main_cst_1 (constant S_ .f32 0x00000000#32),
    StableHlo.binary main_v2 main_cst_1 main_v3 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F)),
    StableHlo.nary ![main_v3, main_v0, main_v1] main_v4 (fun u => concatenate S50000x456 1 [⟨S50000x256, u 0⟩, ⟨S50000x100, u 1⟩, ⟨S50000x100, u 2⟩] concatenates_S50000x256_S50000x100_S50000x100_S50000x456_d1),
    StableHlo.binary main_v4 main_arg4 main_v5 ((fun l r => Host.dotGeneral dot_S50000x456_S456x256_S50000x256_1_0_0_1_n_n none l r) : (⟨S50000x456, .f32⟩ : BufTy).Contents (Elt F) → (⟨S456x256, .f32⟩ : BufTy).Contents (Elt F) → (⟨S50000x256, .f32⟩ : BufTy).Contents (Elt F)),
    StableHlo.unary main_arg5 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S50000x256 ![0, 1] bcast_S1x256_S50000x256_0_1 : (⟨S1x256, .f32⟩ : BufTy).Contents (Elt F) → (⟨S50000x256, .f32⟩ : BufTy).Contents (Elt F)),
    StableHlo.binary main_v5 main_v7 main_v8 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v8 : StableHlo.TRef sig ⟨S50000x256, .f32⟩) main_call1.v0 main_call1.v1 maximumf,
    StableHlo.binary main_arg0 main_v9 main_v10 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.binary main_v10 main_arg6 main_v11 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg7 main_v12 (broadcastInDim S1x256 ![1] bcast_S256_S1x256_1 : (⟨S256, .f32⟩ : BufTy).Contents (Elt F) → (⟨S1x256, .f32⟩ : BufTy).Contents (Elt F)),
    StableHlo.unary main_v12 main_v13 (broadcastInDim S50000x256 ![0, 1] bcast_S1x256_S50000x256_0_1 : (⟨S1x256, .f32⟩ : BufTy).Contents (Elt F) → (⟨S50000x256, .f32⟩ : BufTy).Contents (Elt F)),
    StableHlo.binary main_v11 main_v13 main_v14 (addf : (⟨S50000x256, .f32⟩ : BufTy).Contents (Elt F) → (⟨S50000x256, .f32⟩ : BufTy).Contents (Elt F) → (⟨S50000x256, .f32⟩ : BufTy).Contents (Elt F)),
    StableHlo.TRef.nullary main_call2.c (constantI S_ 32 0#32),
    StableHlo.TRef.unary main_call2.c main_call2.v0 (broadcastInDim S50000x16 ![] bcast_S_S50000x16),
    StableHlo.TRef.binary (.of main_arg1 : StableHlo.TRef sig ⟨S50000x16, .i32⟩) main_call2.v0 main_call2.v1 (cmpi .slt),
    StableHlo.TRef.nullary main_call2.c_0 (constantI S_ 32 50000#32),
    StableHlo.TRef.unary main_call2.c_0 main_call2.v2 (broadcastInDim S50000x16 ![] bcast_S_S50000x16),
    StableHlo.TRef.binary (.of main_arg1 : StableHlo.TRef sig ⟨S50000x16, .i32⟩) main_call2.v2 main_call2.v3 addi,
    StableHlo.TRef.ternary main_call2.v1 main_call2.v3 (.of main_arg1 : StableHlo.TRef sig ⟨S50000x16, .i32⟩) main_call2.call0.v0 select,
    StableHlo.TRef.unary main_call2.call0.v0 main_call2.v5 (broadcastInDim S50000x16x1 ![0, 1] bcast_S50000x16_S50000x16x1_0_1),
    StableHlo.TRef.nullary main_call2.c_1 (constantI S1 32 49999#32),
    StableHlo.TRef.nullary main_call2.c_2 (constantI S_ 32 0#32),
    StableHlo.TRef.unary main_call2.c_2 main_call2.v6 (broadcastInDim S50000x16x1 ![] bcast_S_S50000x16x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S50000x16x1 ![0, 1, 2] bcast_S1x1x1_S50000x16x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S50000x16x1_S50000x16_d2 h_S_),
    StableHlo.TRef.binary (.of main_v14 : StableHlo.TRef sig ⟨S50000x256, .f32⟩) main_call2.v5 main_call2.v13 (fun x i => Host.gather gather_S50000x256_S50000x16x1_S50000x16x256_2_0_n_n_0_2_1256 x i),
    StableHlo.TRef.unary main_call2.v12 main_call2.v14 (broadcastInDim S50000x16x256 ![0, 1] bcast_S50000x16_S50000x16x256_0_1),
    StableHlo.TRef.nullary main_call2.cst (constant S_ .f32 0x7FC00000#32),
    StableHlo.TRef.unary main_call2.cst main_call2.v15 (broadcastInDim S50000x16x256 ![] bcast_S_S50000x16x256),
    StableHlo.TRef.ternary main_call2.v14 main_call2.v13 main_call2.v15 main_call2.v16 select,
    StableHlo.nullary main_cst_2 (constant S_ .f32 0x00000000#32),
    StableHlo.binary main_v15 main_cst_2 main_v16 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F)),
    StableHlo.nary ![main_v16, main_v0, main_v1] main_v17 (fun u => concatenate S50000x456 1 [⟨S50000x256, u 0⟩, ⟨S50000x100, u 1⟩, ⟨S50000x100, u 2⟩] concatenates_S50000x256_S50000x100_S50000x100_S50000x456_d1),
    StableHlo.binary main_v17 main_arg4 main_v18 ((fun l r => Host.dotGeneral dot_S50000x456_S456x256_S50000x256_1_0_0_1_n_n none l r) : (⟨S50000x456, .f32⟩ : BufTy).Contents (Elt F) → (⟨S456x256, .f32⟩ : BufTy).Contents (Elt F) → (⟨S50000x256, .f32⟩ : BufTy).Contents (Elt F)),
    StableHlo.unary main_arg5 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S50000x256 ![0, 1] bcast_S1x256_S50000x256_0_1 : (⟨S1x256, .f32⟩ : BufTy).Contents (Elt F) → (⟨S50000x256, .f32⟩ : BufTy).Contents (Elt F)),
    StableHlo.binary main_v18 main_v20 main_v21 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v21 : StableHlo.TRef sig ⟨S50000x256, .f32⟩) main_call3.v0 main_call3.v1 maximumf,
    StableHlo.binary main_v14 main_v22 main_v23 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.binary main_v23 main_arg6 main_v24 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg7 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S50000x256 ![0, 1] bcast_S1x256_S50000x256_0_1 : (⟨S1x256, .f32⟩ : BufTy).Contents (Elt F) → (⟨S50000x256, .f32⟩ : BufTy).Contents (Elt F)),
    StableHlo.binary main_v24 main_v26 main_v27 (addf : (⟨S50000x256, .f32⟩ : BufTy).Contents (Elt F) → (⟨S50000x256, .f32⟩ : BufTy).Contents (Elt F) → (⟨S50000x256, .f32⟩ : BufTy).Contents (Elt F)) ]

-- eighty binds are re-associated one inside the other, so the rewriter recurses once per statement
set_option maxRecDepth 16384 in
set_option maxHeartbeats 4000000 in
/-- @main is that straight line: with the callees' bodies unfolded where they are called and the sequencing
    re-associated, both sides are the same chain of single operations. -/
theorem main_eq (c : Dev nD) : main (F := F) c = seq ops := by
  simp only [main, fn_take.body, fn_take_0.body, fn_where.body, fn_relu.body, seq, bind_assoc, pure_bind]

/-- The edge-feature and time-feature sums over the sixteen neighbours: a zero and a reduction, twice. -/
abbrev rowOps : List (HloOp τ sig (Elt F)) :=
  [ StableHlo.nullary main_cst (constant S_ .f32 0x00000000#32),
    StableHlo.binary main_arg2 main_cst main_v0 ((fun x v => Host.reduceAdd x v reducesTo_S50000x16x100_S50000x100_d1 h_S_) : (⟨S50000x16x100, .f32⟩ : BufTy).Contents (Elt F) → (⟨S_, .f32⟩ : BufTy).Contents (Elt F) → (⟨S50000x100, .f32⟩ : BufTy).Contents (Elt F)),
    StableHlo.nullary main_cst_0 (constant S_ .f32 0x00000000#32),
    StableHlo.binary main_arg3 main_cst_0 main_v1 ((fun x v => Host.reduceAdd x v reducesTo_S50000x16x100_S50000x100_d1 h_S_) : (⟨S50000x16x100, .f32⟩ : BufTy).Contents (Elt F) → (⟨S_, .f32⟩ : BufTy).Contents (Elt F) → (⟨S50000x100, .f32⟩ : BufTy).Contents (Elt F)) ]

/-- The first layer on the gathered sums. -/
abbrev layerOps1 : List (HloOp τ sig (Elt F)) :=
  [ StableHlo.nary ![main_v3, main_v0, main_v1] main_v4 (fun u => concatenate S50000x456 1 [⟨S50000x256, u 0⟩, ⟨S50000x100, u 1⟩, ⟨S50000x100, u 2⟩] concatenates_S50000x256_S50000x100_S50000x100_S50000x456_d1),
    StableHlo.binary main_v4 main_arg4 main_v5 ((fun l r => Host.dotGeneral dot_S50000x456_S456x256_S50000x256_1_0_0_1_n_n none l r) : (⟨S50000x456, .f32⟩ : BufTy).Contents (Elt F) → (⟨S456x256, .f32⟩ : BufTy).Contents (Elt F) → (⟨S50000x256, .f32⟩ : BufTy).Contents (Elt F)),
    StableHlo.unary main_arg5 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S50000x256 ![0, 1] bcast_S1x256_S50000x256_0_1 : (⟨S1x256, .f32⟩ : BufTy).Contents (Elt F) → (⟨S50000x256, .f32⟩ : BufTy).Contents (Elt F)),
    StableHlo.binary main_v5 main_v7 main_v8 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v8 : StableHlo.TRef sig ⟨S50000x256, .f32⟩) main_call1.v0 main_call1.v1 maximumf,
    StableHlo.binary main_arg0 main_v9 main_v10 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.binary main_v10 main_arg6 main_v11 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg7 main_v12 (broadcastInDim S1x256 ![1] bcast_S256_S1x256_1 : (⟨S256, .f32⟩ : BufTy).Contents (Elt F) → (⟨S1x256, .f32⟩ : BufTy).Contents (Elt F)),
    StableHlo.unary main_v12 main_v13 (broadcastInDim S50000x256 ![0, 1] bcast_S1x256_S50000x256_0_1 : (⟨S1x256, .f32⟩ : BufTy).Contents (Elt F) → (⟨S50000x256, .f32⟩ : BufTy).Contents (Elt F)),
    StableHlo.binary main_v11 main_v13 main_v14 (addf : (⟨S50000x256, .f32⟩ : BufTy).Contents (Elt F) → (⟨S50000x256, .f32⟩ : BufTy).Contents (Elt F) → (⟨S50000x256, .f32⟩ : BufTy).Contents (Elt F)) ]

/-- The second layer, on the sums gathered out of the first layer's output. -/
abbrev layerOps2 : List (HloOp τ sig (Elt F)) :=
  [ StableHlo.nary ![main_v16, main_v0, main_v1] main_v17 (fun u => concatenate S50000x456 1 [⟨S50000x256, u 0⟩, ⟨S50000x100, u 1⟩, ⟨S50000x100, u 2⟩] concatenates_S50000x256_S50000x100_S50000x100_S50000x456_d1),
    StableHlo.binary main_v17 main_arg4 main_v18 ((fun l r => Host.dotGeneral dot_S50000x456_S456x256_S50000x256_1_0_0_1_n_n none l r) : (⟨S50000x456, .f32⟩ : BufTy).Contents (Elt F) → (⟨S456x256, .f32⟩ : BufTy).Contents (Elt F) → (⟨S50000x256, .f32⟩ : BufTy).Contents (Elt F)),
    StableHlo.unary main_arg5 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S50000x256 ![0, 1] bcast_S1x256_S50000x256_0_1 : (⟨S1x256, .f32⟩ : BufTy).Contents (Elt F) → (⟨S50000x256, .f32⟩ : BufTy).Contents (Elt F)),
    StableHlo.binary main_v18 main_v20 main_v21 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v21 : StableHlo.TRef sig ⟨S50000x256, .f32⟩) main_call3.v0 main_call3.v1 maximumf,
    StableHlo.binary main_v14 main_v22 main_v23 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.binary main_v23 main_arg6 main_v24 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg7 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S50000x256 ![0, 1] bcast_S1x256_S50000x256_0_1 : (⟨S1x256, .f32⟩ : BufTy).Contents (Elt F) → (⟨S50000x256, .f32⟩ : BufTy).Contents (Elt F)),
    StableHlo.binary main_v24 main_v26 main_v27 (addf : (⟨S50000x256, .f32⟩ : BufTy).Contents (Elt F) → (⟨S50000x256, .f32⟩ : BufTy).Contents (Elt F) → (⟨S50000x256, .f32⟩ : BufTy).Contents (Elt F)) ]

/-- The operations as seven stretches: the row sums, the first gather, its sum, the first layer, the second gather,
    its sum, the second layer. -/
theorem ops_split : (ops : List (HloOp τ sig (Elt F)))
    = rowOps ++ (RefTake.takeOps0 ++ (RefTake.sumOps0 ++ (layerOps1 ++ (RefTake.takeOps2 ++ (RefTake.sumOps2 ++ layerOps2))))) := rfl

/-- The fold over two stretches in a row is the second's fold over the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]
attribute [local irreducible] Host.reduce Host.reduceAdd Host.gather concatenate in
set_option maxRecDepth 16384 in
set_option maxHeartbeats 1600000 in
/-- The row sums leave the edge features' sum in its buffer. -/
theorem row_v0 (W : Valuation τ sig (Elt F)) :
    after rowOps W (main_v0 : DevRef τ sig) = Terms.rowSum (W (main_arg2 : DevRef τ sig)) := by
  simp only [after_cons, after_nil]
  rfl
attribute [local irreducible] Host.reduce Host.reduceAdd Host.gather concatenate in
set_option maxRecDepth 16384 in
set_option maxHeartbeats 1600000 in
/-- The row sums leave the time features' sum in its buffer. -/
theorem row_v1 (W : Valuation τ sig (Elt F)) :
    after rowOps W (main_v1 : DevRef τ sig) = Terms.rowSum (W (main_arg3 : DevRef τ sig)) := by
  simp only [after_cons, after_nil]
  rfl
attribute [local irreducible] Host.reduce Host.reduceAdd Host.gather concatenate in
set_option maxRecDepth 16384 in
set_option maxHeartbeats 1600000 in
/-- The first layer's thirteen operations leave `Terms.layer` of the three sums, the embedding and the weights in its output buffer. -/
theorem layer1_v14 (W : Valuation τ sig (Elt F)) :
    after layerOps1 W (main_v14 : DevRef τ sig) = Terms.layer (W (main_v3 : DevRef τ sig)) (W (main_v0 : DevRef τ sig)) (W (main_v1 : DevRef τ sig)) (W (main_arg0 : DevRef τ sig))
        (W (main_arg4 : DevRef τ sig)) (W (main_arg5 : DevRef τ sig)) (W (main_arg6 : DevRef τ sig)) (W (main_arg7 : DevRef τ sig)) := by
  simp only [after_cons, after_nil]
  rfl
attribute [local irreducible] Host.reduce Host.reduceAdd Host.gather concatenate in
set_option maxRecDepth 16384 in
set_option maxHeartbeats 1600000 in
/-- The second layer's thirteen operations leave `Terms.layer` of the three sums, the first layer's output and the weights in the result buffer. -/
theorem layer2_v27 (W : Valuation τ sig (Elt F)) :
    after layerOps2 W (main_v27 : DevRef τ sig) = Terms.layer (W (main_v16 : DevRef τ sig)) (W (main_v0 : DevRef τ sig)) (W (main_v1 : DevRef τ sig)) (W (main_v14 : DevRef τ sig))
        (W (main_arg4 : DevRef τ sig)) (W (main_arg5 : DevRef τ sig)) (W (main_arg6 : DevRef τ sig)) (W (main_arg7 : DevRef τ sig)) := by
  simp only [after_cons, after_nil]
  rfl

/-! Each stretch leaves alone the buffers a later stretch still reads: none of its operations writes them. -/
theorem row_main_arg0 (W : Valuation τ sig (Elt F)) : after rowOps W (main_arg0 : DevRef τ sig) = W (main_arg0 : DevRef τ sig) := by
  simp only [after_cons, after_nil]
  rfl
theorem row_main_arg1 (W : Valuation τ sig (Elt F)) : after rowOps W (main_arg1 : DevRef τ sig) = W (main_arg1 : DevRef τ sig) := by
  simp only [after_cons, after_nil]
  rfl
theorem row_main_arg4 (W : Valuation τ sig (Elt F)) : after rowOps W (main_arg4 : DevRef τ sig) = W (main_arg4 : DevRef τ sig) := by
  simp only [after_cons, after_nil]
  rfl
theorem row_main_arg5 (W : Valuation τ sig (Elt F)) : after rowOps W (main_arg5 : DevRef τ sig) = W (main_arg5 : DevRef τ sig) := by
  simp only [after_cons, after_nil]
  rfl
theorem row_main_arg6 (W : Valuation τ sig (Elt F)) : after rowOps W (main_arg6 : DevRef τ sig) = W (main_arg6 : DevRef τ sig) := by
  simp only [after_cons, after_nil]
  rfl
theorem row_main_arg7 (W : Valuation τ sig (Elt F)) : after rowOps W (main_arg7 : DevRef τ sig) = W (main_arg7 : DevRef τ sig) := by
  simp only [after_cons, after_nil]
  rfl

theorem take0_main_v0 (W : Valuation τ sig (Elt F)) : after RefTake.takeOps0 W (main_v0 : DevRef τ sig) = W (main_v0 : DevRef τ sig) := by
  simp only [after_cons, after_nil]
  rfl
theorem take0_main_v1 (W : Valuation τ sig (Elt F)) : after RefTake.takeOps0 W (main_v1 : DevRef τ sig) = W (main_v1 : DevRef τ sig) := by
  simp only [after_cons, after_nil]
  rfl
theorem take0_main_arg0 (W : Valuation τ sig (Elt F)) : after RefTake.takeOps0 W (main_arg0 : DevRef τ sig) = W (main_arg0 : DevRef τ sig) := by
  simp only [after_cons, after_nil]
  rfl
theorem take0_main_arg1 (W : Valuation τ sig (Elt F)) : after RefTake.takeOps0 W (main_arg1 : DevRef τ sig) = W (main_arg1 : DevRef τ sig) := by
  simp only [after_cons, after_nil]
  rfl
theorem take0_main_arg4 (W : Valuation τ sig (Elt F)) : after RefTake.takeOps0 W (main_arg4 : DevRef τ sig) = W (main_arg4 : DevRef τ sig) := by
  simp only [after_cons, after_nil]
  rfl
theorem take0_main_arg5 (W : Valuation τ sig (Elt F)) : after RefTake.takeOps0 W (main_arg5 : DevRef τ sig) = W (main_arg5 : DevRef τ sig) := by
  simp only [after_cons, after_nil]
  rfl
theorem take0_main_arg6 (W : Valuation τ sig (Elt F)) : after RefTake.takeOps0 W (main_arg6 : DevRef τ sig) = W (main_arg6 : DevRef τ sig) := by
  simp only [after_cons, after_nil]
  rfl
theorem take0_main_arg7 (W : Valuation τ sig (Elt F)) : after RefTake.takeOps0 W (main_arg7 : DevRef τ sig) = W (main_arg7 : DevRef τ sig) := by
  simp only [after_cons, after_nil]
  rfl

theorem sum0_main_v0 (W : Valuation τ sig (Elt F)) : after RefTake.sumOps0 W (main_v0 : DevRef τ sig) = W (main_v0 : DevRef τ sig) := by
  simp only [after_cons, after_nil]
  rfl
theorem sum0_main_v1 (W : Valuation τ sig (Elt F)) : after RefTake.sumOps0 W (main_v1 : DevRef τ sig) = W (main_v1 : DevRef τ sig) := by
  simp only [after_cons, after_nil]
  rfl
theorem sum0_main_arg0 (W : Valuation τ sig (Elt F)) : after RefTake.sumOps0 W (main_arg0 : DevRef τ sig) = W (main_arg0 : DevRef τ sig) := by
  simp only [after_cons, after_nil]
  rfl
theorem sum0_main_arg1 (W : Valuation τ sig (Elt F)) : after RefTake.sumOps0 W (main_arg1 : DevRef τ sig) = W (main_arg1 : DevRef τ sig) := by
  simp only [after_cons, after_nil]
  rfl
theorem sum0_main_arg4 (W : Valuation τ sig (Elt F)) : after RefTake.sumOps0 W (main_arg4 : DevRef τ sig) = W (main_arg4 : DevRef τ sig) := by
  simp only [after_cons, after_nil]
  rfl
theorem sum0_main_arg5 (W : Valuation τ sig (Elt F)) : after RefTake.sumOps0 W (main_arg5 : DevRef τ sig) = W (main_arg5 : DevRef τ sig) := by
  simp only [after_cons, after_nil]
  rfl
theorem sum0_main_arg6 (W : Valuation τ sig (Elt F)) : after RefTake.sumOps0 W (main_arg6 : DevRef τ sig) = W (main_arg6 : DevRef τ sig) := by
  simp only [after_cons, after_nil]
  rfl
theorem sum0_main_arg7 (W : Valuation τ sig (Elt F)) : after RefTake.sumOps0 W (main_arg7 : DevRef τ sig) = W (main_arg7 : DevRef τ sig) := by
  simp only [after_cons, after_nil]
  rfl

theorem layer1_main_v0 (W : Valuation τ sig (Elt F)) : after layerOps1 W (main_v0 : DevRef τ sig) = W (main_v0 : DevRef τ sig) := by
  simp only [after_cons, after_nil]
  rfl
theorem layer1_main_v1 (W : Valuation τ sig (Elt F)) : after layerOps1 W (main_v1 : DevRef τ sig) = W (main_v1 : DevRef τ sig) := by
  simp only [after_cons, after_nil]
  rfl
theorem layer1_main_arg1 (W : Valuation τ sig (Elt F)) : after layerOps1 W (main_arg1 : DevRef τ sig) = W (main_arg1 : DevRef τ sig) := by
  simp only [after_cons, after_nil]
  rfl
theorem layer1_main_arg4 (W : Valuation τ sig (Elt F)) : after layerOps1 W (main_arg4 : DevRef τ sig) = W (main_arg4 : DevRef τ sig) := by
  simp only [after_cons, after_nil]
  rfl
theorem layer1_main_arg5 (W : Valuation τ sig (Elt F)) : after layerOps1 W (main_arg5 : DevRef τ sig) = W (main_arg5 : DevRef τ sig) := by
  simp only [after_cons, after_nil]
  rfl
theorem layer1_main_arg6 (W : Valuation τ sig (Elt F)) : after layerOps1 W (main_arg6 : DevRef τ sig) = W (main_arg6 : DevRef τ sig) := by
  simp only [after_cons, after_nil]
  rfl
theorem layer1_main_arg7 (W : Valuation τ sig (Elt F)) : after layerOps1 W (main_arg7 : DevRef τ sig) = W (main_arg7 : DevRef τ sig) := by
  simp only [after_cons, after_nil]
  rfl

theorem take2_main_v0 (W : Valuation τ sig (Elt F)) : after RefTake.takeOps2 W (main_v0 : DevRef τ sig) = W (main_v0 : DevRef τ sig) := by
  simp only [after_cons, after_nil]
  rfl
theorem take2_main_v1 (W : Valuation τ sig (Elt F)) : after RefTake.takeOps2 W (main_v1 : DevRef τ sig) = W (main_v1 : DevRef τ sig) := by
  simp only [after_cons, after_nil]
  rfl
theorem take2_main_v14 (W : Valuation τ sig (Elt F)) : after RefTake.takeOps2 W (main_v14 : DevRef τ sig) = W (main_v14 : DevRef τ sig) := by
  simp only [after_cons, after_nil]
  rfl
theorem take2_main_arg4 (W : Valuation τ sig (Elt F)) : after RefTake.takeOps2 W (main_arg4 : DevRef τ sig) = W (main_arg4 : DevRef τ sig) := by
  simp only [after_cons, after_nil]
  rfl
theorem take2_main_arg5 (W : Valuation τ sig (Elt F)) : after RefTake.takeOps2 W (main_arg5 : DevRef τ sig) = W (main_arg5 : DevRef τ sig) := by
  simp only [after_cons, after_nil]
  rfl
theorem take2_main_arg6 (W : Valuation τ sig (Elt F)) : after RefTake.takeOps2 W (main_arg6 : DevRef τ sig) = W (main_arg6 : DevRef τ sig) := by
  simp only [after_cons, after_nil]
  rfl
theorem take2_main_arg7 (W : Valuation τ sig (Elt F)) : after RefTake.takeOps2 W (main_arg7 : DevRef τ sig) = W (main_arg7 : DevRef τ sig) := by
  simp only [after_cons, after_nil]
  rfl

theorem sum2_main_v0 (W : Valuation τ sig (Elt F)) : after RefTake.sumOps2 W (main_v0 : DevRef τ sig) = W (main_v0 : DevRef τ sig) := by
  simp only [after_cons, after_nil]
  rfl
theorem sum2_main_v1 (W : Valuation τ sig (Elt F)) : after RefTake.sumOps2 W (main_v1 : DevRef τ sig) = W (main_v1 : DevRef τ sig) := by
  simp only [after_cons, after_nil]
  rfl
theorem sum2_main_v14 (W : Valuation τ sig (Elt F)) : after RefTake.sumOps2 W (main_v14 : DevRef τ sig) = W (main_v14 : DevRef τ sig) := by
  simp only [after_cons, after_nil]
  rfl
theorem sum2_main_arg4 (W : Valuation τ sig (Elt F)) : after RefTake.sumOps2 W (main_arg4 : DevRef τ sig) = W (main_arg4 : DevRef τ sig) := by
  simp only [after_cons, after_nil]
  rfl
theorem sum2_main_arg5 (W : Valuation τ sig (Elt F)) : after RefTake.sumOps2 W (main_arg5 : DevRef τ sig) = W (main_arg5 : DevRef τ sig) := by
  simp only [after_cons, after_nil]
  rfl
theorem sum2_main_arg6 (W : Valuation τ sig (Elt F)) : after RefTake.sumOps2 W (main_arg6 : DevRef τ sig) = W (main_arg6 : DevRef τ sig) := by
  simp only [after_cons, after_nil]
  rfl
theorem sum2_main_arg7 (W : Valuation τ sig (Elt F)) : after RefTake.sumOps2 W (main_arg7 : DevRef τ sig) = W (main_arg7 : DevRef τ sig) := by
  simp only [after_cons, after_nil]
  rfl

attribute [local irreducible] Terms.layer Terms.takeSum Terms.rowSum in
/-- The fold read at the result buffer: stretch by stretch from the last, each stretch's value in terms of the
    contents it found, the untouched buffers carried back to the launch contents. -/
theorem out_eq (V : Valuation τ sig (Elt F)) :
    after ops V (main_v27 : DevRef τ sig)
      = Terms.result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [ops_split, after_append, after_append, after_append, after_append, after_append, after_append]
  rw [layer2_v27]
  rw [RefTake.takeSum2, sum2_main_v0, sum2_main_v1, sum2_main_v14, sum2_main_arg4, sum2_main_arg5, sum2_main_arg6, sum2_main_arg7, take2_main_v0, take2_main_v1, take2_main_v14, take2_main_arg4, take2_main_arg5, take2_main_arg6, take2_main_arg7]
  rw [layer1_v14, layer1_main_v0, layer1_main_v1, layer1_main_arg1, layer1_main_arg4, layer1_main_arg5, layer1_main_arg6, layer1_main_arg7]
  rw [RefTake.takeSum0, sum0_main_v0, sum0_main_v1, sum0_main_arg0, sum0_main_arg1, sum0_main_arg4, sum0_main_arg5, sum0_main_arg6, sum0_main_arg7, take0_main_v0, take0_main_v1, take0_main_arg0, take0_main_arg1, take0_main_arg4, take0_main_arg5, take0_main_arg6, take0_main_arg7]
  rw [row_v0, row_v1, row_main_arg0, row_main_arg1, row_main_arg4, row_main_arg5, row_main_arg6, row_main_arg7]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., binary_bufs_sub .., nullary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nary_bufs_sub .., binary_bufs_sub .., unary_bufs_sub .., unary_bufs_sub .., binary_bufs_sub ..,
    nullary_bufs_sub .., unary_bufs_sub .., binary_bufs_sub .., binary_bufs_sub .., binary_bufs_sub .., unary_bufs_sub ..,
    unary_bufs_sub .., binary_bufs_sub ..⟩

/-- From any memory with zero counters every weakly fair execution of @main terminates, and each buffer of each
    core ends at the operations' fold over what that core held at launch. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every weakly fair execution of the reference terminates, nothing faulting, with the result buffer at
    `Terms.result` of the launch contents of the eight arguments, and the arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27)
          = Terms.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono
    (fun _ h c => ⟨(h c main_v27).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _)⟩)
    (run_main m ρ)

end Cert.ReferenceIdeal.RefRun

end
-- ==== Proof.RefValue.lean ====
/-
  The reference's layer read entry by entry on the extended reals.

  Entry (n, j) of a matrix product is the sum over the contracted index of the products of the entries; entry
  (n, k) of a concatenation along the feature axis is the entry of the piece whose column range holds k.  So the
  reference's product of the concatenated row with the whole first weight matrix is a sum over 456 = 256 + 100 + 100
  columns, which splits (`Spec.sum456`) into the three partial products of the specification; likewise 512 = 256 + 256
  for the second matrix.  The relu is the maximum with the zero word, the biases are added row by row, and the host's
  add-reduction over the 16 neighbours from a zero initial value is the plain sum.
-/
import proofs.«178062_j48747878810094_2_alg».proof.ReferenceIdeal
import proofs.«178062_j48747878810094_2_alg».proof.Proof.Gen.ReferenceIdeal
import proofs.«178062_j48747878810094_2_alg».proof.Proof.RefTerms
import proofs.«178062_j48747878810094_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal

/-- The host's sum over the neighbour axis is the specification's. -/
theorem rowSum_eq (x : (⟨S50000x16x100, .f32⟩ : BufTy).Contents (Elt Ideal)) :
    Terms.rowSum (F := Ideal) x = Cert.Spec.rowSum x := by
  funext i
  obtain ⟨n, e, rfl⟩ : ∃ (n : Fin 50000) (e : Fin 100), i = ix2 n e := ⟨i 0, i 1, eq_ix2 i⟩
  have hR : S50000x16x100.Reduces [1] S50000x100 := by decide
  unfold Terms.rowSum Host.reduceAdd
  -- entry (n, e) is the initial value plus the sum over the reduced axis' 16 coordinates
  refine (Ideal.hostReduceAdd_single _ hR x _ (ix2 n e)).trans ?_
  show Ideal.ofBits .f32 0x00000000#32 + _ = ∑ k : Fin 16, x (ix3 n k e)
  -- the initial value is the word of 0.0, the extended real 0
  rw [Ideal.ofBits_zero_f32, zero_add]
  -- the index with k put back on the middle axis is (n, k, e), coordinate by coordinate
  refine Finset.sum_congr rfl fun k _ => congrArg x (funext fun a => ?_)
  match a with
  | ⟨0, _⟩ => rfl
  | ⟨1, _⟩ => rfl
  | ⟨2, _⟩ => rfl

/-! ## The matrix products at an entry -/

/-- Entry (n, j) of the product of a [50000, 456] array with a [456, 256] matrix: the sum over the 456 contracted
    columns of the products of the entries. -/
theorem dot456_apply (l : FVec Ideal S50000x456 .f32) (r : FVec Ideal S456x256 .f32) (n : Fin 50000) (j : Fin 256) :
    Host.dotGeneral (F := Ideal) dot_S50000x456_S456x256_S50000x256_1_0_0_1_n_n none l r (ix2 n j)
      = ∑ k : Fin 456, l (ix2 n k) * r (ix2 k j) := by
  refine (Ideal.dotGeneral_apply _ none .single l r (ix2 n j)).trans ?_
  -- the contraction runs over one axis of extent 456: re-index the sum by that axis' coordinate
  rw [← Equiv.sum_comp (contrEquiv1 dot_S50000x456_S456x256_S50000x256_1_0_0_1_n_n 456 rfl rfl).symm]
  refine Finset.sum_congr rfl fun k _ => ?_
  congr 1
  · -- the left operand is read at (n, k): row from the result's index, column the contracted coordinate
    refine congrArg l (funext fun a => ?_)
    match a with
    | ⟨0, _⟩ => rfl
    | ⟨1, _⟩ =>
      exact Fin.ext ((DotDims.lhsIdx_val_of_single _ rfl _ _).trans (contrEquiv1_symm_val _ 456 rfl rfl k))
  · -- the right operand is read at (k, j)
    refine congrArg r (funext fun a => ?_)
    match a with
    | ⟨0, _⟩ =>
      exact Fin.ext ((DotDims.rhsIdx_val_of_single _ rfl _ _).trans (contrEquiv1_symm_val _ 456 rfl rfl k))
    | ⟨1, _⟩ => rfl

/-- Entry (n, j) of the product of a [50000, 512] array with a [512, 256] matrix: the sum over the 512 contracted
    columns. -/
theorem dot512_apply (l : FVec Ideal S50000x512 .f32) (r : FVec Ideal S512x256 .f32) (n : Fin 50000) (j : Fin 256) :
    Host.dotGeneral (F := Ideal) dot_S50000x512_S512x256_S50000x256_1_0_0_1_n_n none l r (ix2 n j)
      = ∑ k : Fin 512, l (ix2 n k) * r (ix2 k j) := by
  refine (Ideal.dotGeneral_apply _ none .single l r (ix2 n j)).trans ?_
  -- the contraction runs over one axis of extent 512: re-index the sum by that axis' coordinate
  rw [← Equiv.sum_comp (contrEquiv1 dot_S50000x512_S512x256_S50000x256_1_0_0_1_n_n 512 rfl rfl).symm]
  refine Finset.sum_congr rfl fun k _ => ?_
  congr 1
  · -- the left operand is read at (n, k): row from the result's index, column the contracted coordinate
    refine congrArg l (funext fun a => ?_)
    match a with
    | ⟨0, _⟩ => rfl
    | ⟨1, _⟩ =>
      exact Fin.ext ((DotDims.lhsIdx_val_of_single _ rfl _ _).trans (contrEquiv1_symm_val _ 512 rfl rfl k))
  · -- the right operand is read at (k, j)
    refine congrArg r (funext fun a => ?_)
    match a with
    | ⟨0, _⟩ =>
      exact Fin.ext ((DotDims.rhsIdx_val_of_single _ rfl _ _).trans (contrEquiv1_symm_val _ 512 rfl rfl k))
    | ⟨1, _⟩ => rfl

/-! ## The bias rows and the relu at an entry -/

/-- A bias vector laid along every row reads, at (n, j), the vector's entry j: the broadcast to all rows reads row 0
    of the one-row matrix, and that row reads the vector. -/
theorem biasRows_apply (b : FVec Ideal S256 .f32) (n : Fin 50000) (j : Fin 256) :
    Terms.biasRows (F := Ideal) b (ix2 n j) = b (ix1 j) := by
  unfold Terms.biasRows
  refine (broadcastInDim_apply _ _ _ (ix2 n j) (ix2 (0 : Fin 1) j) ?_).trans ?_
  · intro a
    match a with
    | ⟨0, _⟩ => rfl
    | ⟨1, _⟩ => rfl
  · refine broadcastInDim_apply _ _ _ (ix2 (0 : Fin 1) j) (ix1 j) ?_
    intro a
    match a with
    | ⟨0, _⟩ => rfl

/-- The relu at an entry is the maximum of that entry with the zero word: the broadcast scalar reads the same
    everywhere. -/
theorem relu_apply (x : FVec Ideal S50000x256 .f32) (i : S50000x256.Idx) :
    Terms.relu (F := Ideal) x i = max (x i) Cert.Spec.zeroWord := rfl

/-! ## The concatenated rows at an entry

Column c of the 456-wide row lies in the first piece when c < 256, in the second when 256 ≤ c < 356, in the third
from 356 on; each lemma names the column by its offset k inside the piece.  Likewise for the 512-wide row, which
has its one join at 256. -/

theorem cat1_apply_N (sN : FVec Ideal S50000x256 .f32) (sE sT : FVec Ideal S50000x100 .f32)
    (h : Shape.Concatenates [S50000x256, S50000x100, S50000x100] S50000x456 1) (n : Fin 50000) (k : Fin 256)
    (c : Fin 456) (hc : c.val = k.val) :
    concatenate S50000x456 1 [⟨S50000x256, sN⟩, ⟨S50000x100, sE⟩, ⟨S50000x100, sT⟩] h (ix2 n c) = sN (ix2 n k) := by
  refine concatenate_apply_piece 1 _ _ (ix2 n c) 0 (by simp) S50000x256 sN rfl rfl 0 rfl (ix2 n k) ?_ ?_
  · intro b hb
    match b with
    | ⟨0, _⟩ => rfl
    | ⟨1, _⟩ => exact absurd rfl hb
  · show 0 + k.val = c.val
    omega

theorem cat1_apply_E (sN : FVec Ideal S50000x256 .f32) (sE sT : FVec Ideal S50000x100 .f32)
    (h : Shape.Concatenates [S50000x256, S50000x100, S50000x100] S50000x456 1) (n : Fin 50000) (k : Fin 100)
    (c : Fin 456) (hc : c.val = 256 + k.val) :
    concatenate S50000x456 1 [⟨S50000x256, sN⟩, ⟨S50000x100, sE⟩, ⟨S50000x100, sT⟩] h (ix2 n c) = sE (ix2 n k) := by
  refine concatenate_apply_piece 1 _ _ (ix2 n c) 1 (by simp) S50000x100 sE rfl rfl 256 rfl (ix2 n k) ?_ ?_
  · intro b hb
    match b with
    | ⟨0, _⟩ => rfl
    | ⟨1, _⟩ => exact absurd rfl hb
  · show 256 + k.val = c.val
    omega

theorem cat1_apply_T (sN : FVec Ideal S50000x256 .f32) (sE sT : FVec Ideal S50000x100 .f32)
    (h : Shape.Concatenates [S50000x256, S50000x100, S50000x100] S50000x456 1) (n : Fin 50000) (k : Fin 100)
    (c : Fin 456) (hc : c.val = 356 + k.val) :
    concatenate S50000x456 1 [⟨S50000x256, sN⟩, ⟨S50000x100, sE⟩, ⟨S50000x100, sT⟩] h (ix2 n c) = sT (ix2 n k) := by
  refine concatenate_apply_piece 1 _ _ (ix2 n c) 2 (by simp) S50000x100 sT rfl rfl 356 rfl (ix2 n k) ?_ ?_
  · intro b hb
    match b with
    | ⟨0, _⟩ => rfl
    | ⟨1, _⟩ => exact absurd rfl hb
  · show 356 + k.val = c.val
    omega

theorem cat2_apply_O (o g : FVec Ideal S50000x256 .f32) (h : Shape.Concatenates [S50000x256, S50000x256] S50000x512 1)
    (n : Fin 50000) (k : Fin 256) (c : Fin 512) (hc : c.val = k.val) :
    concatenate S50000x512 1 [⟨S50000x256, o⟩, ⟨S50000x256, g⟩] h (ix2 n c) = o (ix2 n k) := by
  refine concatenate_apply_piece 1 _ _ (ix2 n c) 0 (by simp) S50000x256 o rfl rfl 0 rfl (ix2 n k) ?_ ?_
  · intro b hb
    match b with
    | ⟨0, _⟩ => rfl
    | ⟨1, _⟩ => exact absurd rfl hb
  · show 0 + k.val = c.val
    omega

theorem cat2_apply_G (o g : FVec Ideal S50000x256 .f32) (h : Shape.Concatenates [S50000x256, S50000x256] S50000x512 1)
    (n : Fin 50000) (k : Fin 256) (c : Fin 512) (hc : c.val = 256 + k.val) :
    concatenate S50000x512 1 [⟨S50000x256, o⟩, ⟨S50000x256, g⟩] h (ix2 n c) = g (ix2 n k) := by
  refine concatenate_apply_piece 1 _ _ (ix2 n c) 1 (by simp) S50000x256 g rfl rfl 256 rfl (ix2 n k) ?_ ?_
  · intro b hb
    match b with
    | ⟨0, _⟩ => rfl
    | ⟨1, _⟩ => exact absurd rfl hb
  · show 256 + k.val = c.val
    omega

/-! ## The aggregated message at an entry -/

/-- Entry (m, c) of the message: the product of the 456-wide row with the first weight matrix splits at the two joins
    into the three partial products, each piece of the row read back as the array it came from; then the bias and
    the maximum with the zero word. -/
theorem agg_apply (sN : FVec Ideal S50000x256 .f32) (sE sT : FVec Ideal S50000x100 .f32) (w1 : FVec Ideal S456x256 .f32)
    (b1 : FVec Ideal S256 .f32) (h : Shape.Concatenates [S50000x256, S50000x100, S50000x100] S50000x456 1)
    (m : Fin 50000) (c : Fin 256) :
    Terms.relu (F := Ideal) (addf (Host.dotGeneral (F := Ideal) dot_S50000x456_S456x256_S50000x256_1_0_0_1_n_n none
        (concatenate S50000x456 1 [⟨S50000x256, sN⟩, ⟨S50000x100, sE⟩, ⟨S50000x100, sT⟩] h) w1) (Terms.biasRows (F := Ideal) b1)) (ix2 m c)
      = Cert.Spec.aggRow (fun k => sN (ix2 m k)) (fun k => sE (ix2 m k)) (fun k => sT (ix2 m k)) (fun k j => w1 (ix2 k j))
          (fun j => b1 (ix1 j)) c := by
  refine (relu_apply _ _).trans ?_
  unfold Cert.Spec.aggRow
  refine congrArg (fun v => max v Cert.Spec.zeroWord) ?_
  refine (addf_apply _ _ _).trans ?_
  refine congr (congrArg HAdd.hAdd ?_) (biasRows_apply b1 m c)
  refine (dot456_apply _ w1 m c).trans ?_
  refine (Cert.Spec.sum456 _).trans ?_
  refine congr (congrArg HAdd.hAdd (congr (congrArg HAdd.hAdd ?_) ?_)) ?_
  · exact Finset.sum_congr rfl fun k _ => congrArg (· * _) (cat1_apply_N sN sE sT h m k _ rfl)
  · exact Finset.sum_congr rfl fun k _ => congrArg (· * _) (cat1_apply_E sN sE sT h m k _ rfl)
  · exact Finset.sum_congr rfl fun k _ => congrArg (· * _) (cat1_apply_T sN sE sT h m k _ rfl)

/-- The reference's layer is the specification's layer. -/
theorem layer_eq (sN : (⟨S50000x256, .f32⟩ : BufTy).Contents (Elt Ideal)) (sE sT : (⟨S50000x100, .f32⟩ : BufTy).Contents (Elt Ideal))
    (o : (⟨S50000x256, .f32⟩ : BufTy).Contents (Elt Ideal)) (w1 : (⟨S456x256, .f32⟩ : BufTy).Contents (Elt Ideal))
    (b1 : (⟨S256, .f32⟩ : BufTy).Contents (Elt Ideal)) (w2 : (⟨S512x256, .f32⟩ : BufTy).Contents (Elt Ideal))
    (b2 : (⟨S256, .f32⟩ : BufTy).Contents (Elt Ideal)) :
    Terms.layer (F := Ideal) sN sE sT o w1 b1 w2 b2 = Cert.Spec.layer sN sE sT o w1 b1 w2 b2 := by
  funext i
  obtain ⟨n, j, rfl⟩ : ∃ (n : Fin 50000) (j : Fin 256), i = ix2 n j := ⟨i 0, i 1, eq_ix2 i⟩
  unfold Terms.layer
  refine (addf_apply _ _ _).trans ?_
  show _ = Cert.Spec.layerRow (fun k => sN (ix2 n k)) (fun k => sE (ix2 n k)) (fun k => sT (ix2 n k)) (fun k => o (ix2 n k))
    (fun k j => w1 (ix2 k j)) (fun j => b1 (ix1 j)) (fun k j => w2 (ix2 k j)) (fun j => b2 (ix1 j)) j
  unfold Cert.Spec.layerRow
  refine congr (congrArg HAdd.hAdd ?_) (biasRows_apply b2 n j)
  -- the product of the 512-wide row with the second weight matrix splits in the middle
  refine (dot512_apply _ w2 n j).trans ?_
  refine (Cert.Spec.sum512 _).trans ?_
  refine congr (congrArg HAdd.hAdd ?_) ?_
  · -- the first 256 columns are the old embedding's row
    exact Finset.sum_congr rfl fun k _ => congrArg (· * _) (cat2_apply_O o _ _ n k _ rfl)
  · -- the last 256 columns are the message's row
    refine Finset.sum_congr rfl fun k _ => ?_
    exact congrArg (· * _) ((cat2_apply_G o _ _ n k _ rfl).trans (agg_apply sN sE sT w1 b1 _ n k))

end Cert.ReferenceIdeal.RefValue

end
-- ==== Proof.Bridge.lean ====
/-
  The two programs compute one function.

  The kernel program's result is two layers of the specification over its arguments, the neighbour sums taken by the
  host's gather-and-sum; the reference's result is two of ITS layers over the same gather-and-sum.  The reference's
  layer and neighbour-axis sum are the specification's (the concatenated products split into the partial products),
  and the gather-and-sum is literally the same chain of host operations in both programs, so it is never opened.
-/
import proofs.«178062_j48747878810094_2_alg».proof.Proof.KerValue
import proofs.«178062_j48747878810094_2_alg».proof.Proof.RefTerms
import proofs.«178062_j48747878810094_2_alg».proof.Proof.RefValue

noncomputable section

namespace Cert.Proof.Bridge

open Idealize.ShloMosaic

/-- The host's gather-and-sum is one function in the two programs: the same operations over the same shapes. -/
theorem takeSum_eq (x : (⟨Cert.KernelIdeal.S50000x256, .f32⟩ : BufTy).Contents (Elt Ideal))
    (nb : (⟨Cert.KernelIdeal.S50000x16, .i32⟩ : BufTy).Contents (Elt Ideal)) :
    Cert.KernelIdeal.Terms.takeSum (F := Ideal) x nb = Cert.ReferenceIdeal.Terms.takeSum (F := Ideal) x nb := by
  -- both sides are the same operations applied to the same arguments; only the names of the shapes, of the side
  -- conditions and of the gather's dimension record differ, and those have equal values
  unfold Cert.KernelIdeal.Terms.takeSum Cert.KernelIdeal.Terms.take Cert.ReferenceIdeal.Terms.takeSum
  rfl

/-- Two layers of the specification are the reference's result. -/
theorem result_eq (a0 : (⟨Cert.KernelIdeal.S50000x256, .f32⟩ : BufTy).Contents (Elt Ideal))
    (a1 : (⟨Cert.KernelIdeal.S50000x16, .i32⟩ : BufTy).Contents (Elt Ideal))
    (a2 a3 : (⟨Cert.KernelIdeal.S50000x16x100, .f32⟩ : BufTy).Contents (Elt Ideal))
    (a4 : (⟨Cert.KernelIdeal.S456x256, .f32⟩ : BufTy).Contents (Elt Ideal))
    (a5 : (⟨Cert.KernelIdeal.S256, .f32⟩ : BufTy).Contents (Elt Ideal))
    (a6 : (⟨Cert.KernelIdeal.S512x256, .f32⟩ : BufTy).Contents (Elt Ideal))
    (a7 : (⟨Cert.KernelIdeal.S256, .f32⟩ : BufTy).Contents (Elt Ideal)) :
    Cert.KernelIdeal.KerValue.twoLayers a0 a1 a2 a3 a4 a5 a6 a7
      = Cert.ReferenceIdeal.Terms.result (F := Ideal) a0 a1 a2 a3 a4 a5 a6 a7 := by
  unfold Cert.KernelIdeal.KerValue.twoLayers Cert.ReferenceIdeal.Terms.result
  dsimp only
  -- inside out on the reference's side: its neighbour-axis sums and its first layer are the specification's, the
  -- gather-and-sum is the shared one; then the same for the second layer
  rw [Cert.ReferenceIdeal.RefValue.rowSum_eq a2, Cert.ReferenceIdeal.RefValue.rowSum_eq a3, ← takeSum_eq a0 a1,
    Cert.ReferenceIdeal.RefValue.layer_eq (Cert.KernelIdeal.Terms.takeSum (F := Ideal) a0 a1) (Cert.Spec.rowSum a2) (Cert.Spec.rowSum a3) a0 a4 a5 a6 a7,
    ← takeSum_eq _ a1, Cert.ReferenceIdeal.RefValue.layer_eq]

end Cert.Proof.Bridge

end
-- ==== Proof.lean ====
/-
  The certificate's claim, assembled.

  Both programs update every node's embedding twice.  One update of node n takes the sum of its sixteen neighbours'
  rows, the sums of its edge and time features over the sixteen neighbours, and its own row: the three sums go through
  the first weight matrix, a bias and a maximum with zero; that message and the node's own row go through the second
  weight matrix and a bias (Proof/Spec.lean states this row by row over the extended reals).  The claim is that, read
  over the extended reals, the kernel program and the reference leave the same [50000, 256] array, that each program
  runs and leaves its eight arguments as they were, and that reading the kernel program over the extended reals
  rewrote none of its operations.

  Where each part is proved:
    * that the kernel program runs with its arguments unchanged, as printed and over the extended reals: the generated
      frame modules (Proof/Gen/Kernel/Frame.lean, Proof/Gen/KernelIdeal/Frame.lean);
    * the kernel program's run to the contents its three regions leave: Proof/KerRun.lean; those contents as two
      updates of the specification over the launch contents: Proof/KerValue.lean, from the region values
      (Proof/RegionValue.lean), the layer kernel's block entry by entry (Proof/LayerBlock.lean) and the host
      operations between the regions (Proof/KerHost.lean, Proof/KerTerms.lean);
    * the reference's run to its own spelling of the two updates, arguments unchanged: Proof/RefRun.lean over
      Proof/RefTerms.lean;
    * that the two spellings are one function — a product with a concatenated row is the sum of the partial
      products, by splitting a finite sum where the parts meet: Proof/Bridge.lean over Proof/RefValue.lean.
-/
import proofs.«178062_j48747878810094_2_alg».proof.Defs
import proofs.«178062_j48747878810094_2_alg».proof.Proof.Gen.Kernel
import proofs.«178062_j48747878810094_2_alg».proof.Proof.Gen.Kernel.Skeleton
import proofs.«178062_j48747878810094_2_alg».proof.Proof.Gen.Kernel.Launch
import proofs.«178062_j48747878810094_2_alg».proof.Proof.Gen.Kernel.Points
import proofs.«178062_j48747878810094_2_alg».proof.Proof.Gen.Kernel.Frame
import proofs.«178062_j48747878810094_2_alg».proof.Proof.Gen.KernelIdeal
import proofs.«178062_j48747878810094_2_alg».proof.Proof.Gen.KernelIdeal.Skeleton
import proofs.«178062_j48747878810094_2_alg».proof.Proof.Gen.KernelIdeal.Launch
import proofs.«178062_j48747878810094_2_alg».proof.Proof.Gen.KernelIdeal.Points
import proofs.«178062_j48747878810094_2_alg».proof.Proof.Gen.KernelIdeal.Frame
import proofs.«178062_j48747878810094_2_alg».proof.Proof.Gen.ReferenceIdeal
import proofs.«178062_j48747878810094_2_alg».proof.Proof.Gen.Pre_finite_inputs
import proofs.«178062_j48747878810094_2_alg».proof.Proof.KerRun
import proofs.«178062_j48747878810094_2_alg».proof.Proof.KerValue
import proofs.«178062_j48747878810094_2_alg».proof.Proof.RefRun
import proofs.«178062_j48747878810094_2_alg».proof.Proof.Bridge
import Idealize.ShloMosaic.Adequacy
import Idealize.ShloMosaic.Init

noncomputable section

namespace Cert.Proof

open Idealize.ShloMosaic Idealize.SL.Sem

/-- The program as printed runs, and its run leaves the arguments as they were. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference is a straight line of host operations: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The two programs end with the same array: two layers of the specification over the eight arguments. The kernel
    program's run ends at what its three regions leave, which is that function of the launch contents; the reference's
    run ends at its own spelling of the two layers over contents that agree with the kernel program's, and the two
    spellings are one function. -/
theorem algebraic : Cert.algebraic_KernelIdeal_ReferenceIdeal := by
  intro m ρ m' ρ' _ hagree
  refine ⟨fun c => Cert.KernelIdeal.KerValue.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KerValue.result_eq m ρ c), (h c).2⟩)
      (Cert.KernelIdeal.KerRun.run (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Proof.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
